-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg8 : FVec F S128x40 .f32) (main_arg9 : FVec F S128x40 .f32) (main_arg10 : FVec F S40 .f32) (main_v33 : IVec S_ 1) : IVec S_ 1 :=
  let main_v34 : FVec F S128x40 .f32 := Host.absf main_arg8
  let main_cst_12 : FVec F S_ .f32 := constant S_ .f32 0x7F800000#32
  let main_v35 : FVec F S128x40 .f32 := broadcastInDim S128x40 ![] bcast_S_S128x40 main_cst_12
  let main_v36 : IVec S128x40 1 := cmpf .olt main_v34 main_v35
  let main_c_13 : IVec S_ 1 := constantI S_ 1 1#1
  let main_v37 : IVec S_ 1 := (fun x v => Host.reduce IntOp.andi x v reducesTo_S128x40_S_d0_1 h_S_) main_v36 main_c_13
  let main_v38 : IVec S_ 1 := andi main_v33 main_v37
  let main_v39 : FVec F S128x40 .f32 := Host.absf main_arg9
  let main_cst_14 : FVec F S_ .f32 := constant S_ .f32 0x7F800000#32
  let main_v40 : FVec F S128x40 .f32 := broadcastInDim S128x40 ![] bcast_S_S128x40 main_cst_14
  let main_v41 : IVec S128x40 1 := cmpf .olt main_v39 main_v40
  let main_c_15 : IVec S_ 1 := constantI S_ 1 1#1
  let main_v42 : IVec S_ 1 := (fun x v => Host.reduce IntOp.andi x v reducesTo_S128x40_S_d0_1 h_S_) main_v41 main_c_15
  let main_v43 : IVec S_ 1 := andi main_v38 main_v42
  let main_v44 : FVec F S40 .f32 := Host.absf main_arg10
  let main_cst_16 : FVec F S_ .f32 := constant S_ .f32 0x7F800000#32
  let main_v45 : FVec F S40 .f32 := broadcastInDim S40 ![] bcast_S_S40 main_cst_16
  let main_v46 : IVec S40 1 := cmpf .olt main_v44 main_v45
  let main_c_17 : IVec S_ 1 := constantI S_ 1 1#1
  let main_v47 : IVec S_ 1 := (fun x v => Host.reduce IntOp.andi x v reducesTo_S40_S_d0 h_S_) main_v46 main_c_17
  let main_v48 : IVec S_ 1 := andi main_v43 main_v47
  main_v48

def fn_part1 {F : FTy → Type} [FloatOps F] (main_arg5 : FVec F S128x128 .f32) (main_arg6 : FVec F S128x128 .f32) (main_arg7 : FVec F S128 .f32) (main_arg8 : FVec F S128x40 .f32) (main_arg9 : FVec F S128x40 .f32) (main_arg10 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_v33

def fn {F : FTy → Type} [FloatOps F] (main_arg0 : FVec F S100000x128 .f32) (main_arg1 : IVec S2x1600000 32) (main_arg2 : FVec F S128x128 .f32) (main_arg3 : FVec F S128x128 .f32) (main_arg4 : FVec F S128 .f32) (main_arg5 : FVec F S128x128 .f32) (main_arg6 : FVec F S128x128 .f32) (main_arg7 : FVec F S128 .f32) (main_arg8 : FVec F S128x40 .f32) (main_arg9 : FVec F S128x40 .f32) (main_arg10 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S5000x128 : Shape := ⟨2, ![5000, 128]⟩
abbrev S5000x1 : Shape := ⟨2, ![5000, 1]⟩
abbrev S1x128 : Shape := ⟨2, ![1, 128]⟩
abbrev S100000x40 : Shape := ⟨2, ![100000, 40]⟩
abbrev S5000x40 : Shape := ⟨2, ![5000, 40]⟩
abbrev S1600000x40 : Shape := ⟨2, ![1600000, 40]⟩
abbrev S1x40 : Shape := ⟨2, ![1, 40]⟩
abbrev S5000 : Shape := ⟨1, ![5000]⟩

abbrev nBuf : Space → Nat
  | .hbm => 77
  | .vmem => 37
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x40, .f32⟩
  | .hbm, ⟨9, _⟩ => ⟨S128x40, .f32⟩
  | .hbm, ⟨10, _⟩ => ⟨S40, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x128, .bf16⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x128, .bf16⟩
  | .hbm, ⟨38, _⟩ => ⟨S1600000x128, .f32⟩
  | .hbm, ⟨39, _⟩ => ⟨S_, .f32⟩
  | .hbm, ⟨40, _⟩ => ⟨S100000x128, .f32⟩
  | .hbm, ⟨41, _⟩ => ⟨S1600000x1, .i32⟩
  | .hbm, ⟨42, _⟩ => ⟨S100000x128, .f32⟩
  | .hbm, ⟨43, _⟩ => ⟨S100000x128, .f32⟩
  | .hbm, ⟨44, _⟩ => ⟨S100000x128, .bf16⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x128, .bf16⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S100000x128, .f32⟩
  | .hbm, ⟨60, _⟩ => ⟨S100000x40, .f32⟩
  | .hbm, ⟨61, _⟩ => ⟨S100000x40, .bf16⟩
  | .hbm, ⟨62, _⟩ => ⟨S_, .i32⟩
  | .hbm, ⟨63, _⟩ => ⟨S1600000, .i32⟩
  | .hbm, ⟨64, _⟩ => ⟨S1600000, .i1⟩
  | .hbm, ⟨65, _⟩ => ⟨S_, .i32⟩
  | .hbm, ⟨66, _⟩ => ⟨S1600000, .i32⟩
  | .hbm, ⟨67, _⟩ => ⟨S1600000, .i32⟩
  | .hbm, ⟨68, _⟩ => ⟨S1600000, .i32⟩
  | .hbm, ⟨69, _⟩ => ⟨S1600000x1, .i32⟩
  | .hbm, ⟨70, _⟩ => ⟨S1600000x40, .bf16⟩
  | .hbm, ⟨71, _⟩ => ⟨S1600000x40, .f32⟩
  | .hbm, ⟨72, _⟩ => ⟨S_, .f32⟩
  | .hbm, ⟨73, _⟩ => ⟨S100000x40, .f32⟩
  | .hbm, ⟨74, _⟩ => ⟨S1600000x1, .i32⟩
  | .hbm, ⟨75, _⟩ => ⟨S100000x40, .f32⟩
  | .hbm, ⟨76, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S128x128, .f32⟩
  | .local _ .vmem, ⟨8, _⟩ => ⟨S128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x1, .f32⟩
  | .local _ .vmem, ⟨16, _⟩ => ⟨S5000x1, .f32⟩
  | .local _ .vmem, ⟨17, _⟩ => ⟨S128x128, .f32⟩
  | .local _ .vmem, ⟨18, _⟩ => ⟨S128x128, .f32⟩
  | .local _ .vmem, ⟨19, _⟩ => ⟨S128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x40, .f32⟩
  | .local _ .vmem, ⟨25, _⟩ => ⟨S5000x40, .f32⟩
  | .local _ .vmem, ⟨26, _⟩ => ⟨S5000x40, .f32⟩
  | .local _ .vmem, ⟨27, _⟩ => ⟨S5000x40, .f32⟩
  | .local _ .vmem, ⟨28, _⟩ => ⟨S5000x40, .f32⟩
  | .local _ .vmem, ⟨29, _⟩ => ⟨S5000x128, .f32⟩
  | .local _ .vmem, ⟨30, _⟩ => ⟨S5000x128, .f32⟩
  | .local _ .vmem, ⟨31, _⟩ => ⟨S5000x1, .f32⟩
  | .local _ .vmem, ⟨32, _⟩ => ⟨S5000x1, .f32⟩
  | .local _ .vmem, ⟨33, _⟩ => ⟨S128x40, .f32⟩
  | .local _ .vmem, ⟨34, _⟩ => ⟨S40, .f32⟩
  | .local _ .vmem, ⟨35, _⟩ => ⟨S5000x40, .f32⟩
  | .local _ .vmem, ⟨36, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_3 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_4 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_c_6 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_c_8 : Ref sig .tc := ⟨.hbm, 62, rfl⟩
abbrev main_v41 : Ref sig .tc := ⟨.hbm, 63, rfl⟩
abbrev main_v42 : Ref sig .tc := ⟨.hbm, 64, rfl⟩
abbrev main_c_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_10 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg2_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg5_0 : Ref sig .tc := ⟨.vmem, 35, rfl⟩
abbrev cc3_stg5_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem2_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem2_1 : DmaSem sig := 32
abbrev cc3_sem3_0 : DmaSem sig := 33
abbrev cc3_sem4_0 : DmaSem sig := 34
abbrev cc3_sem5_0 : DmaSem sig := 35
abbrev cc3_sem5_1 : DmaSem sig := 36

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x40 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S40 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x40 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bitsLt_bf16_f32 : FTy.bits .bf16 < FTy.bits .f32
  bcast_S_S100000x128 : S_.BroadcastsInDim S100000x128 (![] : Fin 0 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x40_S128x40_0_0 : ∀ a, (![0, 0] : Fin 2 → Nat) a + S128x40.size a ≤ S128x40.size a
  h_S128x40 : 0 < S128x40.numel
  inb_S5000x40_S5000x40_0_0 : ∀ a, (![0, 0] : Fin 2 → Nat) a + S5000x40.size a ≤ S5000x40.size a
  h_S5000x40 : 0 < S5000x40.numel
  bcast_S_S100000x40 : S_.BroadcastsInDim S100000x40 (![] : Fin 0 → Fin S100000x40.rank)
  shapeCasts_S5000x40_S5000x40 : S5000x40.ShapeCasts S5000x40
  broadcasts_S5000x1_S5000x40 : S5000x1.Broadcasts S5000x40
  inb_S40_S40_0 : ∀ a, (![0] : Fin 1 → Nat) a + S40.size a ≤ S40.size a
  h_S40 : 0 < S40.numel
  shapeCasts_S40_S1x40 : S40.ShapeCasts S1x40
  broadcasts_S1x40_S5000x40 : S1x40.Broadcasts S5000x40
  reduces_S5000x40_S5000 : S5000x40.Reduces [1] S5000
  shapeCasts_S5000_S5000x1 : S5000.ShapeCasts S5000x1
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x40_S5000x40_1_0_0_1_n_n_wf : DotDims.WF S5000x128 S128x40 S5000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x40.size a ≤ S128x40.size a
  hwx2_1 : ∀ i : grid2.Coords, EltTy.bits .f32 = 32 ∨ (Rect.block (s := S128x40) S128x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x40.size a ≤ S100000x40.size a
  hwx2_2 : ∀ i : grid2.Coords, EltTy.bits .f32 = 32 ∨ (Rect.block (s := S100000x40) S5000x40.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x40.size a ≤ S100000x40.size a
  hwx3_0 : ∀ i : grid3.Coords, EltTy.bits .f32 = 32 ∨ (Rect.block (s := S100000x40) S5000x40.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x40.size a ≤ S128x40.size a
  hwx3_3 : ∀ i : grid3.Coords, EltTy.bits .f32 = 32 ∨ (Rect.block (s := S128x40) S128x40.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S40.size a ≤ S40.size a
  hwx3_4 : ∀ i : grid3.Coords, EltTy.bits .f32 = 32 ∨ (Rect.block (s := S40) S40.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x40.size a ≤ S100000x40.size a
  hwx3_5 : ∀ i : grid3.Coords, EltTy.bits .f32 = 32 ∨ (Rect.block (s := S100000x40) S5000x40.size (cc3_transform_5 i) (hinb3_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v37) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v38) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v38) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S128x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v39) S5000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v51) S5000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v38) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v12) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg9) S128x40.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg10) S40.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v52) S5000x40.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S100000x40 : Shape := ⟨2, ![100000, 40]⟩
abbrev S1x40 : Shape := ⟨2, ![1, 40]⟩

abbrev nBuf : Space → Nat
  | .hbm => 112
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x40, .f32⟩
  | .hbm, ⟨9, _⟩ => ⟨S128x40, .f32⟩
  | .hbm, ⟨10, _⟩ => ⟨S40, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x128, .f32⟩
  | .hbm, ⟨37, _⟩ => ⟨S_, .f32⟩
  | .hbm, ⟨38, _⟩ => ⟨S100000x128, .f32⟩
  | .hbm, ⟨39, _⟩ => ⟨S1600000x1, .i32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S100000x128, .f32⟩
  | .hbm, ⟨44, _⟩ => ⟨S1x128, .f32⟩
  | .hbm, ⟨45, _⟩ => ⟨S100000x128, .f32⟩
  | .hbm, ⟨46, _⟩ => ⟨S100000x128, .f32⟩
  | .hbm, ⟨47, _⟩ => ⟨S100000x128, .f32⟩
  | .hbm, ⟨48, _⟩ => ⟨S100000x128, .f32⟩
  | .hbm, ⟨49, _⟩ => ⟨S_, .f32⟩
  | .hbm, ⟨50, _⟩ => ⟨S100000x128, .f32⟩
  | .hbm, ⟨51, _⟩ => ⟨S100000x128, .f32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x128, .f32⟩
  | .hbm, ⟨61, _⟩ => ⟨S_, .f32⟩
  | .hbm, ⟨62, _⟩ => ⟨S100000x128, .f32⟩
  | .hbm, ⟨63, _⟩ => ⟨S1600000x1, .i32⟩
  | .hbm, ⟨64, _⟩ => ⟨S100000x128, .f32⟩
  | .hbm, ⟨65, _⟩ => ⟨S100000x128, .f32⟩
  | .hbm, ⟨66, _⟩ => ⟨S100000x128, .f32⟩
  | .hbm, ⟨67, _⟩ => ⟨S100000x128, .f32⟩
  | .hbm, ⟨68, _⟩ => ⟨S1x128, .f32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S100000x128, .f32⟩
  | .hbm, ⟨73, _⟩ => ⟨S_, .f32⟩
  | .hbm, ⟨74, _⟩ => ⟨S100000x128, .f32⟩
  | .hbm, ⟨75, _⟩ => ⟨S100000x128, .f32⟩
  | .hbm, ⟨76, _⟩ => ⟨S_, .i32⟩
  | .hbm, ⟨77, _⟩ => ⟨S1600000, .i32⟩
  | .hbm, ⟨78, _⟩ => ⟨S1600000, .i1⟩
  | .hbm, ⟨79, _⟩ => ⟨S_, .i32⟩
  | .hbm, ⟨80, _⟩ => ⟨S1600000, .i32⟩
  | .hbm, ⟨81, _⟩ => ⟨S1600000, .i32⟩
  | .hbm, ⟨82, _⟩ => ⟨S1600000, .i32⟩
  | .hbm, ⟨83, _⟩ => ⟨S1600000x1, .i32⟩
  | .hbm, ⟨84, _⟩ => ⟨S1600000x128, .f32⟩
  | .hbm, ⟨85, _⟩ => ⟨S_, .f32⟩
  | .hbm, ⟨86, _⟩ => ⟨S100000x128, .f32⟩
  | .hbm, ⟨87, _⟩ => ⟨S1600000x1, .i32⟩
  | .hbm, ⟨88, _⟩ => ⟨S100000x128, .f32⟩
  | .hbm, ⟨89, _⟩ => ⟨S100000x128, .f32⟩
  | .hbm, ⟨90, _⟩ => ⟨S100000x128, .f32⟩
  | .hbm, ⟨91, _⟩ => ⟨S100000x40, .f32⟩
  | .hbm, ⟨92, _⟩ => ⟨S1x40, .f32⟩
  | .hbm, ⟨93, _⟩ => ⟨S100000x40, .f32⟩
  | .hbm, ⟨94, _⟩ => ⟨S100000x40, .f32⟩
  | .hbm, ⟨95, _⟩ => ⟨S100000x40, .f32⟩
  | .hbm, ⟨96, _⟩ => ⟨S100000x40, .f32⟩
  | .hbm, ⟨97, _⟩ => ⟨S_, .f32⟩
  | .hbm, ⟨98, _⟩ => ⟨S100000, .f32⟩
  | .hbm, ⟨99, _⟩ => ⟨S_, .f32⟩
  | .hbm, ⟨100, _⟩ => ⟨S100000, .f32⟩
  | .hbm, ⟨101, _⟩ => ⟨S100000, .f32⟩
  | .hbm, ⟨102, _⟩ => ⟨S100000x1, .f32⟩
  | .hbm, ⟨103, _⟩ => ⟨S100000x40, .f32⟩
  | .hbm, ⟨104, _⟩ => ⟨S100000x40, .f32⟩
  | .hbm, ⟨105, _⟩ => ⟨S100000x40, .f32⟩
  | .hbm, ⟨106, _⟩ => ⟨S_, .f32⟩
  | .hbm, ⟨107, _⟩ => ⟨S100000, .f32⟩
  | .hbm, ⟨108, _⟩ => ⟨S100000x1, .f32⟩
  | .hbm, ⟨109, _⟩ => ⟨S100000x1, .f32⟩
  | .hbm, ⟨110, _⟩ => ⟨S100000x40, .f32⟩
  | .hbm, ⟨111, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_call0_cst : Ref sig .tc := ⟨.hbm, 49, rfl⟩
abbrev main_call0_v0 : Ref sig .tc := ⟨.hbm, 50, rfl⟩
abbrev main_v31 : Ref sig .tc := ⟨.hbm, 51, rfl⟩
abbrev main_c_5 : Ref sig .tc := ⟨.hbm, 52, rfl⟩
abbrev main_v32 : Ref sig .tc := ⟨.hbm, 53, rfl⟩
abbrev main_v33 : Ref sig .tc := ⟨.hbm, 54, rfl⟩
abbrev main_c_6 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_7 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_call1_cst : Ref sig .tc := ⟨.hbm, 73, rfl⟩
abbrev main_call1_v0 : Ref sig .tc := ⟨.hbm, 74, rfl⟩
abbrev main_v50 : Ref sig .tc := ⟨.hbm, 75, rfl⟩
abbrev main_c_8 : Ref sig .tc := ⟨.hbm, 76, rfl⟩
abbrev main_v51 : Ref sig .tc := ⟨.hbm, 77, rfl⟩
abbrev main_v52 : Ref sig .tc := ⟨.hbm, 78, rfl⟩
abbrev main_c_9 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_10 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_call2_cst : Ref sig .tc := ⟨.hbm, 97, rfl⟩
abbrev main_call2_v0 : Ref sig .tc := ⟨.hbm, 98, rfl⟩
abbrev main_call2_cst_0 : Ref sig .tc := ⟨.hbm, 99, rfl⟩
abbrev main_call2_v1 : Ref sig .tc := ⟨.hbm, 100, rfl⟩
abbrev main_call2_v2 : Ref sig .tc := ⟨.hbm, 101, rfl⟩
abbrev main_call2_v3 : Ref sig .tc := ⟨.hbm, 102, rfl⟩
abbrev main_call2_v4 : Ref sig .tc := ⟨.hbm, 103, rfl⟩
abbrev main_call2_v5 : Ref sig .tc := ⟨.hbm, 104, rfl⟩
abbrev main_call2_v6 : Ref sig .tc := ⟨.hbm, 105, rfl⟩
abbrev main_call2_cst_1 : Ref sig .tc := ⟨.hbm, 106, rfl⟩
abbrev main_call2_v7 : Ref sig .tc := ⟨.hbm, 107, rfl⟩
abbrev main_call2_v8 : Ref sig .tc := ⟨.hbm, 108, rfl⟩
abbrev main_call2_v9 : Ref sig .tc := ⟨.hbm, 109, rfl⟩
abbrev main_call2_v10 : Ref sig .tc := ⟨.hbm, 110, rfl⟩
abbrev main_v69 : Ref sig .tc := ⟨.hbm, 111, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000x1_S100000x40_0_1 : S100000x1.BroadcastsInDim S100000x40 (![0, 1] : Fin 2 → Fin S100000x40.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x40_S100000x40_1_0_0_1_n_n_wf : DotDims.WF S100000x128 S128x40 S100000x40 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf

class Facts : Prop extends Facts₀ where

variable [Facts]
-- ==== Proof.KernelRun.lean ====
/-
  The idealized kernel's run with its result named.

  @main is seven segments: a stretch of host operations, the first hidden layer's kernel, a stretch, the second hidden
  layer's kernel, the projection kernel, a stretch, the last layer's kernel. The buffer contents at each boundary are a fold
  from the launch memory (`W0` … `W7`: a stretch's operations applied in order; a kernel's arrays at what its blocks'
  write-backs leave, every other buffer as it was).

  `run_all`: every weakly fair execution terminates, nothing faulting, with EVERY unscoped buffer at the last boundary's
  contents `W7`. The launch theorem for an @main that is a list of segments asks for: @main as the run of the segments; no
  pipeline entered twice; the launch's ghost state split into the pipelines' part and nothing more; the first thread state
  (all unscoped buffers at the launch contents, the generator register, nothing owed) out of what the launch deals a core;
  each segment's exit state being the next one's entry state; and the last thread state read against the final memory.
  `run_result` reads it at the result buffer and at the eleven arguments; the result buffer is the last kernel's output
  window, so `W7` there is that kernel's array after its last write-back (`result_eq`).
-/
import proofs.«139287_j36197984370866_2_alg».proof.Proof.GenP.KernelIdeal.Frame

set_option maxRecDepth 16384

noncomputable section

namespace Cert.KernelIdeal.RunValue

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The ghost state the launch starts from: the pipelines' cells and launch tokens, nothing else. -/
abbrev ghost₀ : UR sig nD τ := initOf (Pipeline.cells cfgs cellOf_inj) (Pipeline.launchToks cfgs cellOf_inj)

/-- A core's first thread state: every unscoped buffer at its launch contents, the generator register, nothing owed. -/
abbrev first (c : Dev nD) : sProp 𝕄 :=
  iprop(StableHlo.held (c : Thread nD τ) (Pipeline.ucRefs τ sig) (W0 m ρ c) ∗ R c)

set_option backward.isDefEq.respectTransparency.types false in
/-- Every weakly fair execution of @main terminates, nothing faulting, with every unscoped buffer of every core at the
    last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W7 m ρ c b) := by
  refine Pipeline.θ_run_regions_kit (pcfgs (F := F)) adm (pdats m ρ) () cellOf_inj emb₁ defs₀ 𝒱₀ L lv m ρ main (segs m ρ)
    ?hmain ?hnd (O₀ := 0) (hL := fun _ _ => rfl) (G := fun _ => iprop(emp)) (u₀ := ghost₀) ?hu₀
    (T₀ := first m ρ) (Tₙ := Tₙ m ρ) ?hch ?hinit
    (QY := fun c s => ∀ b ∈ Pipeline.ucRefs τ sig, s.mem (((c : Thread nD τ)).1, b) = W7 m ρ c b) ?hfin
    (hQ := fun _ h => h)
  case hmain =>
    -- @main is the run of the seven segments
    intro c Q
    rw [main_run m ρ c]
  case hnd =>
    -- the four pipelines are entered once each
    simp only [segs, Pipeline.Seg.pipes_host, Pipeline.Seg.pipes_region, Pipeline.Seg.pipes_nil]
    decide
  case hu₀ =>
    -- the launch's ghost state is the pipelines' own; no core shares anything more
    iintro Hown
    imodintro
    isplitl [Hown]
    · iapply (show (ownU ghost₀ : sProp 𝕄) ⊢ BI.own (emb₁ ghost₀) from .rfl)
      iexact Hown
    · iapply (show (BI.emp : sProp 𝕄) ⊢ bigSep Finset.univ (fun _ : Dev nD => (BI.emp : sProp 𝕄)) from by
        rw [BI.bigSep_emp_const])
      iempintro
  case hch =>
    -- each segment is entered from the state the one before it leaves
    exact ⟨fun _ => .rfl, fun _ => .rfl, fun _ => .rfl, fun _ => .rfl, fun _ => .rfl, fun _ => .rfl, fun _ => .rfl,
      fun _ => .rfl⟩
  case hinit =>
    -- core by core: the buffers the launch deals are the unscoped ones at the launch contents
    refine Pipeline.initEach L lv fun c => ?_
    rw [show unscopedBufs c (fun b => m ((c : Thread nD τ).loc b))
        = StableHlo.held (c : Thread nD τ) (Pipeline.ucRefs τ sig) (W0 m ρ c) from Pipeline.unscopedBufs_held c (W0 m ρ c)]
    iintro ⟨⟨Hbufs, -, Howes, -, Hprng, -⟩, -⟩
    imodintro
    isplitl [Hbufs]
    · iexact Hbufs
    isplitl [Hprng]
    · iexists _; iexact Hprng
    · iexists ∅; iexact Howes
  case hfin =>
    -- the last thread state holds every unscoped buffer whole: the final memory agrees with it there
    intro c s'
    iintro ⟨⟨Hbufs, -⟩, Hstate⟩
    unfold StableHlo.held
    imodintro
    iapply (pointsTo_read_all (Pipeline.ucRefs τ sig) (fun b => (((c : Thread nD τ)).1, b)) (W7 m ρ c) s')
    isplitl [Hbufs] <;> iassumption

/-- The same read at the result buffer and at the eleven argument arrays: the result at the last boundary's contents,
    the arguments as launched (no host operation and no kernel writes an argument). -/
theorem run_result : θ_run defs (onTc (τ := τ) (main (F := F))) ⟨m, fun _ => 0, ρ⟩ (fun r => ∀ c : Dev nD,
      r.2.mem ((c.tc : Thread nD τ).loc main_v52) = W7 m ρ c (Proc.devRef .tc main_v52)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨h c _ (mem_uc main_v52 (by decide)),
     (h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c),
     (h c _ (mem_uc main_arg7 (by decide))).trans (W7_main_arg7 m ρ c),
     (h c _ (mem_uc main_arg8 (by decide))).trans (W7_main_arg8 m ρ c),
     (h c _ (mem_uc main_arg9 (by decide))).trans (W7_main_arg9 m ρ c),
     (h c _ (mem_uc main_arg10 (by decide))).trans (W7_main_arg10 m ρ c)⟩)
    (run_all m ρ)

/-- The result buffer is the last kernel's output window: at the last boundary it holds that kernel's array after the
    last write-back. -/
theorem result_eq (c : Dev nD) :
    W7 m ρ c (Proc.devRef .tc main_v52) = (dat3 (V6 m ρ) c).arrAt 5 cfg3.N := W7_arr m ρ c 5

end Cert.KernelIdeal.RunValue

end
-- ==== Proof.LibRowsTimes.lean ====
/-
  The product of two arrays, entry by entry, on the extended reals — general in the extents M, K, N.

  For `a` of shape [M, K] and `w` of shape [K, N] the product `rowsTimes a w` has, at (r, j), the sum over `k` of
  `a (r, k) · w (k, j)`. Three facts:

  * `rowsTimes_of_rows` — rows of a product are products of rows: if a block `a'` of shape [R, K] holds, at its row
    `j 0`, what `a` holds at row `i 0` (and `w'` at column `j 1` what `w` holds at column `i 1`), then `a' · w'`
    at `j` is `a · w` at `i`. This is why a product computed one block of rows at a time is the whole product.
  * `contraction_eq` — a contraction over ONE axis of extent K (how a matrix unit's product into a zero
    accumulator, and the host's `dot_general`, read on the extended reals: a sum over the contraction index of
    left-operand × right-operand entries) is `rowsTimes`, once the contraction index is renamed by its one
    coordinate and the two operand indices are shown to be (row, k) and (k, column).
  * `relu` — the maximum with zero, entry by entry, the zero spelt as the f32 word 0x00000000.

  No finiteness is needed anywhere: both sides of every equation are the same sum of the same products in the
  same order.
-/
import Idealize.ShloMosaic.PureOps.Ideal.Laws
import Idealize.ShloMosaic.Lib.ValueIdx

noncomputable section

namespace Cert.Dense

open Idealize.ShloMosaic Idealize.ShloMosaic.ValueIdx

/-- `(a · w) (r, j) = ∑ k, a (r, k) · w (k, j)`. -/
def rowsTimes {M K N : Nat} (a : (⟨2, ![M, K]⟩ : Shape).Idx → EReal) (w : (⟨2, ![K, N]⟩ : Shape).Idx → EReal) :
    (⟨2, ![M, N]⟩ : Shape).Idx → EReal :=
  fun i => ∑ k : Fin K, a (ix2 (i 0 : Fin M) k) * w (ix2 k (i 1 : Fin N))

/-- The rectifier `x ↦ max x 0`, entry by entry (the zero spelt as the f32 word both programs print it as: the
    same word on both sides, never evaluated). -/
def relu {S : Shape} (x : S.Idx → EReal) : S.Idx → EReal :=
  fun i => max (x i) (Ideal.ofBits .f32 0x00000000#32)

/-- Rows of a product are the products of rows: where `a'` at row `j 0` is `a` at row `i 0`, and `w'` at column
    `j 1` is `w` at column `i 1`, the two products agree at `j` and `i`. -/
theorem rowsTimes_of_rows {M R K N N' : Nat} (a : (⟨2, ![M, K]⟩ : Shape).Idx → EReal) (w : (⟨2, ![K, N]⟩ : Shape).Idx → EReal)
    (a' : (⟨2, ![R, K]⟩ : Shape).Idx → EReal) (w' : (⟨2, ![K, N']⟩ : Shape).Idx → EReal)
    (j : (⟨2, ![R, N']⟩ : Shape).Idx) (i : (⟨2, ![M, N]⟩ : Shape).Idx)
    (ha : ∀ k : Fin K, a' (ix2 (j 0 : Fin R) k) = a (ix2 (i 0 : Fin M) k))
    (hw : ∀ k : Fin K, w' (ix2 k (j 1 : Fin N')) = w (ix2 k (i 1 : Fin N))) :
    rowsTimes a' w' j = rowsTimes a w i :=
  Finset.sum_congr rfl fun k _ => by rw [ha k, hw k]

/-- A contraction over one axis of extent `K` whose left index at (i, q) is (i 0, q) and whose right index is
    (q, i 1) is the product above: the contraction index renamed by its one coordinate. -/
theorem contraction_eq {M K N : Nat} {sl sr so : Shape} (d : DotDims sl sr so) (hr : d.contr.rank = 1)
    (hs : d.contr.size ⟨0, by omega⟩ = K)
    (a : (⟨2, ![M, K]⟩ : Shape).Idx → EReal) (w : (⟨2, ![K, N]⟩ : Shape).Idx → EReal)
    (l : sl.Idx → EReal) (r : sr.Idx → EReal) (i : so.Idx) (i' : (⟨2, ![M, N]⟩ : Shape).Idx)
    (hl : ∀ k : Fin K, l (d.lhsIdx i ((contrEquiv1 d K hr hs).symm k)) = a (ix2 (i' 0 : Fin M) k))
    (hw : ∀ k : Fin K, r (d.rhsIdx i ((contrEquiv1 d K hr hs).symm k)) = w (ix2 k (i' 1 : Fin N))) :
    ∑ q : d.contr.Idx, l (d.lhsIdx i q) * r (d.rhsIdx i q) = rowsTimes a w i' := by
  rw [← Equiv.sum_comp (contrEquiv1 d K hr hs).symm]
  exact Finset.sum_congr rfl fun k _ => by rw [hl k, hw k]

end Cert.Dense

end
-- ==== Proof.Spec.lean ====
/-
  Three rounds of mean aggregation over a graph, as functions of the argument arrays, entry by entry, on the
  extended reals. All extents are variables.

  The graph is a list of E edges over N nodes, given by two columns of E row numbers: `gi` (the row an edge reads
  from) and `di` (the row it adds onto). An edge whose `di` entry, read as a signed integer, is not a row number adds
  nowhere; a `gi` entry is read signed and clamped into 0 … N − 1.

    aggr h (r, k)   = z + ∑ over the edges e landing on r of h (row read by e, k)      (z the value of the zero word)
    pre A d Wl Wr b h (r, j) = (∑ k, (A (r, k) · d r) · Wl (k, j) + ∑ k, h (r, k) · Wr (k, j)) + b j
    hidden          = the maximum of `pre (aggr h) …` with zero
    logits          = `pre (aggr h) …`
    logitsProjected = the same with the left product taken BEFORE the aggregation:
                        (aggr (h · Wl) (r, j) · d r + ∑ k, h (r, k) · Wr (k, j)) + b j
    logSoftmaxRows z (r, j) = (z (r, j) − M r) − log ∑ k, exp (z (r, k) − M r),  M r the largest entry of row r

  `logits` and `logitsProjected` are equal when the entries are real numbers (Algebra.lean); nothing else here
  needs more than the definitions.
-/
import proofs.«139287_j36197984370866_2_alg».proof.Proof.LibRowsTimes
import Idealize.ShloMosaic.PureOps.Ideal.Laws
import Idealize.ShloMosaic.Lib.ValueIdx

noncomputable section

namespace Cert.Sage

open Idealize.ShloMosaic Idealize.ShloMosaic.ValueIdx Cert.Dense

variable {N E K C : Nat}

/-- The row edge `e` reads from: its entry of `gi`, read signed, clamped into 0 … N − 1. -/
def readRow (hN : 0 < N) (gi : IVec ⟨2, ![E, 1]⟩ 32) (e : Fin E) : Fin N :=
  ⟨min (gi (ix2 e (0 : Fin 1))).toInt.toNat (N - 1), by omega⟩

/-- Edge `e` lands on row `r`: its entry of `di`, read signed, is `r`. -/
def landsOn (di : IVec ⟨2, ![E, 1]⟩ 32) (e : Fin E) (r : Fin N) : Prop :=
  (di (ix2 e (0 : Fin 1))).toInt = (r.val : Int)

instance (di : IVec ⟨2, ![E, 1]⟩ 32) (e : Fin E) (r : Fin N) : Decidable (landsOn di e r) := by
  unfold landsOn; infer_instance

/-- Row `r` of the aggregate: the sum, over the edges landing on `r`, of the rows they read — added onto the
    value of the zero word. -/
def aggr (hN : 0 < N) (gi di : IVec ⟨2, ![E, 1]⟩ 32) (h : (⟨2, ![N, K]⟩ : Shape).Idx → EReal) :
    (⟨2, ![N, K]⟩ : Shape).Idx → EReal :=
  fun i => Ideal.ofBits .f32 0x00000000#32
    + ∑ e : Fin E, if landsOn di e (i 0 : Fin N) then h (ix2 (readRow hN gi e) (i 1 : Fin K)) else 0

/-- An array with every row scaled by that row's entry of `d`. -/
def scaleRows (A : (⟨2, ![N, K]⟩ : Shape).Idx → EReal) (d : (⟨1, ![N]⟩ : Shape).Idx → EReal) :
    (⟨2, ![N, K]⟩ : Shape).Idx → EReal :=
  fun i => A i * d (ix1 (i 0 : Fin N))

/-- One layer before its activation: the scaled aggregate times `Wl`, plus the rows themselves times `Wr`, plus
    the bias. -/
def pre (A : (⟨2, ![N, K]⟩ : Shape).Idx → EReal) (d : (⟨1, ![N]⟩ : Shape).Idx → EReal)
    (Wl Wr : (⟨2, ![K, C]⟩ : Shape).Idx → EReal) (b : (⟨1, ![C]⟩ : Shape).Idx → EReal)
    (h : (⟨2, ![N, K]⟩ : Shape).Idx → EReal) : (⟨2, ![N, C]⟩ : Shape).Idx → EReal :=
  fun i => (rowsTimes (scaleRows A d) Wl i + rowsTimes h Wr i) + b (ix1 (i 1 : Fin C))

/-- A hidden layer: aggregate, `pre`, maximum with zero. -/
def hidden (hN : 0 < N) (gi di : IVec ⟨2, ![E, 1]⟩ 32) (d : (⟨1, ![N]⟩ : Shape).Idx → EReal)
    (Wl Wr : (⟨2, ![K, C]⟩ : Shape).Idx → EReal) (b : (⟨1, ![C]⟩ : Shape).Idx → EReal)
    (h : (⟨2, ![N, K]⟩ : Shape).Idx → EReal) : (⟨2, ![N, C]⟩ : Shape).Idx → EReal :=
  relu (pre (aggr hN gi di h) d Wl Wr b h)

/-- The last layer before the row normalisation: aggregate, then `pre`. -/
def logits (hN : 0 < N) (gi di : IVec ⟨2, ![E, 1]⟩ 32) (d : (⟨1, ![N]⟩ : Shape).Idx → EReal)
    (Wl Wr : (⟨2, ![K, C]⟩ : Shape).Idx → EReal) (b : (⟨1, ![C]⟩ : Shape).Idx → EReal)
    (h : (⟨2, ![N, K]⟩ : Shape).Idx → EReal) : (⟨2, ![N, C]⟩ : Shape).Idx → EReal :=
  pre (aggr hN gi di h) d Wl Wr b h

/-- An already projected aggregate `P`, scaled row by row, plus the rows times `Wr`, plus the bias. -/
def combine (P : (⟨2, ![N, C]⟩ : Shape).Idx → EReal) (d : (⟨1, ![N]⟩ : Shape).Idx → EReal)
    (h : (⟨2, ![N, K]⟩ : Shape).Idx → EReal) (Wr : (⟨2, ![K, C]⟩ : Shape).Idx → EReal)
    (b : (⟨1, ![C]⟩ : Shape).Idx → EReal) : (⟨2, ![N, C]⟩ : Shape).Idx → EReal :=
  fun i => (P i * d (ix1 (i 0 : Fin N)) + rowsTimes h Wr i) + b (ix1 (i 1 : Fin C))

/-- The same layer with the rows multiplied by `Wl` BEFORE they are aggregated. -/
def logitsProjected (hN : 0 < N) (gi di : IVec ⟨2, ![E, 1]⟩ 32) (d : (⟨1, ![N]⟩ : Shape).Idx → EReal)
    (Wl Wr : (⟨2, ![K, C]⟩ : Shape).Idx → EReal) (b : (⟨1, ![C]⟩ : Shape).Idx → EReal)
    (h : (⟨2, ![N, K]⟩ : Shape).Idx → EReal) : (⟨2, ![N, C]⟩ : Shape).Idx → EReal :=
  combine (aggr hN gi di (rowsTimes h Wl)) d h Wr b

/-- The largest entry of row `p`, found from the value of the word of −inf. -/
def rowMax (z : (⟨2, ![N, C]⟩ : Shape).Idx → EReal) (p : Fin N) : EReal :=
  (Finset.univ : Finset (Fin C)).fold max (Ideal.ofBits .f32 0xFF800000#32) fun k : Fin C => z (ix2 p k)

/-- Every row shifted by its largest entry, minus the logarithm of the row's sum of shifted exponentials. -/
def logSoftmaxRows (z : (⟨2, ![N, C]⟩ : Shape).Idx → EReal) : (⟨2, ![N, C]⟩ : Shape).Idx → EReal :=
  fun i => (z i - rowMax z (i 0 : Fin N))
    - Ideal.log (∑ k : Fin C, Ideal.exp (z (ix2 (i 0 : Fin N) k) - rowMax z (i 0 : Fin N)))

/-- The whole network: two hidden layers, the last layer, the row normalisation. -/
def network {C' : Nat} (hN : 0 < N) (gi di : IVec ⟨2, ![E, 1]⟩ 32) (d : (⟨1, ![N]⟩ : Shape).Idx → EReal)
    (x : (⟨2, ![N, K]⟩ : Shape).Idx → EReal)
    (Wl0 Wr0 : (⟨2, ![K, K]⟩ : Shape).Idx → EReal) (b0 : (⟨1, ![K]⟩ : Shape).Idx → EReal)
    (Wl1 Wr1 : (⟨2, ![K, K]⟩ : Shape).Idx → EReal) (b1 : (⟨1, ![K]⟩ : Shape).Idx → EReal)
    (Wl2 Wr2 : (⟨2, ![K, C']⟩ : Shape).Idx → EReal) (b2 : (⟨1, ![C']⟩ : Shape).Idx → EReal) :
    (⟨2, ![N, C']⟩ : Shape).Idx → EReal :=
  logSoftmaxRows (logits hN gi di d Wl2 Wr2 b2
    (hidden hN gi di d Wl1 Wr1 b1 (hidden hN gi di d Wl0 Wr0 b0 x)))

/-- The network as the kernel computes it: the last layer's left product taken before the aggregation. -/
def networkProjected {C' : Nat} (hN : 0 < N) (gi di : IVec ⟨2, ![E, 1]⟩ 32) (d : (⟨1, ![N]⟩ : Shape).Idx → EReal)
    (x : (⟨2, ![N, K]⟩ : Shape).Idx → EReal)
    (Wl0 Wr0 : (⟨2, ![K, K]⟩ : Shape).Idx → EReal) (b0 : (⟨1, ![K]⟩ : Shape).Idx → EReal)
    (Wl1 Wr1 : (⟨2, ![K, K]⟩ : Shape).Idx → EReal) (b1 : (⟨1, ![K]⟩ : Shape).Idx → EReal)
    (Wl2 Wr2 : (⟨2, ![K, C']⟩ : Shape).Idx → EReal) (b2 : (⟨1, ![C']⟩ : Shape).Idx → EReal) :
    (⟨2, ![N, C']⟩ : Shape).Idx → EReal :=
  logSoftmaxRows (logitsProjected hN gi di d Wl2 Wr2 b2
    (hidden hN gi di d Wl1 Wr1 b1 (hidden hN gi di d Wl0 Wr0 b0 x)))

end Cert.Sage

end
-- ==== Proof.LibPlainProduct.lean ====
/-
  A matrix unit's product with the plain dimension numbers, read on the extended reals — general in the
  extents M, K, N.

  The plain dimension numbers contract the second axis of an [M, K] left operand against the first axis of a
  [K, N] right operand, with no batch axis. At an output index (r, j) and contraction coordinate k the two
  operand indices are then (r, k) and (k, j), so the product accumulated into the zero array is, entry by entry,
  the sum over k of l (r, k) · w (k, j): the array `rowsTimes l w`. The same holds of any record of dimension
  numbers equal to the plain one, whatever its own well-formedness proof.
-/
import proofs.«139287_j36197984370866_2_alg».proof.Proof.LibRowsTimes

noncomputable section

namespace Cert.Dense

open Idealize.ShloMosaic Idealize.ShloMosaic.ValueIdx

variable {M K N : Nat}

/-- The left operand's row coordinate is the output's row. -/
theorem plain_lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.2 rfl)]
  rfl

/-- The left operand's column coordinate is the contraction coordinate. -/
theorem plain_lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction coordinate. -/
theorem plain_rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column coordinate is the output's column. -/
theorem plain_rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.2 rfl)]
  rfl

/-- The left operand's index at output index `j` and contraction coordinate `k` is (row of `j`, `k`). -/
theorem plain_lhsIdx (j : (⟨2, ![M, N]⟩ : Shape).Idx) (k : Fin K) :
    (DotDims.plain M K N).lhsIdx j ((contrEquiv1 (DotDims.plain M K N) K rfl rfl).symm k) = ix2 (j 0 : Fin M) k := by
  have hk := contrEquiv1_symm_val (DotDims.plain M K N) K rfl rfl k
  funext a
  apply Fin.ext
  match a with
  | ⟨0, _⟩ => exact plain_lhs_row j _
  | ⟨1, _⟩ => exact (plain_lhs_col j _).trans hk

/-- The right operand's index there is (`k`, column of `j`). -/
theorem plain_rhsIdx (j : (⟨2, ![M, N]⟩ : Shape).Idx) (k : Fin K) :
    (DotDims.plain M K N).rhsIdx j ((contrEquiv1 (DotDims.plain M K N) K rfl rfl).symm k) = ix2 k (j 1 : Fin N) := by
  have hk := contrEquiv1_symm_val (DotDims.plain M K N) K rfl rfl k
  funext a
  apply Fin.ext
  match a with
  | ⟨0, _⟩ => exact (plain_rhs_row j _).trans hk
  | ⟨1, _⟩ => exact plain_rhs_col j _

/-- The product into the zero array is `rowsTimes`, whatever the two operands' float formats. -/
theorem matmul_plain_zero {φ₁ φ₂ : FTy} (prec : Option ContractPrecision)
    (l : FVec Ideal ⟨2, ![M, K]⟩ φ₁) (w : FVec Ideal ⟨2, ![K, N]⟩ φ₂) :
    matmul (DotDims.plain M K N) prec l w (constant (F := Ideal) ⟨2, ![M, N]⟩ .f32 0x00000000#32) = rowsTimes l w := by
  funext j
  simp only [matmul]
  rw [Ideal.matmul_constant_zero_apply]
  exact contraction_eq (DotDims.plain M K N) rfl rfl l w l w j j
    (fun k => congrArg l (plain_lhsIdx j k)) (fun k => congrArg w (plain_rhsIdx j k))

/-- The same of a record `d` of dimension numbers that is the plain one. -/
theorem matmul_zero_of_plain {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (w : FVec Ideal ⟨2, ![K, N]⟩ φ₂) :
    matmul d prec l w (constant (F := Ideal) ⟨2, ![M, N]⟩ .f32 0x00000000#32) = rowsTimes l w := by
  subst hd
  exact matmul_plain_zero prec l w

end Cert.Dense

end
-- ==== Proof.LibColumnLayout.lean ====
/-
  A vector kept as a one-column matrix, and that column repeated along the rows' other axis.

  The library reads a leading unit axis added to a vector ([a] as [1, a]) and one row broadcast down many
  ([1, b] to [a, b]). A reduction along the last axis that keeps its dimension produces the other arrangement:
  the [a] results become the single column of an [a, 1] matrix, and that column is then repeated b times to [a, b].
  Both read the vector at the row's coordinate.
-/
import Idealize.ShloMosaic.Lib.Pipeline.Value
import Idealize.ShloMosaic.Lib.ValueIdx
import Idealize.ShloMosaic.Lib.ValueLayout

namespace Idealize.ShloMosaic.ColumnLayout

open Idealize.ShloMosaic Idealize.ShloMosaic.ValueIdx

variable {α : Type}

/-- An `[a]` vector cast to the one column of an `[a, 1]` matrix reads, at `(i, u)`, the vector at `i`,
    whatever the unit coordinate `u`: the row-major position of `(i, u)` in `[a, 1]` is `i * 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` matrix broadcast to `[a, b]` reads, at `(p, c)`, its one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector kept as a column and repeated along the rows reads the vector at the row. -/
theorem column_broadcast_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

/-- The row counterpart from the library's two lemmas: a vector given a leading unit axis and broadcast down the rows
    reads the vector at the column. -/
theorem row_broadcast_apply {a b : ℕ} (x : (⟨1, ![b]⟩ : Shape).Idx → α) (h₁ : (⟨1, ![b]⟩ : Shape).ShapeCasts ⟨2, ![1, b]⟩)
    (h₂ : (⟨2, ![1, b]⟩ : Shape).Broadcasts ⟨2, ![a, b]⟩) (p : Fin a) (c : Fin b) :
    broadcastTo ⟨2, ![a, b]⟩ (shapeCast ⟨2, ![1, b]⟩ x h₁) h₂ (ix2 p c) = x (ix1 c) :=
  (broadcastTo_1b_ab_apply _ h₂ p c).trans (shapeCast_a_1a_apply x h₁ 0 c)

end Idealize.ShloMosaic.ColumnLayout
-- ==== Proof.BlockLayers.lean ====
/-
  The three kernel bodies' arithmetic over one block of R rows, on the extended reals, as the layer functions of
  Spec.lean applied to the block's own arrays. All extents are variables.

  A change of float format is the identity on the extended reals, so the narrowed operands of the matrix unit are
  the operands themselves; a product into a zero accumulator under the plain dimension numbers is the entrywise
  product `rowsTimes`; a [R, 1] column repeated along the rows reads the column at the row; a length-C vector given
  a leading unit axis and repeated down the rows reads the vector at the column; a maximum or a sum along the
  columns of a [R, C] array, at row p, is the fold of max, resp. the sum, over that row.

  * `hiddenBlock_eq`   — (a · dcol) · wl + x · wr + b, then the maximum with zero, is `relu (pre a (colVec dcol) wl wr b x)`.
  * `projectBlock_eq`  — x · w is `rowsTimes x w`.
  * `lastBlock_eq`     — ap · dcol + x · wr + b, then each row shifted by its maximum minus the logarithm of its sum of
                         shifted exponentials, is `logSoftmaxRows (combine ap (colVec dcol) x wr b)`.
-/
import proofs.«139287_j36197984370866_2_alg».proof.Proof.Spec
import proofs.«139287_j36197984370866_2_alg».proof.Proof.LibPlainProduct
import proofs.«139287_j36197984370866_2_alg».proof.Proof.LibColumnLayout
import Idealize.ShloMosaic.PureOps.Ideal.Laws
import Idealize.ShloMosaic.PureOps.Reduce
import Idealize.ShloMosaic.Lib.Pipeline.Value
import Idealize.ShloMosaic.Lib.ValueIdx

noncomputable section

namespace Cert.Sage

open Idealize.ShloMosaic Idealize.ShloMosaic.ValueIdx Idealize.ShloMosaic.ColumnLayout Cert.Dense

variable {R K C : Nat}

/-- The one column of an [R, 1] array, as a vector. -/
def colVec (dcol : (⟨2, ![R, 1]⟩ : Shape).Idx → EReal) : (⟨1, ![R]⟩ : Shape).Idx → EReal :=
  fun i => dcol (ix2 (i 0 : Fin R) (0 : Fin 1))

/-- A hidden layer's body over a block: the block's aggregate rows scaled by the block's column, times `wl`, plus the
    block's rows times `wr`, plus the bias, then the maximum with zero. -/
theorem hiddenBlock_eq (dot : DotDims ⟨2, ![R, K]⟩ ⟨2, ![K, C]⟩ ⟨2, ![R, C]⟩) (hdot : dot = DotDims.plain R K C)
    (a x : FVec Ideal ⟨2, ![R, K]⟩ .f32) (dcol : FVec Ideal ⟨2, ![R, 1]⟩ .f32)
    (wl wr : FVec Ideal ⟨2, ![K, C]⟩ .f32) (b : FVec Ideal ⟨1, ![C]⟩ .f32)
    (hb1 : (⟨2, ![R, 1]⟩ : Shape).Broadcasts ⟨2, ![R, K]⟩) (hc3 : (⟨1, ![C]⟩ : Shape).ShapeCasts ⟨2, ![1, C]⟩)
    (hb2 : (⟨2, ![1, C]⟩ : Shape).Broadcasts ⟨2, ![R, C]⟩) (hlt : (FTy.bf16).bits < (FTy.f32).bits) :
    maximumf
        (addf
          (addf
            (matmul dot none (truncf .bf16 (mulf a (broadcastTo ⟨2, ![R, K]⟩ dcol hb1)) hlt) (truncf .bf16 wl hlt)
              (constant (F := Ideal) ⟨2, ![R, C]⟩ .f32 0x00000000#32))
            (matmul dot none (truncf .bf16 x hlt) (truncf .bf16 wr hlt)
              (constant (F := Ideal) ⟨2, ![R, C]⟩ .f32 0x00000000#32)))
          (broadcastTo ⟨2, ![R, C]⟩ (shapeCast ⟨2, ![1, C]⟩ b hc3) hb2))
        (broadcast ⟨2, ![R, C]⟩ (Scalar.ofBits (F := Ideal) .f32 0x00000000#32))
      = relu (pre a (colVec dcol) wl wr b x) := by
  rw [matmul_zero_of_plain dot hdot, matmul_zero_of_plain dot hdot]
  funext i
  obtain ⟨p, j, rfl⟩ : ∃ (p : Fin R) (j : Fin C), i = ix2 p j := ⟨i 0, i 1, eq_ix2 i⟩
  show max ((rowsTimes _ _ (ix2 p j) + rowsTimes _ _ (ix2 p j))
      + broadcastTo ⟨2, ![R, C]⟩ (shapeCast ⟨2, ![1, C]⟩ b hc3) hb2 (ix2 p j)) _ = _
  rw [row_broadcast_apply b hc3 hb2 p j]
  unfold relu pre
  refine congrArg (fun t => max ((t + _) + _) _) ?_
  unfold rowsTimes scaleRows colVec
  refine Finset.sum_congr rfl fun k _ => ?_
  show (a (ix2 p k) * broadcastTo ⟨2, ![R, K]⟩ dcol hb1 (ix2 p k)) * wl (ix2 k j) = _
  rw [broadcastTo_a1_ab_apply dcol hb1 p k]
  rfl

/-- The projection's body over a block: the block's rows times the weights. -/
theorem projectBlock_eq (dot : DotDims ⟨2, ![R, K]⟩ ⟨2, ![K, C]⟩ ⟨2, ![R, C]⟩) (hdot : dot = DotDims.plain R K C)
    (x : FVec Ideal ⟨2, ![R, K]⟩ .f32) (w : FVec Ideal ⟨2, ![K, C]⟩ .f32) (hlt : (FTy.bf16).bits < (FTy.f32).bits) :
    matmul dot none (truncf .bf16 x hlt) (truncf .bf16 w hlt) (constant (F := Ideal) ⟨2, ![R, C]⟩ .f32 0x00000000#32)
      = rowsTimes x w := by
  rw [matmul_zero_of_plain dot hdot]
  rfl

/-- The reduced index `p` with column `k` put back is (p, k). -/
theorem lift_col (h : (⟨2, ![R, C]⟩ : Shape).Reduces [1] (⟨1, ![R]⟩ : Shape)) (p : Fin R)
    (k : Fin ((⟨2, ![R, C]⟩ : Shape).size 1)) : h.lift (ix1 p) k = ix2 p (⟨k.val, k.isLt⟩ : Fin C) := by
  funext c; apply Fin.ext
  fin_cases c <;> rfl

/-- The last layer's body over a block: the block's projected aggregate scaled by the block's column, plus the block's
    rows times `wr`, plus the bias; then every row shifted by its maximum, minus the logarithm of the row's sum of shifted
    exponentials. -/
theorem lastBlock_eq (dot : DotDims ⟨2, ![R, K]⟩ ⟨2, ![K, C]⟩ ⟨2, ![R, C]⟩) (hdot : dot = DotDims.plain R K C)
    (ap : FVec Ideal ⟨2, ![R, C]⟩ .f32) (x : FVec Ideal ⟨2, ![R, K]⟩ .f32) (dcol : FVec Ideal ⟨2, ![R, 1]⟩ .f32)
    (wr : FVec Ideal ⟨2, ![K, C]⟩ .f32) (b : FVec Ideal ⟨1, ![C]⟩ .f32)
    (hb1 : (⟨2, ![R, 1]⟩ : Shape).Broadcasts ⟨2, ![R, C]⟩) (hc3 : (⟨1, ![C]⟩ : Shape).ShapeCasts ⟨2, ![1, C]⟩)
    (hb2 : (⟨2, ![1, C]⟩ : Shape).Broadcasts ⟨2, ![R, C]⟩) (hlt : (FTy.bf16).bits < (FTy.f32).bits)
    (hred : (⟨2, ![R, C]⟩ : Shape).Reduces [1] (⟨1, ![R]⟩ : Shape)) (hφ : FKind.Formats .f32)
    (hmax : (0xFF800000#32 : BitVec 32) = FKind.maximumf.neutral .f32 hφ)
    (hadd : (0x00000000#32 : BitVec 32) = FKind.add.neutral .f32 hφ)
    (hc1 : (⟨1, ![R]⟩ : Shape).ShapeCasts ⟨2, ![R, 1]⟩) :
    let z : FVec Ideal ⟨2, ![R, C]⟩ .f32 :=
      addf (addf (mulf ap (broadcastTo ⟨2, ![R, C]⟩ dcol hb1))
          (matmul dot none (truncf .bf16 x hlt) (truncf .bf16 wr hlt)
            (constant (F := Ideal) ⟨2, ![R, C]⟩ .f32 0x00000000#32)))
        (broadcastTo ⟨2, ![R, C]⟩ (shapeCast ⟨2, ![1, C]⟩ b hc3) hb2)
    let mx : FVec Ideal ⟨2, ![R, 1]⟩ .f32 :=
      shapeCast ⟨2, ![R, 1]⟩ (multiReduction .maximumf [1] ⟨1, ![R]⟩ z 0xFF800000#32 hred hφ hmax) hc1
    subf (subf z (broadcastTo ⟨2, ![R, C]⟩ mx hb1))
        (broadcastTo ⟨2, ![R, C]⟩
          (log (shapeCast ⟨2, ![R, 1]⟩
            (multiReduction .add [1] ⟨1, ![R]⟩ (exp (subf z (broadcastTo ⟨2, ![R, C]⟩ mx hb1))) 0x00000000#32 hred hφ hadd) hc1))
          hb1)
      = logSoftmaxRows (combine ap (colVec dcol) x wr b) := by
  intro z mx
  have hz : (z : (⟨2, ![R, C]⟩ : Shape).Idx → EReal) = combine ap (colVec dcol) x wr b := by
    show addf (addf _ (matmul dot none _ _ _)) _ = _
    rw [matmul_zero_of_plain dot hdot]
    funext i
    obtain ⟨p, j, rfl⟩ : ∃ (p : Fin R) (j : Fin C), i = ix2 p j := ⟨i 0, i 1, eq_ix2 i⟩
    show (ap (ix2 p j) * broadcastTo ⟨2, ![R, C]⟩ dcol hb1 (ix2 p j) + rowsTimes _ _ (ix2 p j))
        + broadcastTo ⟨2, ![R, C]⟩ (shapeCast ⟨2, ![1, C]⟩ b hc3) hb2 (ix2 p j) = _
    rw [row_broadcast_apply b hc3 hb2 p j, broadcastTo_a1_ab_apply dcol hb1 p j]
    rfl
  have hmx : ∀ (p : Fin R) (j : Fin C), broadcastTo ⟨2, ![R, C]⟩ mx hb1 (ix2 p j) = rowMax z p := by
    intro p j
    rw [broadcastTo_a1_ab_apply mx hb1 p j]
    show shapeCast ⟨2, ![R, 1]⟩ _ hc1 (ix2 p (0 : Fin 1)) = _
    rw [shapeCast_a_a1_apply _ hc1 p 0]
    refine (Ideal.multiReduction_maximumf_single z 0xFF800000#32 hred hφ hmax (ix1 p)).trans ?_
    unfold rowMax
    have hf : ((z : (⟨2, ![R, C]⟩ : Shape).Idx → EReal) ∘ hred.lift (ix1 p)) = fun k : Fin C => z (ix2 p k) :=
      funext fun k => congrArg z (lift_col hred p k)
    exact congrArg (fun f => Finset.fold max (Ideal.ofBits .f32 0xFF800000#32) f (Finset.univ : Finset (Fin C))) hf
  funext i
  obtain ⟨p, j, rfl⟩ : ∃ (p : Fin R) (j : Fin C), i = ix2 p j := ⟨i 0, i 1, eq_ix2 i⟩
  show (z (ix2 p j) - broadcastTo ⟨2, ![R, C]⟩ mx hb1 (ix2 p j))
      - broadcastTo ⟨2, ![R, C]⟩ (log (shapeCast ⟨2, ![R, 1]⟩ _ hc1)) hb1 (ix2 p j) = _
  rw [hmx p j, broadcastTo_a1_ab_apply _ hb1 p j]
  show (z (ix2 p j) - rowMax z p) - Ideal.log (shapeCast ⟨2, ![R, 1]⟩ _ hc1 (ix2 p (0 : Fin 1))) = _
  rw [shapeCast_a_a1_apply _ hc1 p 0]
  rw [Ideal.multiReduction_add_single _ 0x00000000#32 hred hφ hadd (ix1 p)]
  unfold logSoftmaxRows
  rw [← hz]
  refine congrArg (fun t => (z (ix2 p j) - rowMax z p) - Ideal.log t) ?_
  refine Finset.sum_congr rfl fun k _ => ?_
  rw [lift_col hred p k]
  show Ideal.exp (z (ix2 p ⟨k.val, k.isLt⟩) - broadcastTo ⟨2, ![R, C]⟩ mx hb1 (ix2 p ⟨k.val, k.isLt⟩)) = _
  rw [hmx p ⟨k.val, k.isLt⟩]
  rfl

end Cert.Sage

end
-- ==== Proof.RowCongr.lean ====
/-
  Each layer is computed one block of rows at a time. This works because every layer function of Spec.lean, at row r,
  reads its row-indexed operands at row r only: the aggregate's row, the rows themselves, the row's scale. So if a block
  of R rows holds, at its row p, what the whole arrays hold at row r (and the weights and the bias are the same), the
  layer of the block at (p, j) is the layer of the whole arrays at (r, j). All extents are variables.

  `hiddenOf`, `lastOf`: the two layer shapes with the row scales kept as a one-column array, as the kernels receive them.
-/
import proofs.«139287_j36197984370866_2_alg».proof.Proof.BlockLayers

noncomputable section

namespace Cert.Sage

open Idealize.ShloMosaic Idealize.ShloMosaic.ValueIdx Cert.Dense

variable {R N K C : Nat}

/-- A hidden layer from the aggregate `A`, the column of row scales `D`, the weights, the bias and the rows `X`. -/
def hiddenOf (A : (⟨2, ![N, K]⟩ : Shape).Idx → EReal) (D : (⟨2, ![N, 1]⟩ : Shape).Idx → EReal)
    (Wl Wr : (⟨2, ![K, C]⟩ : Shape).Idx → EReal) (b : (⟨1, ![C]⟩ : Shape).Idx → EReal)
    (X : (⟨2, ![N, K]⟩ : Shape).Idx → EReal) : (⟨2, ![N, C]⟩ : Shape).Idx → EReal :=
  relu (pre A (colVec D) Wl Wr b X)

/-- The last layer from the projected aggregate `AP`, the column of row scales, the rows, the weights and the bias. -/
def lastOf (AP : (⟨2, ![N, C]⟩ : Shape).Idx → EReal) (D : (⟨2, ![N, 1]⟩ : Shape).Idx → EReal)
    (X : (⟨2, ![N, K]⟩ : Shape).Idx → EReal) (Wr : (⟨2, ![K, C]⟩ : Shape).Idx → EReal)
    (b : (⟨1, ![C]⟩ : Shape).Idx → EReal) : (⟨2, ![N, C]⟩ : Shape).Idx → EReal :=
  logSoftmaxRows (combine AP (colVec D) X Wr b)

/-- Equal rows give equal rows of a product. -/
theorem rowsTimes_congr (x' : (⟨2, ![R, K]⟩ : Shape).Idx → EReal) (x : (⟨2, ![N, K]⟩ : Shape).Idx → EReal)
    (w : (⟨2, ![K, C]⟩ : Shape).Idx → EReal) (p : Fin R) (r : Fin N) (j : Fin C)
    (h : ∀ k : Fin K, x' (ix2 p k) = x (ix2 r k)) : rowsTimes x' w (ix2 p j) = rowsTimes x w (ix2 r j) :=
  Finset.sum_congr rfl fun k _ => by
    show x' (ix2 p k) * w (ix2 k j) = x (ix2 r k) * w (ix2 k j)
    rw [h k]

theorem hiddenOf_congr (A' X' : (⟨2, ![R, K]⟩ : Shape).Idx → EReal) (D' : (⟨2, ![R, 1]⟩ : Shape).Idx → EReal)
    (A X : (⟨2, ![N, K]⟩ : Shape).Idx → EReal) (D : (⟨2, ![N, 1]⟩ : Shape).Idx → EReal)
    (Wl Wr : (⟨2, ![K, C]⟩ : Shape).Idx → EReal) (b : (⟨1, ![C]⟩ : Shape).Idx → EReal)
    (p : Fin R) (r : Fin N) (j : Fin C)
    (hA : ∀ k : Fin K, A' (ix2 p k) = A (ix2 r k)) (hX : ∀ k : Fin K, X' (ix2 p k) = X (ix2 r k))
    (hD : D' (ix2 p (0 : Fin 1)) = D (ix2 r (0 : Fin 1))) :
    hiddenOf A' D' Wl Wr b X' (ix2 p j) = hiddenOf A D Wl Wr b X (ix2 r j) := by
  unfold hiddenOf relu pre
  have h1 : rowsTimes (scaleRows A' (colVec D')) Wl (ix2 p j) = rowsTimes (scaleRows A (colVec D)) Wl (ix2 r j) :=
    rowsTimes_congr _ _ Wl p r j fun k => by
      show A' (ix2 p k) * D' (ix2 p (0 : Fin 1)) = A (ix2 r k) * D (ix2 r (0 : Fin 1))
      rw [hA k, hD]
  have h2 : rowsTimes X' Wr (ix2 p j) = rowsTimes X Wr (ix2 r j) := rowsTimes_congr X' X Wr p r j hX
  show max ((rowsTimes _ Wl (ix2 p j) + rowsTimes X' Wr (ix2 p j)) + b (ix1 j)) _
    = max ((rowsTimes _ Wl (ix2 r j) + rowsTimes X Wr (ix2 r j)) + b (ix1 j)) _
  rw [h1, h2]

theorem combine_congr (P' : (⟨2, ![R, C]⟩ : Shape).Idx → EReal) (X' : (⟨2, ![R, K]⟩ : Shape).Idx → EReal)
    (D' : (⟨2, ![R, 1]⟩ : Shape).Idx → EReal)
    (P : (⟨2, ![N, C]⟩ : Shape).Idx → EReal) (X : (⟨2, ![N, K]⟩ : Shape).Idx → EReal)
    (D : (⟨2, ![N, 1]⟩ : Shape).Idx → EReal)
    (Wr : (⟨2, ![K, C]⟩ : Shape).Idx → EReal) (b : (⟨1, ![C]⟩ : Shape).Idx → EReal)
    (p : Fin R) (r : Fin N) (j : Fin C)
    (hP : ∀ k : Fin C, P' (ix2 p k) = P (ix2 r k)) (hX : ∀ k : Fin K, X' (ix2 p k) = X (ix2 r k))
    (hD : D' (ix2 p (0 : Fin 1)) = D (ix2 r (0 : Fin 1))) :
    combine P' (colVec D') X' Wr b (ix2 p j) = combine P (colVec D) X Wr b (ix2 r j) := by
  have h2 : rowsTimes X' Wr (ix2 p j) = rowsTimes X Wr (ix2 r j) := rowsTimes_congr X' X Wr p r j hX
  show (P' (ix2 p j) * D' (ix2 p (0 : Fin 1)) + rowsTimes X' Wr (ix2 p j)) + b (ix1 j)
    = (P (ix2 r j) * D (ix2 r (0 : Fin 1)) + rowsTimes X Wr (ix2 r j)) + b (ix1 j)
  rw [hP j, hD, h2]

theorem logSoftmaxRows_congr (z' : (⟨2, ![R, C]⟩ : Shape).Idx → EReal) (z : (⟨2, ![N, C]⟩ : Shape).Idx → EReal)
    (p : Fin R) (r : Fin N) (j : Fin C) (h : ∀ k : Fin C, z' (ix2 p k) = z (ix2 r k)) :
    logSoftmaxRows z' (ix2 p j) = logSoftmaxRows z (ix2 r j) := by
  have hm : rowMax z' p = rowMax z r := by
    unfold rowMax
    exact congrArg (fun f => Finset.fold max (Ideal.ofBits .f32 0xFF800000#32) f (Finset.univ : Finset (Fin C))) (funext h)
  show (z' (ix2 p j) - rowMax z' p) - Ideal.log (∑ k : Fin C, Ideal.exp (z' (ix2 p k) - rowMax z' p))
    = (z (ix2 r j) - rowMax z r) - Ideal.log (∑ k : Fin C, Ideal.exp (z (ix2 r k) - rowMax z r))
  rw [hm, h j]
  exact congrArg (fun t => (z (ix2 r j) - rowMax z r) - Ideal.log t) (Finset.sum_congr rfl fun k _ => by rw [h k])

theorem lastOf_congr (P' : (⟨2, ![R, C]⟩ : Shape).Idx → EReal) (X' : (⟨2, ![R, K]⟩ : Shape).Idx → EReal)
    (D' : (⟨2, ![R, 1]⟩ : Shape).Idx → EReal)
    (P : (⟨2, ![N, C]⟩ : Shape).Idx → EReal) (X : (⟨2, ![N, K]⟩ : Shape).Idx → EReal)
    (D : (⟨2, ![N, 1]⟩ : Shape).Idx → EReal)
    (Wr : (⟨2, ![K, C]⟩ : Shape).Idx → EReal) (b : (⟨1, ![C]⟩ : Shape).Idx → EReal)
    (p : Fin R) (r : Fin N) (j : Fin C)
    (hP : ∀ k : Fin C, P' (ix2 p k) = P (ix2 r k)) (hX : ∀ k : Fin K, X' (ix2 p k) = X (ix2 r k))
    (hD : D' (ix2 p (0 : Fin 1)) = D (ix2 r (0 : Fin 1))) :
    lastOf P' D' X' Wr b (ix2 p j) = lastOf P D X Wr b (ix2 r j) :=
  logSoftmaxRows_congr _ _ p r j fun k => combine_congr P' X' D' P X D Wr b p r k hP hX hD

end Cert.Sage

end
-- ==== Proof.Region0.lean ====
/-
  The first hidden layer's kernel: what its output array holds when the region is left, for any buffer contents `V` at its
  entry.

  The grid has 20 points; point t works on rows 5000·t … 5000·t + 4999. Its input blocks are those rows of the
  aggregate, of the node rows and of the column of row scales, and the whole of the two weight arrays and of the bias
  (their index maps are constant). The body's one store writes `hiddenOf` of the blocks (BlockLayers.lean), and a layer at
  a row reads its row-indexed operands at that row only (RowCongr.lean), so what point t writes back is block t of
  `hiddenOf` of the WHOLE arrays. The 20 blocks tile the 100000 rows, so the output array ends as that function.
-/
import proofs.«139287_j36197984370866_2_alg».proof.Proof.GenP.KernelIdeal.Frame
import proofs.«139287_j36197984370866_2_alg».proof.Proof.RowCongr
import Idealize.ShloMosaic.Lib.Pipeline.Value

set_option maxRecDepth 16384

noncomputable section

namespace Cert.KernelIdeal.Region0

open Cert.KernelIdeal Cert.KernelIdeal.Gen Cert.KernelIdeal.GenP Cert.Sage
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The body's store, as the hidden layer of the six loaded blocks. -/
theorem payload_eq (x0 : Vec Ideal S5000x128 .f32) (x2 : Vec Ideal S5000x1 .f32) (x7 : Vec Ideal S5000x128 .f32)
    (x9 x11 : Vec Ideal S128x128 .f32) (x16 : Vec Ideal S128 .f32) :
    k0_pay1 x0 x2 x7 x9 x11 x16 = hiddenOf x0 x2 x9 x11 x16 x7 := by
  unfold k0_pay1
  dsimp only
  rw [shapeCast_self, shapeCast_self]
  exact hiddenBlock_eq dot_S5000x128_S128x128_S5000x128_1_0_0_1_n_n rfl x0 x7 x2 x9 x11 x16
    broadcasts_S5000x1_S5000x128 shapeCasts_S128_S1x128 broadcasts_S1x128_S5000x128 bitsLt_bf16_f32

/-- The printed index maps over the grid: the three row-blocked inputs move with the output, along the rows only; the
    weights and the bias stay; the output's block row stays below 20. -/
theorem idx_facts : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = win0_6.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (1 : Fin 2) = 0 ∧ win0_6.index t (0 : Fin 2) ≤ 19 :=
  (by decide +kernel : ∀ t : Fin grid0.N, _)

/-- Every block row is some point's. -/
theorem idx_onto : ∀ q : Fin 20, ∃ t : Fin cfg0.N, win0_6.index t (0 : Fin 2) = q.val :=
  (by decide +kernel : ∀ q : Fin 20, ∃ t : Fin grid0.N, win0_6.index t (0 : Fin 2) = q.val)

/-- WHAT POINT `t` WRITES BACK is block `t` of the hidden layer of the whole arrays as the region finds them. -/
theorem flushed_eq (c : Dev nD) (t : Fin cfg0.N) :
    (dat0 V c).flushed 6 t = ((cfg0.win 6).blk t).view.read (Elt Ideal)
      (hiddenOf (V c main_v24) (V c main_v12) (V c main_arg2) (V c main_arg3) (V c main_arg4) (V c main_arg0)) := by
  show (cfg0.win 6).cut (grid0.coords t) ((dat0 V c).after 6 t) = _
  rw [after0_6]
  unfold out0_6
  rw [View.canon_unit_zero hz2]
  simp only [View.ld_unit_zero (S := S5000x128) hz2, View.ld_unit_zero (S := S5000x1) hz2,
    View.ld_unit_zero (S := S128x128) hz2, View.ld_unit_zero (S := S128) hz1]
  rw [payload_eq]
  obtain ⟨e00, e01, e10, e11, e20, e21, e30, e31, e40, e41, e50, e61, e6le⟩ := idx_facts t
  funext j
  obtain ⟨p, q, rfl⟩ : ∃ (p : Fin 5000) (q : Fin 128), j = ix2 p q := ⟨j 0, j 1, eq_ix2 j⟩
  have hp : p.val < 5000 := p.isLt
  have hq : q.val < 128 := q.isLt
  let r : Fin 100000 := ⟨win0_6.index t (0 : Fin 2) * 5000 + p.val, by omega⟩
  have hemb : ((cfg0.win 6).blk t).view.emb (ix2 p q) = ix2 r q := by
    funext a; apply Fin.ext
    match a with
    | ⟨0, _⟩ => show win0_6.index t (0 : Fin 2) * 5000 + 1 * p.val = win0_6.index t (0 : Fin 2) * 5000 + p.val; omega
    | ⟨1, _⟩ => show win0_6.index t (1 : Fin 2) * 128 + 1 * q.val = q.val; omega
  show hiddenOf (iblk0 V c 0 t) (iblk0 V c 2 t) (iblk0 V c 3 t) (iblk0 V c 4 t) (iblk0 V c 5 t) (iblk0 V c 1 t) (ix2 p q)
    = hiddenOf (V c main_v24) (V c main_v12) (V c main_arg2) (V c main_arg3) (V c main_arg4) (V c main_arg0)
        (((cfg0.win 6).blk t).view.emb (ix2 p q))
  rw [hemb]
  have hW3 : (iblk0 V c 3 t : S128x128.Idx → EReal) = V c main_arg2 := by
    funext y
    show V c main_arg2 (((cfg0.win 3).blk t).view.emb y) = V c main_arg2 y
    refine congrArg _ (funext fun a => Fin.ext ?_)
    match a with
    | ⟨0, _⟩ => show win0_3.index t (0 : Fin 2) * 128 + 1 * (y 0).val = (y 0).val; omega
    | ⟨1, _⟩ => show win0_3.index t (1 : Fin 2) * 128 + 1 * (y 1).val = (y 1).val; omega
  have hW4 : (iblk0 V c 4 t : S128x128.Idx → EReal) = V c main_arg3 := by
    funext y
    show V c main_arg3 (((cfg0.win 4).blk t).view.emb y) = V c main_arg3 y
    refine congrArg _ (funext fun a => Fin.ext ?_)
    match a with
    | ⟨0, _⟩ => show win0_4.index t (0 : Fin 2) * 128 + 1 * (y 0).val = (y 0).val; omega
    | ⟨1, _⟩ => show win0_4.index t (1 : Fin 2) * 128 + 1 * (y 1).val = (y 1).val; omega
  have hW5 : (iblk0 V c 5 t : S128.Idx → EReal) = V c main_arg4 := by
    funext y
    show V c main_arg4 (((cfg0.win 5).blk t).view.emb y) = V c main_arg4 y
    refine congrArg _ (funext fun a => Fin.ext ?_)
    match a with
    | ⟨0, _⟩ => show win0_5.index t (0 : Fin 1) * 128 + 1 * (y 0).val = (y 0).val; omega
  rw [hW3, hW4, hW5]
  refine hiddenOf_congr _ _ _ _ _ _ _ _ _ p r q (fun k => ?_) (fun k => ?_) ?_
  · show V c main_v24 (((cfg0.win 0).blk t).view.emb (ix2 p k)) = V c main_v24 (ix2 r k)
    refine congrArg _ (funext fun a => Fin.ext ?_)
    have hk : k.val < 128 := k.isLt
    match a with
    | ⟨0, _⟩ => show win0_0.index t (0 : Fin 2) * 5000 + 1 * p.val = win0_6.index t (0 : Fin 2) * 5000 + p.val; omega
    | ⟨1, _⟩ => show win0_0.index t (1 : Fin 2) * 128 + 1 * k.val = k.val; omega
  · show V c main_arg0 (((cfg0.win 1).blk t).view.emb (ix2 p k)) = V c main_arg0 (ix2 r k)
    refine congrArg _ (funext fun a => Fin.ext ?_)
    have hk : k.val < 128 := k.isLt
    match a with
    | ⟨0, _⟩ => show win0_1.index t (0 : Fin 2) * 5000 + 1 * p.val = win0_6.index t (0 : Fin 2) * 5000 + p.val; omega
    | ⟨1, _⟩ => show win0_1.index t (1 : Fin 2) * 128 + 1 * k.val = k.val; omega
  · show V c main_v12 (((cfg0.win 2).blk t).view.emb (ix2 p (0 : Fin 1))) = V c main_v12 (ix2 r (0 : Fin 1))
    refine congrArg _ (funext fun a => Fin.ext ?_)
    match a with
    | ⟨0, _⟩ => show win0_2.index t (0 : Fin 2) * 5000 + 1 * p.val = win0_6.index t (0 : Fin 2) * 5000 + p.val; omega
    | ⟨1, _⟩ => show win0_2.index t (1 : Fin 2) * 1 + 1 * 0 = 0; omega

/-- An index of the output array is in point `t`'s block iff each coordinate is in the block's range on its axis. -/
theorem mem_blk (t : Fin cfg0.N) (i : S100000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v25).slice (win0_6.rect t)).set ↔ _
  rw [View.set_slice_whole, Rect.mem_set_unit]
  exact Iff.rfl

/-- The 20 blocks tile the array: row `i 0` is in the block of the point whose block row is `i 0 / 5000`. -/
theorem cover (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  obtain ⟨t, ht⟩ := idx_onto ⟨(i 0).val / 5000, by omega⟩
  have ht' : win0_6.index t (0 : Fin 2) = (i 0).val / 5000 := ht
  obtain ⟨-, -, -, -, -, -, -, -, -, -, -, e61, -⟩ := idx_facts t
  refine ⟨t, flush0_6 t, ?_⟩
  rw [mem_blk]
  intro a
  match a with
  | ⟨0, _⟩ =>
    show win0_6.index t (0 : Fin 2) * 5000 ≤ (i 0).val ∧ (i 0).val < win0_6.index t (0 : Fin 2) * 5000 + 5000
    omega
  | ⟨1, _⟩ =>
    show win0_6.index t (1 : Fin 2) * 128 ≤ (i 1).val ∧ (i 1).val < win0_6.index t (1 : Fin 2) * 128 + 128
    omega

/-- THE OUTPUT ARRAY when the region is left: the hidden layer of the arrays as the region finds them. -/
theorem final (c : Dev nD) :
    (dat0 V c).arrAt 6 cfg0.N
      = hiddenOf (V c main_v24) (V c main_v12) (V c main_arg2) (V c main_arg3) (V c main_arg4) (V c main_arg0) :=
  (dat0 V c).arrAt_eq_of_cover 6 _ (fun t _ => flushed_eq V c t) cover

end Cert.KernelIdeal.Region0

end
-- ==== Proof.Region1.lean ====
/-
  The second hidden layer's kernel: what its output array holds when the region is left, for any buffer contents `V` at its
  entry.

  The grid has 20 points; point t works on rows 5000·t … 5000·t + 4999. Its input blocks are those rows of the
  aggregate, of the node rows and of the column of row scales, and the whole of the two weight arrays and of the bias
  (their index maps are constant). The body's one store writes `hiddenOf` of the blocks (BlockLayers.lean), and a layer at
  a row reads its row-indexed operands at that row only (RowCongr.lean), so what point t writes back is block t of
  `hiddenOf` of the WHOLE arrays. The 20 blocks tile the 100000 rows, so the output array ends as that function.
-/
import proofs.«139287_j36197984370866_2_alg».proof.Proof.GenP.KernelIdeal.Frame
import proofs.«139287_j36197984370866_2_alg».proof.Proof.RowCongr
import Idealize.ShloMosaic.Lib.Pipeline.Value

set_option maxRecDepth 16384

noncomputable section

namespace Cert.KernelIdeal.Region1

open Cert.KernelIdeal Cert.KernelIdeal.Gen Cert.KernelIdeal.GenP Cert.Sage
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The body's store, as the hidden layer of the six loaded blocks. -/
theorem payload_eq (x0 : Vec Ideal S5000x128 .f32) (x2 : Vec Ideal S5000x1 .f32) (x7 : Vec Ideal S5000x128 .f32)
    (x9 x11 : Vec Ideal S128x128 .f32) (x16 : Vec Ideal S128 .f32) :
    k1_pay1 x0 x2 x7 x9 x11 x16 = hiddenOf x0 x2 x9 x11 x16 x7 := by
  unfold k1_pay1
  dsimp only
  rw [shapeCast_self, shapeCast_self, shapeCast_self]
  exact hiddenBlock_eq dot_S5000x128_S128x128_S5000x128_1_0_0_1_n_n rfl x0 x7 x2 x9 x11 x16
    broadcasts_S5000x1_S5000x128 shapeCasts_S128_S1x128 broadcasts_S1x128_S5000x128 bitsLt_bf16_f32

/-- The printed index maps over the grid: the three row-blocked inputs move with the output, along the rows only; the
    weights and the bias stay; the output's block row stays below 20. -/
theorem idx_facts : ∀ t : Fin cfg1.N,
    win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = win1_6.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 1) = 0
    ∧ win1_6.index t (1 : Fin 2) = 0 ∧ win1_6.index t (0 : Fin 2) ≤ 19 :=
  (by decide +kernel : ∀ t : Fin grid1.N, _)

/-- Every block row is some point's. -/
theorem idx_onto : ∀ q : Fin 20, ∃ t : Fin cfg1.N, win1_6.index t (0 : Fin 2) = q.val :=
  (by decide +kernel : ∀ q : Fin 20, ∃ t : Fin grid1.N, win1_6.index t (0 : Fin 2) = q.val)

/-- WHAT POINT `t` WRITES BACK is block `t` of the hidden layer of the whole arrays as the region finds them. -/
theorem flushed_eq (c : Dev nD) (t : Fin cfg1.N) :
    (dat1 V c).flushed 6 t = ((cfg1.win 6).blk t).view.read (Elt Ideal)
      (hiddenOf (V c main_v37) (V c main_v12) (V c main_arg5) (V c main_arg6) (V c main_arg7) (V c main_v25)) := by
  show (cfg1.win 6).cut (grid1.coords t) ((dat1 V c).after 6 t) = _
  rw [after1_6]
  unfold out1_6
  rw [View.canon_unit_zero hz2]
  simp only [View.ld_unit_zero (S := S5000x128) hz2, View.ld_unit_zero (S := S5000x1) hz2,
    View.ld_unit_zero (S := S128x128) hz2, View.ld_unit_zero (S := S128) hz1]
  rw [payload_eq]
  obtain ⟨e00, e01, e10, e11, e20, e21, e30, e31, e40, e41, e50, e61, e6le⟩ := idx_facts t
  funext j
  obtain ⟨p, q, rfl⟩ : ∃ (p : Fin 5000) (q : Fin 128), j = ix2 p q := ⟨j 0, j 1, eq_ix2 j⟩
  have hp : p.val < 5000 := p.isLt
  have hq : q.val < 128 := q.isLt
  let r : Fin 100000 := ⟨win1_6.index t (0 : Fin 2) * 5000 + p.val, by omega⟩
  have hemb : ((cfg1.win 6).blk t).view.emb (ix2 p q) = ix2 r q := by
    funext a; apply Fin.ext
    match a with
    | ⟨0, _⟩ => show win1_6.index t (0 : Fin 2) * 5000 + 1 * p.val = win1_6.index t (0 : Fin 2) * 5000 + p.val; omega
    | ⟨1, _⟩ => show win1_6.index t (1 : Fin 2) * 128 + 1 * q.val = q.val; omega
  show hiddenOf (iblk1 V c 0 t) (iblk1 V c 2 t) (iblk1 V c 3 t) (iblk1 V c 4 t) (iblk1 V c 5 t) (iblk1 V c 1 t) (ix2 p q)
    = hiddenOf (V c main_v37) (V c main_v12) (V c main_arg5) (V c main_arg6) (V c main_arg7) (V c main_v25)
        (((cfg1.win 6).blk t).view.emb (ix2 p q))
  rw [hemb]
  have hW3 : (iblk1 V c 3 t : S128x128.Idx → EReal) = V c main_arg5 := by
    funext y
    show V c main_arg5 (((cfg1.win 3).blk t).view.emb y) = V c main_arg5 y
    refine congrArg _ (funext fun a => Fin.ext ?_)
    match a with
    | ⟨0, _⟩ => show win1_3.index t (0 : Fin 2) * 128 + 1 * (y 0).val = (y 0).val; omega
    | ⟨1, _⟩ => show win1_3.index t (1 : Fin 2) * 128 + 1 * (y 1).val = (y 1).val; omega
  have hW4 : (iblk1 V c 4 t : S128x128.Idx → EReal) = V c main_arg6 := by
    funext y
    show V c main_arg6 (((cfg1.win 4).blk t).view.emb y) = V c main_arg6 y
    refine congrArg _ (funext fun a => Fin.ext ?_)
    match a with
    | ⟨0, _⟩ => show win1_4.index t (0 : Fin 2) * 128 + 1 * (y 0).val = (y 0).val; omega
    | ⟨1, _⟩ => show win1_4.index t (1 : Fin 2) * 128 + 1 * (y 1).val = (y 1).val; omega
  have hW5 : (iblk1 V c 5 t : S128.Idx → EReal) = V c main_arg7 := by
    funext y
    show V c main_arg7 (((cfg1.win 5).blk t).view.emb y) = V c main_arg7 y
    refine congrArg _ (funext fun a => Fin.ext ?_)
    match a with
    | ⟨0, _⟩ => show win1_5.index t (0 : Fin 1) * 128 + 1 * (y 0).val = (y 0).val; omega
  rw [hW3, hW4, hW5]
  refine hiddenOf_congr _ _ _ _ _ _ _ _ _ p r q (fun k => ?_) (fun k => ?_) ?_
  · show V c main_v37 (((cfg1.win 0).blk t).view.emb (ix2 p k)) = V c main_v37 (ix2 r k)
    refine congrArg _ (funext fun a => Fin.ext ?_)
    have hk : k.val < 128 := k.isLt
    match a with
    | ⟨0, _⟩ => show win1_0.index t (0 : Fin 2) * 5000 + 1 * p.val = win1_6.index t (0 : Fin 2) * 5000 + p.val; omega
    | ⟨1, _⟩ => show win1_0.index t (1 : Fin 2) * 128 + 1 * k.val = k.val; omega
  · show V c main_v25 (((cfg1.win 1).blk t).view.emb (ix2 p k)) = V c main_v25 (ix2 r k)
    refine congrArg _ (funext fun a => Fin.ext ?_)
    have hk : k.val < 128 := k.isLt
    match a with
    | ⟨0, _⟩ => show win1_1.index t (0 : Fin 2) * 5000 + 1 * p.val = win1_6.index t (0 : Fin 2) * 5000 + p.val; omega
    | ⟨1, _⟩ => show win1_1.index t (1 : Fin 2) * 128 + 1 * k.val = k.val; omega
  · show V c main_v12 (((cfg1.win 2).blk t).view.emb (ix2 p (0 : Fin 1))) = V c main_v12 (ix2 r (0 : Fin 1))
    refine congrArg _ (funext fun a => Fin.ext ?_)
    match a with
    | ⟨0, _⟩ => show win1_2.index t (0 : Fin 2) * 5000 + 1 * p.val = win1_6.index t (0 : Fin 2) * 5000 + p.val; omega
    | ⟨1, _⟩ => show win1_2.index t (1 : Fin 2) * 1 + 1 * 0 = 0; omega

/-- An index of the output array is in point `t`'s block iff each coordinate is in the block's range on its axis. -/
theorem mem_blk (t : Fin cfg1.N) (i : S100000x128.Idx) :
    i ∈ ((cfg1.win 6).blk t).view.set ↔ ∀ a : Fin 2, win1_6.index t a * S5000x128.size a ≤ (i a).val
      ∧ (i a).val < win1_6.index t a * S5000x128.size a + S5000x128.size a := by
  show i ∈ ((View.whole main_v38).slice (win1_6.rect t)).set ↔ _
  rw [View.set_slice_whole, Rect.mem_set_unit]
  exact Iff.rfl

/-- The 20 blocks tile the array: row `i 0` is in the block of the point whose block row is `i 0 / 5000`. -/
theorem cover (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  obtain ⟨t, ht⟩ := idx_onto ⟨(i 0).val / 5000, by omega⟩
  have ht' : win1_6.index t (0 : Fin 2) = (i 0).val / 5000 := ht
  obtain ⟨-, -, -, -, -, -, -, -, -, -, -, e61, -⟩ := idx_facts t
  refine ⟨t, flush1_6 t, ?_⟩
  rw [mem_blk]
  intro a
  match a with
  | ⟨0, _⟩ =>
    show win1_6.index t (0 : Fin 2) * 5000 ≤ (i 0).val ∧ (i 0).val < win1_6.index t (0 : Fin 2) * 5000 + 5000
    omega
  | ⟨1, _⟩ =>
    show win1_6.index t (1 : Fin 2) * 128 ≤ (i 1).val ∧ (i 1).val < win1_6.index t (1 : Fin 2) * 128 + 128
    omega

/-- THE OUTPUT ARRAY when the region is left: the hidden layer of the arrays as the region finds them. -/
theorem final (c : Dev nD) :
    (dat1 V c).arrAt 6 cfg1.N
      = hiddenOf (V c main_v37) (V c main_v12) (V c main_arg5) (V c main_arg6) (V c main_arg7) (V c main_v25) :=
  (dat1 V c).arrAt_eq_of_cover 6 _ (fun t _ => flushed_eq V c t) cover

end Cert.KernelIdeal.Region1

end
-- ==== Proof.Region2.lean ====
/-
  The projection kernel: what its output array holds when the region is left, for any buffer contents `V` at its entry.

  The grid has 20 points; point t works on rows 5000·t … 5000·t + 4999: its input blocks are those rows of the node
  rows and the whole weight array (a constant index map). The body's one store writes the product of the block of rows
  with the weights (BlockLayers.lean), and a row of a product is the product of that row (RowCongr.lean), so what point
  t writes back is block t of the product of the WHOLE arrays. The 20 blocks tile the 100000 rows.
-/
import proofs.«139287_j36197984370866_2_alg».proof.Proof.GenP.KernelIdeal.Frame
import proofs.«139287_j36197984370866_2_alg».proof.Proof.RowCongr
import Idealize.ShloMosaic.Lib.Pipeline.Value

set_option maxRecDepth 16384

noncomputable section

namespace Cert.KernelIdeal.Region2

open Cert.KernelIdeal Cert.KernelIdeal.Gen Cert.KernelIdeal.GenP Cert.Sage Cert.Dense
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl

/-- The body's store, as the product of the two loaded blocks. -/
theorem payload_eq (x0 : Vec Ideal S5000x128 .f32) (x3 : Vec Ideal S128x40 .f32) :
    k2_pay1 x0 x3 = rowsTimes x0 x3 := by
  unfold k2_pay1
  dsimp only
  rw [shapeCast_self]
  exact projectBlock_eq dot_S5000x128_S128x40_S5000x40_1_0_0_1_n_n rfl x0 x3 bitsLt_bf16_f32

/-- The printed index maps over the grid: the rows' input moves with the output, along the rows only; the weights stay;
    the output's block row stays below 20. -/
theorem idx_facts : ∀ t : Fin cfg2.N,
    win2_0.index t (0 : Fin 2) = win2_2.index t (0 : Fin 2) ∧ win2_0.index t (1 : Fin 2) = 0
    ∧ win2_1.index t (0 : Fin 2) = 0 ∧ win2_1.index t (1 : Fin 2) = 0
    ∧ win2_2.index t (1 : Fin 2) = 0 ∧ win2_2.index t (0 : Fin 2) ≤ 19 :=
  (by decide +kernel : ∀ t : Fin grid2.N, _)

/-- Every block row is some point's. -/
theorem idx_onto : ∀ q : Fin 20, ∃ t : Fin cfg2.N, win2_2.index t (0 : Fin 2) = q.val :=
  (by decide +kernel : ∀ q : Fin 20, ∃ t : Fin grid2.N, win2_2.index t (0 : Fin 2) = q.val)

/-- WHAT POINT `t` WRITES BACK is block `t` of the product of the whole arrays as the region finds them. -/
theorem flushed_eq (c : Dev nD) (t : Fin cfg2.N) :
    (dat2 V c).flushed 2 t = ((cfg2.win 2).blk t).view.read (Elt Ideal) (rowsTimes (V c main_v38) (V c main_arg8)) := by
  show (cfg2.win 2).cut (grid2.coords t) ((dat2 V c).after 2 t) = _
  rw [after2_2]
  unfold out2_2
  rw [View.canon_unit_zero hz2]
  simp only [View.ld_unit_zero (S := S5000x128) hz2, View.ld_unit_zero (S := S128x40) hz2]
  rw [payload_eq]
  obtain ⟨e00, e01, e10, e11, e21, e2le⟩ := idx_facts t
  funext j
  obtain ⟨p, q, rfl⟩ : ∃ (p : Fin 5000) (q : Fin 40), j = ix2 p q := ⟨j 0, j 1, eq_ix2 j⟩
  have hp : p.val < 5000 := p.isLt
  have hq : q.val < 40 := q.isLt
  let r : Fin 100000 := ⟨win2_2.index t (0 : Fin 2) * 5000 + p.val, by omega⟩
  have hemb : ((cfg2.win 2).blk t).view.emb (ix2 p q) = ix2 r q := by
    funext a; apply Fin.ext
    match a with
    | ⟨0, _⟩ => show win2_2.index t (0 : Fin 2) * 5000 + 1 * p.val = win2_2.index t (0 : Fin 2) * 5000 + p.val; omega
    | ⟨1, _⟩ => show win2_2.index t (1 : Fin 2) * 40 + 1 * q.val = q.val; omega
  show rowsTimes (iblk2 V c 0 t) (iblk2 V c 1 t) (ix2 p q)
    = rowsTimes (V c main_v38) (V c main_arg8) (((cfg2.win 2).blk t).view.emb (ix2 p q))
  rw [hemb]
  have hW1 : (iblk2 V c 1 t : S128x40.Idx → EReal) = V c main_arg8 := by
    funext y
    show V c main_arg8 (((cfg2.win 1).blk t).view.emb y) = V c main_arg8 y
    refine congrArg _ (funext fun a => Fin.ext ?_)
    match a with
    | ⟨0, _⟩ => show win2_1.index t (0 : Fin 2) * 128 + 1 * (y 0).val = (y 0).val; omega
    | ⟨1, _⟩ => show win2_1.index t (1 : Fin 2) * 40 + 1 * (y 1).val = (y 1).val; omega
  rw [hW1]
  refine rowsTimes_congr _ _ _ p r q (fun k => ?_)
  show V c main_v38 (((cfg2.win 0).blk t).view.emb (ix2 p k)) = V c main_v38 (ix2 r k)
  refine congrArg _ (funext fun a => Fin.ext ?_)
  have hk : k.val < 128 := k.isLt
  match a with
  | ⟨0, _⟩ => show win2_0.index t (0 : Fin 2) * 5000 + 1 * p.val = win2_2.index t (0 : Fin 2) * 5000 + p.val; omega
  | ⟨1, _⟩ => show win2_0.index t (1 : Fin 2) * 128 + 1 * k.val = k.val; omega

/-- An index of the output array is in point `t`'s block iff each coordinate is in the block's range on its axis. -/
theorem mem_blk (t : Fin cfg2.N) (i : S100000x40.Idx) :
    i ∈ ((cfg2.win 2).blk t).view.set ↔ ∀ a : Fin 2, win2_2.index t a * S5000x40.size a ≤ (i a).val
      ∧ (i a).val < win2_2.index t a * S5000x40.size a + S5000x40.size a := by
  show i ∈ ((View.whole main_v39).slice (win2_2.rect t)).set ↔ _
  rw [View.set_slice_whole, Rect.mem_set_unit]
  exact Iff.rfl

/-- The 20 blocks tile the array: row `i 0` is in the block of the point whose block row is `i 0 / 5000`. -/
theorem cover (i : S100000x40.Idx) :
    ∃ t : Fin cfg2.N, (cfg2.win 2).flush t = true ∧ i ∈ ((cfg2.win 2).blk t).view.set := by
  have hi0 : (i 0).val < 100000 := (i 0).isLt
  have hi1 : (i 1).val < 40 := (i 1).isLt
  obtain ⟨t, ht⟩ := idx_onto ⟨(i 0).val / 5000, by omega⟩
  have ht' : win2_2.index t (0 : Fin 2) = (i 0).val / 5000 := ht
  obtain ⟨-, -, -, -, e21, -⟩ := idx_facts t
  refine ⟨t, flush2_2 t, ?_⟩
  rw [mem_blk]
  intro a
  match a with
  | ⟨0, _⟩ =>
    show win2_2.index t (0 : Fin 2) * 5000 ≤ (i 0).val ∧ (i 0).val < win2_2.index t (0 : Fin 2) * 5000 + 5000
    omega
  | ⟨1, _⟩ =>
    show win2_2.index t (1 : Fin 2) * 40 ≤ (i 1).val ∧ (i 1).val < win2_2.index t (1 : Fin 2) * 40 + 40
    omega

/-- THE OUTPUT ARRAY when the region is left: the product of the arrays as the region finds them. -/
theorem final (c : Dev nD) :
    (dat2 V c).arrAt 2 cfg2.N = rowsTimes (V c main_v38) (V c main_arg8) :=
  (dat2 V c).arrAt_eq_of_cover 2 _ (fun t _ => flushed_eq V c t) cover

end Cert.KernelIdeal.Region2

end
-- ==== Proof.Region3.lean ====
/-
  The last layer's kernel: what its output array holds when the region is left, for any buffer contents `V` at its entry.

  The grid has 20 points; point t works on rows 5000·t … 5000·t + 4999. Its input blocks are those rows of the projected
  aggregate, of the node rows and of the column of row scales, and the whole of the weight array and of the bias. The
  body's one store writes `lastOf` of the blocks (BlockLayers.lean): every row's scaled aggregate plus the row times the
  weights plus the bias, shifted by its maximum, minus the logarithm of its sum of shifted exponentials — all of it a
  function of that one row (RowCongr.lean). So what point t writes back is block t of `lastOf` of the WHOLE arrays, and the
  20 blocks tile the 100000 rows.
-/
import proofs.«139287_j36197984370866_2_alg».proof.Proof.GenP.KernelIdeal.Frame
import proofs.«139287_j36197984370866_2_alg».proof.Proof.RowCongr
import Idealize.ShloMosaic.Lib.Pipeline.Value

set_option maxRecDepth 16384

noncomputable section

namespace Cert.KernelIdeal.Region3

open Cert.KernelIdeal Cert.KernelIdeal.Gen Cert.KernelIdeal.GenP Cert.Sage
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The body's store, as the last layer of the five loaded blocks. -/
theorem payload_eq (x0 : Vec Ideal S5000x40 .f32) (x2 : Vec Ideal S5000x1 .f32) (x6 : Vec Ideal S5000x128 .f32)
    (x9 : Vec Ideal S128x40 .f32) (x13 : Vec Ideal S40 .f32) :
    k3_pay1 x0 x2 x6 x9 x13 = lastOf x0 x2 x6 x9 x13 := by
  unfold k3_pay1
  dsimp only
  rw [shapeCast_self, shapeCast_self, shapeCast_self]
  exact lastBlock_eq dot_S5000x128_S128x40_S5000x40_1_0_0_1_n_n rfl x0 x6 x2 x9 x13
    broadcasts_S5000x1_S5000x40 shapeCasts_S40_S1x40 broadcasts_S1x40_S5000x40 bitsLt_bf16_f32
    reduces_S5000x40_S5000 (.inl rfl) rfl rfl shapeCasts_S5000_S5000x1

/-- The printed index maps over the grid: the three row-blocked inputs move with the output, along the rows only; the
    weights and the bias stay; the output's block row stays below 20. -/
theorem idx_facts : ∀ t : Fin cfg3.N,
    win3_0.index t (0 : Fin 2) = win3_5.index t (0 : Fin 2) ∧ win3_0.index t (1 : Fin 2) = 0
    ∧ win3_1.index t (0 : Fin 2) = win3_5.index t (0 : Fin 2) ∧ win3_1.index t (1 : Fin 2) = 0
    ∧ win3_2.index t (0 : Fin 2) = win3_5.index t (0 : Fin 2) ∧ win3_2.index t (1 : Fin 2) = 0
    ∧ win3_3.index t (0 : Fin 2) = 0 ∧ win3_3.index t (1 : Fin 2) = 0
    ∧ win3_4.index t (0 : Fin 1) = 0
    ∧ win3_5.index t (1 : Fin 2) = 0 ∧ win3_5.index t (0 : Fin 2) ≤ 19 :=
  (by decide +kernel : ∀ t : Fin grid3.N, _)

/-- Every block row is some point's. -/
theorem idx_onto : ∀ q : Fin 20, ∃ t : Fin cfg3.N, win3_5.index t (0 : Fin 2) = q.val :=
  (by decide +kernel : ∀ q : Fin 20, ∃ t : Fin grid3.N, win3_5.index t (0 : Fin 2) = q.val)

/-- WHAT POINT `t` WRITES BACK is block `t` of the last layer of the whole arrays as the region finds them. -/
theorem flushed_eq (c : Dev nD) (t : Fin cfg3.N) :
    (dat3 V c).flushed 5 t = ((cfg3.win 5).blk t).view.read (Elt Ideal)
      (lastOf (V c main_v51) (V c main_v12) (V c main_v38) (V c main_arg9) (V c main_arg10)) := by
  show (cfg3.win 5).cut (grid3.coords t) ((dat3 V c).after 5 t) = _
  rw [after3_5]
  unfold out3_5
  rw [View.canon_unit_zero hz2]
  simp only [View.ld_unit_zero (S := S5000x40) hz2, View.ld_unit_zero (S := S5000x1) hz2,
    View.ld_unit_zero (S := S5000x128) hz2, View.ld_unit_zero (S := S128x40) hz2, View.ld_unit_zero (S := S40) hz1]
  rw [payload_eq]
  obtain ⟨e00, e01, e10, e11, e20, e21, e30, e31, e40, e51, e5le⟩ := idx_facts t
  funext j
  obtain ⟨p, q, rfl⟩ : ∃ (p : Fin 5000) (q : Fin 40), j = ix2 p q := ⟨j 0, j 1, eq_ix2 j⟩
  have hp : p.val < 5000 := p.isLt
  have hq : q.val < 40 := q.isLt
  let r : Fin 100000 := ⟨win3_5.index t (0 : Fin 2) * 5000 + p.val, by omega⟩
  have hemb : ((cfg3.win 5).blk t).view.emb (ix2 p q) = ix2 r q := by
    funext a; apply Fin.ext
    match a with
    | ⟨0, _⟩ => show win3_5.index t (0 : Fin 2) * 5000 + 1 * p.val = win3_5.index t (0 : Fin 2) * 5000 + p.val; omega
    | ⟨1, _⟩ => show win3_5.index t (1 : Fin 2) * 40 + 1 * q.val = q.val; omega
  show lastOf (iblk3 V c 0 t) (iblk3 V c 2 t) (iblk3 V c 1 t) (iblk3 V c 3 t) (iblk3 V c 4 t) (ix2 p q)
    = lastOf (V c main_v51) (V c main_v12) (V c main_v38) (V c main_arg9) (V c main_arg10)
        (((cfg3.win 5).blk t).view.emb (ix2 p q))
  rw [hemb]
  have hW3 : (iblk3 V c 3 t : S128x40.Idx → EReal) = V c main_arg9 := by
    funext y
    show V c main_arg9 (((cfg3.win 3).blk t).view.emb y) = V c main_arg9 y
    refine congrArg _ (funext fun a => Fin.ext ?_)
    match a with
    | ⟨0, _⟩ => show win3_3.index t (0 : Fin 2) * 128 + 1 * (y 0).val = (y 0).val; omega
    | ⟨1, _⟩ => show win3_3.index t (1 : Fin 2) * 40 + 1 * (y 1).val = (y 1).val; omega
  have hW4 : (iblk3 V c 4 t : S40.Idx → EReal) = V c main_arg10 := by
    funext y
    show V c main_arg10 (((cfg3.win 4).blk t).view.emb y) = V c main_arg10 y
    refine congrArg _ (funext fun a => Fin.ext ?_)
    match a with
    | ⟨0, _⟩ => show win3_4.index t (0 : Fin 1) * 40 + 1 * (y 0).val = (y 0).val; omega
  rw [hW3, hW4]
  refine lastOf_congr _ _ _ _ _ _ _ _ p r q (fun k => ?_) (fun k => ?_) ?_
  · show V c main_v51 (((cfg3.win 0).blk t).view.emb (ix2 p k)) = V c main_v51 (ix2 r k)
    refine congrArg _ (funext fun a => Fin.ext ?_)
    have hk : k.val < 40 := k.isLt
    match a with
    | ⟨0, _⟩ => show win3_0.index t (0 : Fin 2) * 5000 + 1 * p.val = win3_5.index t (0 : Fin 2) * 5000 + p.val; omega
    | ⟨1, _⟩ => show win3_0.index t (1 : Fin 2) * 40 + 1 * k.val = k.val; omega
  · show V c main_v38 (((cfg3.win 1).blk t).view.emb (ix2 p k)) = V c main_v38 (ix2 r k)
    refine congrArg _ (funext fun a => Fin.ext ?_)
    have hk : k.val < 128 := k.isLt
    match a with
    | ⟨0, _⟩ => show win3_1.index t (0 : Fin 2) * 5000 + 1 * p.val = win3_5.index t (0 : Fin 2) * 5000 + p.val; omega
    | ⟨1, _⟩ => show win3_1.index t (1 : Fin 2) * 128 + 1 * k.val = k.val; omega
  · show V c main_v12 (((cfg3.win 2).blk t).view.emb (ix2 p (0 : Fin 1))) = V c main_v12 (ix2 r (0 : Fin 1))
    refine congrArg _ (funext fun a => Fin.ext ?_)
    match a with
    | ⟨0, _⟩ => show win3_2.index t (0 : Fin 2) * 5000 + 1 * p.val = win3_5.index t (0 : Fin 2) * 5000 + p.val; omega
    | ⟨1, _⟩ => show win3_2.index t (1 : Fin 2) * 1 + 1 * 0 = 0; omega

/-- An index of the output array is in point `t`'s block iff each coordinate is in the block's range on its axis. -/
theorem mem_blk (t : Fin cfg3.N) (i : S100000x40.Idx) :
    i ∈ ((cfg3.win 5).blk t).view.set ↔ ∀ a : Fin 2, win3_5.index t a * S5000x40.size a ≤ (i a).val
      ∧ (i a).val < win3_5.index t a * S5000x40.size a + S5000x40.size a := by
  show i ∈ ((View.whole main_v52).slice (win3_5.rect t)).set ↔ _
  rw [View.set_slice_whole, Rect.mem_set_unit]
  exact Iff.rfl

/-- The 20 blocks tile the array: row `i 0` is in the block of the point whose block row is `i 0 / 5000`. -/
theorem cover (i : S100000x40.Idx) :
    ∃ t : Fin cfg3.N, (cfg3.win 5).flush t = true ∧ i ∈ ((cfg3.win 5).blk t).view.set := by
  have hi0 : (i 0).val < 100000 := (i 0).isLt
  have hi1 : (i 1).val < 40 := (i 1).isLt
  obtain ⟨t, ht⟩ := idx_onto ⟨(i 0).val / 5000, by omega⟩
  have ht' : win3_5.index t (0 : Fin 2) = (i 0).val / 5000 := ht
  obtain ⟨-, -, -, -, -, -, -, -, -, e51, -⟩ := idx_facts t
  refine ⟨t, flush3_5 t, ?_⟩
  rw [mem_blk]
  intro a
  match a with
  | ⟨0, _⟩ =>
    show win3_5.index t (0 : Fin 2) * 5000 ≤ (i 0).val ∧ (i 0).val < win3_5.index t (0 : Fin 2) * 5000 + 5000
    omega
  | ⟨1, _⟩ =>
    show win3_5.index t (1 : Fin 2) * 40 ≤ (i 1).val ∧ (i 1).val < win3_5.index t (1 : Fin 2) * 40 + 40
    omega

/-- THE OUTPUT ARRAY when the region is left: the last layer of the arrays as the region finds them. -/
theorem final (c : Dev nD) :
    (dat3 V c).arrAt 5 cfg3.N
      = lastOf (V c main_v51) (V c main_v12) (V c main_v38) (V c main_arg9) (V c main_arg10) :=
  (dat3 V c).arrAt_eq_of_cover 5 _ (fun t _ => flushed_eq V c t) cover

end Cert.KernelIdeal.Region3

end
-- ==== Proof.LibRowGather.lean ====
/-
  A general fact about gathering whole rows of a matrix.

  Take a table with N rows and C columns and a column of R start indices (an R × 1 integer array). Gathering with one
  collapsed axis (the rows), one offset axis (the columns), the start index naming the row axis and slices of one
  whole row produces an R × C array whose entry (r, o) is the table's entry (k, o), where k is the r-th start index
  read as a signed integer and clamped into 0 … N − 1. Nothing here depends on a particular program.
-/
import Idealize.ShloMosaic.PureOps.Ideal
import Idealize.ShloMosaic.Lib.ValueIdx

noncomputable section

namespace Idealize.ShloMosaic.RowGather

open Idealize.ShloMosaic Idealize.ShloMosaic.ValueIdx

variable {α : Type}

/-- The dimension numbers of a whole-row gather from an `N × C` table at an `R × 1` column of start indices. -/
abbrev rowDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- Entry `(r, o)` of a whole-row gather is the table's entry `(k, o)`, `k` the `r`-th start index read signed and
    clamped into `0 … N − 1`. -/
theorem gather_row_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (o : Fin C) :
    Host.gather (rowDims N R C wf) x idx (ix2 r o)
      = x (ix2 (⟨min (idx (ix2 r (0 : Fin 1))).toInt.toNat (N - 1), by omega⟩ : Fin N) o) := by
  unfold Host.gather
  congr 1
  funext a
  refine Fin.ext ?_
  match a with
  | ⟨0, _⟩ =>
    show (rowDims N R C wf).start (ix2 r o) idx 0 + (rowDims N R C wf).batchCoord (ix2 r o) 0
        + (rowDims N R C wf).offCoord (ix2 r o) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 r o) ⟨List.idxOf (0 : Fin 2) (rowDims N R C wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowDims N R C wf).start (ix2 r o) idx 1 + (rowDims N R C wf).batchCoord (ix2 r o) 1
        + (rowDims N R C wf).offCoord (ix2 r o) 1 = o.val
    rw [GatherDims.batchCoord_eq_zero _ _ _ List.not_mem_nil]
    unfold GatherDims.start
    rw [dif_neg (show ¬ (1 : Fin 2) ∈ (rowDims N R C wf).startIndexMap from
      fun h => absurd (List.mem_singleton.mp h) (show ¬ (1 : Fin 2) = 0 by decide))]
    simp only [Nat.add_zero, Nat.zero_add]
    rfl

end Idealize.ShloMosaic.RowGather

end
-- ==== Proof.LibRowScatterAdd.lean ====
/-
  A general fact about accumulating rows into a matrix.

  Take an operand with N rows and C columns, a column of R row numbers (an R × 1 integer array) and an R × C array of
  update rows. Scattering with one window axis (the columns), one inserted axis (the rows) and the row number naming
  the row axis adds update row e onto operand row k, where k is the e-th row number read as a signed integer; a row
  number outside 0 … N − 1 drops its update row. On the extended reals the result at (r, c) is therefore the operand's
  entry plus the sum, over the update rows e whose row number is r, of the update entry (e, c). Nothing here depends on
  a particular program.
-/
import Idealize.ShloMosaic.PureOps.Ideal
import Idealize.ShloMosaic.Lib.ValueIdx

noncomputable section

namespace Idealize.ShloMosaic.RowScatter

open Idealize.ShloMosaic Idealize.ShloMosaic.ValueIdx

/-- The dimension numbers of a whole-row accumulation into an `N × C` operand at an `R × 1` column of row numbers. -/
abbrev rowDims (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

variable {N R C w : Nat} (wf : ScatterDims.WF ⟨2, ![N, C]⟩ ⟨2, ![R, 1]⟩ ⟨2, ![R, C]⟩ [1] [0] [0] 1)

/-- On the row axis the window of update entry `(e, c)` starts at the `e`-th row number, read signed. -/
theorem start_row (idx : IVec ⟨2, ![R, 1]⟩ w) (e : Fin R) (c : Fin C) :
    (rowDims N R C wf).start (ix2 e c) idx 0 = (idx (ix2 e (0 : Fin 1))).toInt := by
  unfold ScatterDims.start
  rw [dif_pos (show (0 : Fin 2) ∈ (rowDims N R C wf).scatterDimsToOperandDims from List.mem_singleton.mpr rfl)]
  have hsi : (rowDims N R C wf).siIdx (ix2 e c) ⟨List.idxOf (0 : Fin 2) (rowDims N R C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis it starts at 0. -/
theorem start_col (idx : IVec ⟨2, ![R, 1]⟩ w) (j : (⟨2, ![R, C]⟩ : Shape).Idx) :
    (rowDims N R C wf).start j idx 1 = 0 := by
  unfold ScatterDims.start
  rw [dif_neg (show ¬ (1 : Fin 2) ∈ (rowDims N R C wf).scatterDimsToOperandDims from
    fun h => absurd (List.mem_singleton.mp h) (show ¬ (1 : Fin 2) = 0 by decide))]

/-- The operand's axes that are not inserted: the columns only. -/
theorem sKept_eq : (rowDims N R C wf).sKept = [(1 : Fin 2)] := rfl

/-- The row axis is inserted: no window coordinate. -/
theorem window_row (j : (⟨2, ![R, C]⟩ : Shape).Idx) : (rowDims N R C wf).window j 0 = 0 := by
  unfold ScatterDims.window
  rw [dif_neg (show ¬ (0 : Fin 2) ∈ (rowDims N R C wf).sKept from by
    rw [sKept_eq]; exact fun h => absurd (List.mem_singleton.mp h) (show ¬ (0 : Fin 2) = 1 by decide))]

/-- The column axis carries the update's column. -/
theorem window_col (e : Fin R) (c : Fin C) : (rowDims N R C wf).window (ix2 e c) 1 = c.val := by
  unfold ScatterDims.window
  rw [dif_pos (show (1 : Fin 2) ∈ (rowDims N R C wf).sKept from by
    rw [sKept_eq]; exact List.mem_singleton.mpr rfl)]
  rfl

/-- WHERE AN UPDATE ENTRY LANDS: update entry `(e, c)` lands on operand entry `i` exactly when the `e`-th row number, read
    signed, is `i`'s row and `c` is `i`'s column. (A row number outside the operand lands nowhere.) -/
theorem resultIdx?_eq_some_iff (idx : IVec ⟨2, ![R, 1]⟩ w) (e : Fin R) (c : Fin C) (i : (⟨2, ![N, C]⟩ : Shape).Idx) :
    (rowDims N R C wf).resultIdx? (ix2 e c) idx = some i
      ↔ (idx (ix2 e (0 : Fin 1))).toInt = ((i 0).val : Int) ∧ c.val = (i 1).val := by
  have hs0 := start_row wf idx e c
  have hs1 := start_col wf idx (ix2 e c)
  have hw0 := window_row wf (ix2 e c)
  have hw1 := window_col wf e c
  have hi0 : (i 0).val < N := (i 0).isLt
  have hi1 : (i 1).val < C := (i 1).isLt
  have hc : c.val < C := c.isLt
  unfold ScatterDims.resultIdx?
  split
  · rename_i h
    rw [Option.some.injEq]
    have h0 := h 0
    rw [hs0, hw0] at h0
    constructor
    · intro he
      have e0 : ((rowDims N R C wf).start (ix2 e c) idx 0 + ((rowDims N R C wf).window (ix2 e c) 0 : Nat)).toNat = (i 0).val :=
        congrArg (fun f : (⟨2, ![N, C]⟩ : Shape).Idx => (f 0).val) he
      have e1 : ((rowDims N R C wf).start (ix2 e c) idx 1 + ((rowDims N R C wf).window (ix2 e c) 1 : Nat)).toNat = (i 1).val :=
        congrArg (fun f : (⟨2, ![N, C]⟩ : Shape).Idx => (f 1).val) he
      rw [hs0, hw0] at e0
      rw [hs1, hw1] at e1
      constructor <;> omega
    · rintro ⟨g0, g1⟩
      funext a; apply Fin.ext
      match a with
      | ⟨0, _⟩ =>
        show ((rowDims N R C wf).start (ix2 e c) idx 0 + ((rowDims N R C wf).window (ix2 e c) 0 : Nat)).toNat = (i 0).val
        rw [hs0, hw0]; omega
      | ⟨1, _⟩ =>
        show ((rowDims N R C wf).start (ix2 e c) idx 1 + ((rowDims N R C wf).window (ix2 e c) 1 : Nat)).toNat = (i 1).val
        rw [hs1, hw1]; omega
  · rename_i h
    constructor
    · intro he; cases he
    · rintro ⟨g0, g1⟩
      exfalso; apply h
      intro a
      match a with
      | ⟨0, _⟩ =>
        show 0 ≤ (rowDims N R C wf).start (ix2 e c) idx 0 + ((rowDims N R C wf).window (ix2 e c) 0 : Nat)
          ∧ (rowDims N R C wf).start (ix2 e c) idx 0 + ((rowDims N R C wf).window (ix2 e c) 0 : Nat) < (N : Int)
        rw [hs0, hw0]; omega
      | ⟨1, _⟩ =>
        show 0 ≤ (rowDims N R C wf).start (ix2 e c) idx 1 + ((rowDims N R C wf).window (ix2 e c) 1 : Nat)
          ∧ (rowDims N R C wf).start (ix2 e c) idx 1 + ((rowDims N R C wf).window (ix2 e c) 1 : Nat) < (C : Int)
        rw [hs1, hw1]; omega

/-- THE ACCUMULATED ROWS AT AN ENTRY: the operand's entry plus the sum, over the update rows whose row number is
    `r`, of their entries in column `c`. -/
theorem scatterAdd_row_apply (x : (⟨2, ![N, C]⟩ : Shape).Idx → EReal) (idx : IVec ⟨2, ![R, 1]⟩ w)
    (upd : (⟨2, ![R, C]⟩ : Shape).Idx → EReal) (r : Fin N) (c : Fin C) :
    Ideal.hostScatterAdd (rowDims N R C wf) x idx upd (ix2 r c)
      = x (ix2 r c) + ∑ e : Fin R, if (idx (ix2 e (0 : Fin 1))).toInt = (r.val : Int) then upd (ix2 e c) else 0 := by
  unfold Ideal.hostScatterAdd
  congr 1
  rw [Finset.sum_filter, sum_idx2]
  refine Finset.sum_congr rfl fun e _ => ?_
  have hiff : ∀ c' : Fin C, ((rowDims N R C wf).resultIdx? (ix2 e c') idx = some (ix2 r c))
      ↔ ((idx (ix2 e (0 : Fin 1))).toInt = (r.val : Int) ∧ c' = c) := fun c' =>
    (resultIdx?_eq_some_iff wf idx e c' (ix2 r c)).trans (and_congr Iff.rfl Fin.val_inj)
  simp only [hiff]
  by_cases hr : (idx (ix2 e (0 : Fin 1))).toInt = (r.val : Int)
  · simp only [hr, true_and, if_true, Finset.sum_ite_eq', Finset.mem_univ]
  · simp only [hr, false_and, if_false, Finset.sum_const_zero]

/-- The same, spelt as the host's operation at the extended reals. -/
theorem host_scatterAdd_row_apply (x : FVec Ideal ⟨2, ![N, C]⟩ .f32) (idx : IVec ⟨2, ![R, 1]⟩ w)
    (upd : FVec Ideal ⟨2, ![R, C]⟩ .f32) (r : Fin N) (c : Fin C) :
    Host.scatterAdd (F := Ideal) (rowDims N R C wf) x idx upd (ix2 r c)
      = x (ix2 r c) + ∑ e : Fin R, if (idx (ix2 e (0 : Fin 1))).toInt = (r.val : Int) then upd (ix2 e c) else 0 :=
  scatterAdd_row_apply wf x idx upd r c

end Idealize.ShloMosaic.RowScatter

end
-- ==== Proof.LibRowsCols.lean ====
/-
  A contraction of a [R, K] array with a [K, N] array over their one shared axis, read at an entry.

  Both the matrix unit's product into a zero accumulator (the kernel's `tpu.matmul`) and the host's
  `dot_general` are, on the extended reals, the sum over the contraction index of left entry × right entry.
  When the record's left operand index at output (r, j) and contraction position k is (r, k), and the right one
  is (k, j), that sum is `rowsTimes a w (r, j) = ∑ k, a (r, k) · w (k, j)`. A change of float format is the
  identity on the extended reals, so the kernel's casts of its operands to bf16 do not appear.

  Only commutative-monoid facts about the sum are used: nothing here needs the entries to be finite.
-/
import Idealize.ShloMosaic.PureOps.Ideal.Laws
import Idealize.ShloMosaic.Lib.ValueIdx
import proofs.«139287_j36197984370866_2_alg».proof.Proof.LibRowsTimes

noncomputable section

namespace Cert.Dense

open Idealize.ShloMosaic Idealize.ShloMosaic.ValueIdx

variable {R K N : Nat} (d : DotDims ⟨2, ![R, K]⟩ ⟨2, ![K, N]⟩ ⟨2, ![R, N]⟩)

/-- The record contracts ONE axis, of extent `K`, and its operand indices at output index `j` and contraction
    position `k` are (j 0, k) on the left and (k, j 1) on the right: "rows times columns". -/
structure RowsCols : Prop where
  rank : d.contr.rank = 1
  size : d.contr.size ⟨0, by omega⟩ = K
  l0 : ∀ (j : (⟨2, ![R, N]⟩ : Shape).Idx) (k : d.contr.Idx), (d.lhsIdx j k 0).val = (j 0).val
  l1 : ∀ (j : (⟨2, ![R, N]⟩ : Shape).Idx) (k : d.contr.Idx), (d.lhsIdx j k 1).val = (k ⟨0, by omega⟩).val
  r0 : ∀ (j : (⟨2, ![R, N]⟩ : Shape).Idx) (k : d.contr.Idx), (d.rhsIdx j k 0).val = (k ⟨0, by omega⟩).val
  r1 : ∀ (j : (⟨2, ![R, N]⟩ : Shape).Idx) (k : d.contr.Idx), (d.rhsIdx j k 1).val = (j 1).val

variable {d}

/-- The left operand index, with the contraction position named by its one coordinate `k`, is (j 0, k). -/
theorem RowsCols.lhs (h : RowsCols d) (j : (⟨2, ![R, N]⟩ : Shape).Idx) (k : Fin K) :
    d.lhsIdx j ((contrEquiv1 d K h.rank h.size).symm k) = ix2 (j 0 : Fin R) k := by
  funext x; apply Fin.ext
  match x with
  | ⟨0, _⟩ => exact h.l0 j _
  | ⟨1, _⟩ => exact (h.l1 j _).trans (contrEquiv1_symm_val d K h.rank h.size k)

/-- The right operand index, likewise, is (k, j 1). -/
theorem RowsCols.rhs (h : RowsCols d) (j : (⟨2, ![R, N]⟩ : Shape).Idx) (k : Fin K) :
    d.rhsIdx j ((contrEquiv1 d K h.rank h.size).symm k) = ix2 k (j 1 : Fin N) := by
  funext x; apply Fin.ext
  match x with
  | ⟨0, _⟩ => exact (h.r0 j _).trans (contrEquiv1_symm_val d K h.rank h.size k)
  | ⟨1, _⟩ => exact h.r1 j _

/-- The matrix unit's product of `a` and `w` into the zero accumulator, at (r, j), is `∑ k, a (r, k) · w (k, j)`;
    the operands' float formats are whatever they are (a format is not seen on the extended reals). -/
theorem matmul_zero_apply (h : RowsCols d) (prec : Option ContractPrecision) {φ₁ φ₂ : FTy}
    (a : FVec Ideal ⟨2, ![R, K]⟩ φ₁) (w : FVec Ideal ⟨2, ![K, N]⟩ φ₂) (j : (⟨2, ![R, N]⟩ : Shape).Idx) :
    FloatOps.matmul d prec a w (constant (F := Ideal) ⟨2, ![R, N]⟩ .f32 0x00000000#32) j = rowsTimes a w j := by
  rw [Ideal.matmul_constant_zero_apply]
  exact contraction_eq d h.rank h.size a w a w j j (fun k => congrArg a (h.lhs j k)) (fun k => congrArg w (h.rhs j k))

/-- The host's `dot_general` of `a` and `w`, at (r, j), is the same sum. -/
theorem dotGeneral_apply (h : RowsCols d) (prec : Option ContractPrecision) {φ₁ φ₂ : FTy}
    (a : FVec Ideal ⟨2, ![R, K]⟩ φ₁) (w : FVec Ideal ⟨2, ![K, N]⟩ φ₂) (j : (⟨2, ![R, N]⟩ : Shape).Idx) :
    Host.dotGeneral d prec a w j = rowsTimes a w j := by
  show FloatOps.dotGeneral d prec .single a w j = _
  rw [Ideal.dotGeneral_apply]
  exact contraction_eq d h.rank h.size a w a w j j (fun k => congrArg a (h.lhs j k)) (fun k => congrArg w (h.rhs j k))

/-- So the host's `dot_general` of two whole arrays IS their product, as one function. -/
theorem dotGeneral_eq (h : RowsCols d) (prec : Option ContractPrecision) {φ₁ φ₂ : FTy}
    (a : FVec Ideal ⟨2, ![R, K]⟩ φ₁) (w : FVec Ideal ⟨2, ![K, N]⟩ φ₂) :
    Host.dotGeneral d prec a w = rowsTimes a w := funext (dotGeneral_apply h prec a w)

end Cert.Dense

end
-- ==== Proof.LibHostColumn.lean ====
/-
  A vector repeated into a matrix by the host's two broadcasts.

  The host repeats a vector along a new axis in two steps: it first gives the vector a unit axis (`broadcast_in_dim`
  of [n] into [n, 1] along dimension 0, or of [b] into [1, b] along dimension 1), then repeats the unit axis
  (`broadcast_in_dim` of [n, 1] or [1, b] into [n, b] along dimensions 0 and 1). Read at (p, k) the result is the
  vector at the coordinate it was laid along: the row `p` for a column, the column `k` for a row. A size-one axis
  of the operand is read at 0 whatever the result's coordinate, which is why the case of a vector of one entry needs
  no separate statement.
-/
import Idealize.ShloMosaic.Lib.Pipeline.Value
import Idealize.ShloMosaic.Lib.ValueIdx

namespace Idealize.ShloMosaic.HostColumn

open Idealize.ShloMosaic Idealize.ShloMosaic.ValueIdx

variable {α : Type}

/-- A vector of `n` entries kept as an [n, 1] column and that column repeated to [n, b], both by the host's
    `broadcast_in_dim`, reads the vector at the row. -/
theorem column_apply {n b : Nat} (x : (⟨1, ![n]⟩ : Shape).Idx → α)
    (b1 : (⟨1, ![n]⟩ : Shape).BroadcastsInDim ⟨2, ![n, 1]⟩ ![0])
    (b2 : (⟨2, ![n, 1]⟩ : Shape).BroadcastsInDim ⟨2, ![n, b]⟩ ![0, 1]) (p : Fin n) (k : Fin b) :
    broadcastInDim ⟨2, ![n, b]⟩ ![0, 1] b2 (broadcastInDim ⟨2, ![n, 1]⟩ ![0] b1 x) (ix2 p k) = x (ix1 p) := by
  refine (broadcastInDim_apply _ b2 _ (ix2 p k) (ix2 p (0 : Fin 1)) fun a => ?_).trans
    (broadcastInDim_apply _ b1 x (ix2 p (0 : Fin 1)) (ix1 p) fun a => ?_)
  · match a with
    | ⟨0, _⟩ =>
      show p.val = if n = 1 then 0 else p.val
      split
      · have := p.isLt; omega
      · rfl
    | ⟨1, _⟩ => rfl
  · match a with
    | ⟨0, _⟩ =>
      show p.val = if n = 1 then 0 else p.val
      split
      · have := p.isLt; omega
      · rfl

/-- A vector of `b` entries given a leading unit axis and repeated down `n` rows, both by the host's
    `broadcast_in_dim`, reads the vector at the column. -/
theorem row_apply {n b : Nat} (x : (⟨1, ![b]⟩ : Shape).Idx → α)
    (b3 : (⟨1, ![b]⟩ : Shape).BroadcastsInDim ⟨2, ![1, b]⟩ ![1])
    (b4 : (⟨2, ![1, b]⟩ : Shape).BroadcastsInDim ⟨2, ![n, b]⟩ ![0, 1]) (p : Fin n) (j : Fin b) :
    broadcastInDim ⟨2, ![n, b]⟩ ![0, 1] b4 (broadcastInDim ⟨2, ![1, b]⟩ ![1] b3 x) (ix2 p j) = x (ix1 j) := by
  refine (broadcastInDim_apply _ b4 _ (ix2 p j) (ix2 (0 : Fin 1) j) fun a => ?_).trans
    (broadcastInDim_apply _ b3 x (ix2 (0 : Fin 1) j) (ix1 j) fun a => ?_)
  · match a with
    | ⟨0, _⟩ => rfl
    | ⟨1, _⟩ =>
      show j.val = if b = 1 then 0 else j.val
      split
      · have := j.isLt; omega
      · rfl
  · match a with
    | ⟨0, _⟩ =>
      show j.val = if b = 1 then 0 else j.val
      split
      · have := j.isLt; omega
      · rfl

end Idealize.ShloMosaic.HostColumn
-- ==== Proof.LibHostRowReduce.lean ====
/-
  The host's reductions along the columns of a matrix, and the host's row-wise log-softmax, read at an entry — general
  in the extents m and n, in the two initial words, and with every shape fact taken as a hypothesis, so that nothing
  is ever evaluated at the extents.

  A `stablehlo.reduce` over axis 1 of an [m, n] array folds, for each row, over the row's n entries:
    * `lift_row`: the reduced index `p` with column `k` put back is (p, k);
    * `reduce_max_row`: from the f32 word `w`, the reduce with a maximum body at row `p` is the fold of `max` from that
      word's value over the row (the word is carried, never evaluated);
    * `reduce_add_row`: the sum-reduction from an initial value at row `p` is that value plus the row's sum.
  A scalar constant repeated into an array reads the constant (`splat_apply`); a vector kept as a one-column array,
  and a one-column array repeated along the rows, read the vector at the row (`column_keep`, `column_repeat`).

  The host's log-softmax of an [m, n] array `z` (jax.nn.log_softmax along axis 1): each row's maximum reduced from the
  word `w` and taken once more against `w`'s value (which changes nothing: a maximum taken from a value is already at
  least that value), kept as a column and repeated along the rows; the shifted entries' exponentials summed from the
  word `w0`, whose value is 0; the sum's logarithm, kept and repeated likewise, subtracted from the shifted entries.
  At (p, q) it is `z(p,q) − M − log Σ_k exp (z(p,k) − M)` with `M` the fold of `max` from `w`'s value over row p
  (`logSoftmax_apply`). No entry needs to be finite.
-/
import Idealize.ShloMosaic.PureOps.Ideal.Laws
import Idealize.ShloMosaic.PureOps.Reduce
import Idealize.ShloMosaic.Lib.Pipeline.Value
import Idealize.ShloMosaic.Lib.ValueIdx

noncomputable section

namespace Cert.HostRows

open Idealize.ShloMosaic Idealize.ShloMosaic.ValueIdx

variable {m n : Nat}

/-! ## Reductions along the columns -/

/-- The reduced index `p` with column `k` put back is (p, k). -/
theorem lift_row (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- From the word `w` the host's reduce with a maximum body along the columns, at row `p`, is the fold of `max` from
    `w`'s value over the row. -/
theorem reduce_max_row (x : FVec Ideal (⟨2, ![m, n]⟩ : Shape) .f32) (h' : (⟨2, ![m, n]⟩ : Shape).ReducesTo [1] (⟨1, ![m]⟩ : Shape))
    (h : (⟨2, ![m, n]⟩ : Shape).Reduces [1] (⟨1, ![m]⟩ : Shape)) (hu : 0 < (⟨0, ![]⟩ : Shape).numel) (w : BitVec 32) (p : Fin m) :
    Host.reduce FloatOps.maximumf x (constant (⟨0, ![]⟩ : Shape) .f32 w) h' hu (ix1 p)
      = (Finset.univ : Finset (Fin n)).fold max (Ideal.ofBits .f32 w) fun k : Fin n => x (ix2 p k) := by
  rw [Host.reduce_eq_fold_single FloatOps.maximumf x _ h' h hu]
  have hf : (x ∘ h.lift (ix1 p)) = fun k : Fin n => x (ix2 p k) := funext fun k => congrArg x (lift_row h p k)
  exact congrArg (fun f => Finset.fold max (Ideal.ofBits .f32 w) f (Finset.univ : Finset (Fin n))) hf

/-- The host's sum-reduction along the columns from an initial value, at row `p`, is that value plus the row's sum. -/
theorem reduce_add_row (x : (⟨2, ![m, n]⟩ : Shape).Idx → EReal) (h' : (⟨2, ![m, n]⟩ : Shape).ReducesTo [1] (⟨1, ![m]⟩ : Shape))
    (h : (⟨2, ![m, n]⟩ : Shape).Reduces [1] (⟨1, ![m]⟩ : Shape)) (init : EReal) (p : Fin m) :
    Ideal.hostReduceAdd h' x init (ix1 p) = init + ∑ k : Fin n, x (ix2 p k) := by
  rw [Ideal.hostReduceAdd_single h' h]
  exact congrArg (init + ·) (Finset.sum_congr rfl fun k _ => congrArg x (lift_row h p k))

/-! ## Constants and columns laid out by the host -/

/-- A scalar constant repeated into an array reads the constant's value. -/
theorem splat_apply {t : Shape} (dims : Fin (⟨0, ![]⟩ : Shape).rank → Fin t.rank) (h : (⟨0, ![]⟩ : Shape).BroadcastsInDim t dims)
    (w : BitVec 32) (i : t.Idx) :
    broadcastInDim t dims h (constant (F := Ideal) (⟨0, ![]⟩ : Shape) .f32 w) i = Ideal.ofBits .f32 w := rfl

/-- A one-column array repeated along the rows reads its column at the row. -/
theorem column_repeat {α : Type} {b : Nat} (v : (⟨2, ![m, 1]⟩ : Shape).Idx → α)
    (h : (⟨2, ![m, 1]⟩ : Shape).BroadcastsInDim (⟨2, ![m, b]⟩ : Shape) ![0, 1]) (p : Fin m) (k : Fin b) :
    broadcastInDim (⟨2, ![m, b]⟩ : Shape) ![0, 1] h v (ix2 p k) = v (ix2 p (0 : Fin 1)) := by
  refine broadcastInDim_apply _ h v (ix2 p k) (ix2 p (0 : Fin 1)) fun a => ?_
  match a with
  | ⟨0, _⟩ =>
    show p.val = if m = 1 then 0 else p.val
    split
    · have := p.isLt; omega
    · rfl
  | ⟨1, _⟩ => rfl

/-- A vector kept as a one-column array reads the vector at the row. -/
theorem column_keep {α : Type} (x : (⟨1, ![m]⟩ : Shape).Idx → α)
    (h : (⟨1, ![m]⟩ : Shape).BroadcastsInDim (⟨2, ![m, 1]⟩ : Shape) ![0]) (p : Fin m) :
    broadcastInDim (⟨2, ![m, 1]⟩ : Shape) ![0] h x (ix2 p (0 : Fin 1)) = x (ix1 p) := by
  refine broadcastInDim_apply _ h x (ix2 p (0 : Fin 1)) (ix1 p) fun a => ?_
  match a with
  | ⟨0, _⟩ =>
    show p.val = if m = 1 then 0 else p.val
    split
    · have := p.isLt; omega
    · rfl

/-! ## The host's row-wise log-softmax -/

section LogSoftmax

variable (h' : (⟨2, ![m, n]⟩ : Shape).ReducesTo [1] (⟨1, ![m]⟩ : Shape)) (h : (⟨2, ![m, n]⟩ : Shape).Reduces [1] (⟨1, ![m]⟩ : Shape)) (hu : 0 < (⟨0, ![]⟩ : Shape).numel)
  (b0 : (⟨0, ![]⟩ : Shape).BroadcastsInDim (⟨1, ![m]⟩ : Shape) ![]) (b1 : (⟨1, ![m]⟩ : Shape).BroadcastsInDim (⟨2, ![m, 1]⟩ : Shape) ![0])
  (b2 : (⟨2, ![m, 1]⟩ : Shape).BroadcastsInDim (⟨2, ![m, n]⟩ : Shape) ![0, 1]) (w w0 : BitVec 32)

/-- Each row's maximum, reduced from `w` and taken once more against `w`'s value. -/
def rowMaxima (z : FVec Ideal (⟨2, ![m, n]⟩ : Shape) .f32) : FVec Ideal (⟨1, ![m]⟩ : Shape) .f32 :=
  maximumf (broadcastInDim (⟨1, ![m]⟩ : Shape) ![] b0 (constant (F := Ideal) (⟨0, ![]⟩ : Shape) .f32 w))
    (Host.reduce FloatOps.maximumf z (constant (F := Ideal) (⟨0, ![]⟩ : Shape) .f32 w) h' hu)

/-- Each entry's distance to its row's maximum. -/
def shifted (z : FVec Ideal (⟨2, ![m, n]⟩ : Shape) .f32) : FVec Ideal (⟨2, ![m, n]⟩ : Shape) .f32 :=
  subf z (broadcastInDim (⟨2, ![m, n]⟩ : Shape) ![0, 1] b2 (broadcastInDim (⟨2, ![m, 1]⟩ : Shape) ![0] b1 (rowMaxima h' hu b0 w z)))

/-- The shifted entries minus the logarithm of the row's sum of shifted exponentials. -/
def logSoftmax (z : FVec Ideal (⟨2, ![m, n]⟩ : Shape) .f32) : FVec Ideal (⟨2, ![m, n]⟩ : Shape) .f32 :=
  subf (shifted h' hu b0 b1 b2 w z) (broadcastInDim (⟨2, ![m, n]⟩ : Shape) ![0, 1] b2 (Host.log (broadcastInDim (⟨2, ![m, 1]⟩ : Shape) ![0] b1
    (Host.reduceAdd (Host.exp (shifted h' hu b0 b1 b2 w z)) (constant (F := Ideal) (⟨0, ![]⟩ : Shape) .f32 w0) h' hu))))

include h in
theorem rowMaxima_apply (z : FVec Ideal (⟨2, ![m, n]⟩ : Shape) .f32) (p : Fin m) :
    rowMaxima h' hu b0 w z (ix1 p) = (Finset.univ : Finset (Fin n)).fold max (Ideal.ofBits .f32 w) fun k : Fin n => z (ix2 p k) := by
  unfold rowMaxima
  show FloatOps.maximumf (broadcastInDim (⟨1, ![m]⟩ : Shape) ![] b0 (constant (F := Ideal) (⟨0, ![]⟩ : Shape) .f32 w) (ix1 p))
    (Host.reduce FloatOps.maximumf z (constant (F := Ideal) (⟨0, ![]⟩ : Shape) .f32 w) h' hu (ix1 p)) = _
  rw [splat_apply, reduce_max_row z h' h hu w p]
  exact max_eq_right (by rw [Finset.le_fold_max]; exact Or.inl le_rfl)

include h in
theorem shifted_apply (z : FVec Ideal (⟨2, ![m, n]⟩ : Shape) .f32) (p : Fin m) (q : Fin n) :
    shifted h' hu b0 b1 b2 w z (ix2 p q)
      = z (ix2 p q) - (Finset.univ : Finset (Fin n)).fold max (Ideal.ofBits .f32 w) fun k : Fin n => z (ix2 p k) := by
  unfold shifted
  show FloatOps.subf (z (ix2 p q)) (broadcastInDim (⟨2, ![m, n]⟩ : Shape) ![0, 1] b2 (broadcastInDim (⟨2, ![m, 1]⟩ : Shape) ![0] b1 (rowMaxima h' hu b0 w z)) (ix2 p q)) = _
  rw [column_repeat, column_keep, rowMaxima_apply h' h hu b0 w z p]
  rfl

include h in
/-- The host's log-softmax at (p, q), given that the sum's initial word `w0` is worth 0. -/
theorem logSoftmax_apply (hw0 : Ideal.ofBits .f32 w0 = 0) (z : FVec Ideal (⟨2, ![m, n]⟩ : Shape) .f32) (p : Fin m) (q : Fin n) :
    logSoftmax h' hu b0 b1 b2 w w0 z (ix2 p q)
      = (z (ix2 p q) - (Finset.univ : Finset (Fin n)).fold max (Ideal.ofBits .f32 w) fun k : Fin n => z (ix2 p k))
        - Ideal.log (∑ k' : Fin n, Ideal.exp (z (ix2 p k')
            - (Finset.univ : Finset (Fin n)).fold max (Ideal.ofBits .f32 w) fun k : Fin n => z (ix2 p k))) := by
  unfold logSoftmax
  show FloatOps.subf (shifted h' hu b0 b1 b2 w z (ix2 p q)) (broadcastInDim (⟨2, ![m, n]⟩ : Shape) ![0, 1] b2 (Host.log (broadcastInDim (⟨2, ![m, 1]⟩ : Shape) ![0] b1
      (Host.reduceAdd (Host.exp (shifted h' hu b0 b1 b2 w z)) (constant (F := Ideal) (⟨0, ![]⟩ : Shape) .f32 w0) h' hu))) (ix2 p q)) = _
  rw [shifted_apply h' h hu b0 b1 b2 w z p q, column_repeat]
  show FloatOps.subf (F := Ideal) (φ := .f32) _ (Ideal.log (broadcastInDim (⟨2, ![m, 1]⟩ : Shape) ![0] b1
      (Ideal.hostReduceAdd h' (Host.exp (shifted h' hu b0 b1 b2 w z)) (Ideal.ofBits .f32 w0)) (ix2 p (0 : Fin 1)))) = _
  rw [column_keep, reduce_add_row _ h' h, hw0, zero_add]
  refine congrArg (fun s => (z (ix2 p q) - (Finset.univ : Finset (Fin n)).fold max (Ideal.ofBits .f32 w) fun k : Fin n => z (ix2 p k)) - Ideal.log s)
    (Finset.sum_congr rfl fun k' _ => ?_)
  show Ideal.exp (shifted h' hu b0 b1 b2 w z (ix2 p k')) = _
  rw [shifted_apply h' h hu b0 b1 b2 w z p k']

end LogSoftmax

end Cert.HostRows

end
-- ==== Proof.LibRealValued.lean ====
/-
  Extended reals that are real numbers: a small library for value proofs whose algebra fails at the infinities.

  The extended reals have the two infinities, and `a - a` is 0 only when `a` is neither of them; likewise cancelling,
  distributing and moving a factor across a sum hold for real numbers and can fail at an infinity. A proof that needs such
  a law first shows that the terms involved are real numbers. This file has

    * `IsReal` and its closure under sums, products and finite sums;
    * the evaluations a real number minus itself is 0, exp 0 = 1, 1 / 1 = 1, and max (-inf) y = y — together, the softmax
      over an axis of length one is exp (s - s) / (0 + exp (s - s)) = 1 for a real score `s`;
    * a float pattern whose exponent field is not all ones denotes a real number (so a finite literal is `IsReal`, by
      `decide` on its bits, without evaluating it);
    * a fold over an axis of length one;
    * the "every float input is finite" precondition read back: |a| < +inf says `a` is a real number, and one
      "all entries have |a| < +inf" conjunct gives it of every entry.
-/
import Idealize.ShloMosaic.PureOps.Ideal
import Idealize.ShloMosaic.Lib.ReduceAll
import Idealize.ShloMosaic.Lib.ValueIdx

noncomputable section

namespace Cert.RealValued

open Idealize.ShloMosaic Idealize.ShloMosaic.ValueIdx

/-- An extended real that is a real number: neither infinity. -/
def IsReal (a : EReal) : Prop := ∃ r : ℝ, a = (r : EReal)

/-- The sum of two real numbers is a real number. -/
theorem IsReal.add {a b : EReal} (ha : IsReal a) (hb : IsReal b) : IsReal (a + b) := by
  obtain ⟨r, rfl⟩ := ha
  obtain ⟨s, rfl⟩ := hb
  exact ⟨r + s, (EReal.coe_add r s).symm⟩

/-- The product of two real numbers is a real number. -/
theorem IsReal.mul {a b : EReal} (ha : IsReal a) (hb : IsReal b) : IsReal (a * b) := by
  obtain ⟨r, rfl⟩ := ha
  obtain ⟨s, rfl⟩ := hb
  exact ⟨r * s, (EReal.coe_mul r s).symm⟩

/-- Zero is a real number. -/
theorem isReal_zero : IsReal 0 := ⟨0, EReal.coe_zero.symm⟩

/-- A finite sum of real numbers is a real number. -/
theorem isReal_sum {ι : Type} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- A real number minus itself is 0 (false at either infinity). -/
theorem sub_self_of_isReal {a : EReal} (h : IsReal a) : a - a = 0 := by
  obtain ⟨r, rfl⟩ := h
  rw [← EReal.coe_sub, sub_self, EReal.coe_zero]

/-- The exponential of zero is one. -/
theorem exp_zero : Ideal.exp 0 = 1 := by
  rw [← EReal.coe_zero, Ideal.exp_coe, Real.exp_zero, EReal.coe_one]

/-- One divided by one is one. -/
theorem div_one_one : Ideal.div 1 1 = 1 := by
  have h := Ideal.div_coe (y := 1) one_ne_zero (1 : EReal)
  simpa using h

/-- A float pattern whose exponent field is not all ones denotes a real number. -/
theorem ieee_isReal (e m : Nat) {w : Nat} (b : BitVec w) (h : (b.extractLsb' m e).toNat ≠ 2 ^ e - 1) :
    IsReal (Ideal.ieee e m b) := by
  unfold Ideal.ieee
  dsimp only
  rw [if_neg h]
  split <;> exact ⟨_, rfl⟩

/-- The f32 pattern of minus infinity is the least extended real: the maximum with it changes nothing. -/
theorem max_negInf_left (y : EReal) : max (Ideal.ofBits .f32 0xFF800000#32) y = y := by
  simp [Ideal.ofBits, Ideal.ieee]

/-- The same with the operands in the other order. -/
theorem max_negInf_right (y : EReal) : max y (Ideal.ofBits .f32 0xFF800000#32) = y := by
  rw [max_comm]; exact max_negInf_left y

/-- A fold over an axis of length one meets its one term once. -/
theorem fold_fin_one {α : Type} (op : α → α → α) [Std.Commutative op] [Std.Associative op] (b : α) (f : Fin 1 → α) :
    (Finset.univ : Finset (Fin 1)).fold op b f = op (f 0) b := by
  rw [Finset.univ_unique, Finset.fold_singleton]
  rfl

/-- |a| < +inf on the extended reals, where |a| = max a (-a) is +inf at either infinity: `a` is a real number. -/
theorem isReal_of_abs_lt_inf (a : EReal)
    (h : Ideal.cmp .olt (max a (-a)) (Ideal.ofBits .f32 0x7F800000#32) = 1#1) : IsReal a := by
  have htop : Ideal.ofBits .f32 0x7F800000#32 = ⊤ := by simp [Ideal.ofBits, Ideal.ieee]
  rw [htop] at h
  induction a using EReal.rec with
  | bot => simp [Ideal.cmp] at h
  | top => simp [Ideal.cmp] at h
  | coe r => exact ⟨r, rfl⟩

/-- One conjunct of a finiteness precondition, "all entries of `a` have |a| < +inf" (a reduction by `and`, over every axis,
    of the comparison of |a| with the +inf pattern broadcast from a scalar), gives that every entry is a real number. -/
theorem all_isReal {s : Shape} {axes : List (Fin s.rank)} (a : FVec Ideal s .f32)
    (dims : Fin (⟨0, ![]⟩ : Shape).rank → Fin s.rank) (bc : (⟨0, ![]⟩ : Shape).BroadcastsInDim s dims)
    (h' : s.ReducesTo axes ⟨0, ![]⟩) (hu : 0 < (⟨0, ![]⟩ : Shape).numel)
    (e : Host.reduce IntOp.andi
      (cmpf .olt (Host.absf a) (broadcastInDim s dims bc (constant (F := Ideal) ⟨0, ![]⟩ .f32 0x7F800000#32)))
      (constantI ⟨0, ![]⟩ 1 1#1) h' hu ix0 = 1#1) (i : s.Idx) : IsReal (a i) := by
  haveI : Subsingleton (⟨0, ![]⟩ : Shape).Idx := ⟨fun a b => funext fun d => d.elim0⟩
  exact isReal_of_abs_lt_inf (a i) (Host.reduce_andi_all _ _ h' hu ix0 e i)

end Cert.RealValued

end
-- ==== Proof.HostLayers.lean ====
/-
  The host operations both programs apply between and around the layers, on the extended reals, as the functions of
  Spec.lean. All extents are variables.

  * `graphStep_eq` — gathering whole rows of `h` at the column `gi` and adding them, row by row, onto a zero array at the
    rows the column `di` names is `aggr gi di h`: entry (r, k) is the zero word's value plus the sum, over the edges whose
    `di` entry is r, of `h` at the row their `gi` entry names (read signed, clamped) and column k.
  * `refLayer_eq` — the reference's layer, ((A scaled row by row by d) · Wl + b) + h · Wr, is `pre A d Wl Wr b h`: the same
    three terms added in another order (addition on the extended reals is commutative and associative).
  * `relu_eq` — the maximum with a repeated zero constant is `relu`.
  * `logSoftmax_eq` — the host's row normalisation (row maximum from −inf, taken once more against −inf; shifted rows;
    the logarithm of the row sums of shifted exponentials) is `logSoftmaxRows`.
  * `recipMax_isReal` — one over the larger of anything and one is a real number: the larger is at least one, so it is
    not zero, and its inverse is zero (at +inf) or a real number.
-/
import proofs.«139287_j36197984370866_2_alg».proof.Proof.Spec
import proofs.«139287_j36197984370866_2_alg».proof.Proof.LibRowGather
import proofs.«139287_j36197984370866_2_alg».proof.Proof.LibRowScatterAdd
import proofs.«139287_j36197984370866_2_alg».proof.Proof.LibRowsCols
import proofs.«139287_j36197984370866_2_alg».proof.Proof.LibPlainProduct
import proofs.«139287_j36197984370866_2_alg».proof.Proof.LibHostColumn
import proofs.«139287_j36197984370866_2_alg».proof.Proof.LibHostRowReduce
import proofs.«139287_j36197984370866_2_alg».proof.Proof.LibRealValued

noncomputable section

namespace Cert.Sage

open Idealize.ShloMosaic Idealize.ShloMosaic.ValueIdx Cert.Dense
open Cert.RealValued (IsReal)

variable {N E K C : Nat}

/-! ## The graph step -/

theorem graphStep_eq (hN : 0 < N)
    (wfG : GatherDims.WF ⟨2, ![N, K]⟩ ⟨2, ![E, 1]⟩ ⟨2, ![E, K]⟩ [1] [0] [] [0] [] 1 ![1, K])
    (dG : GatherDims ⟨2, ![N, K]⟩ ⟨2, ![E, 1]⟩ ⟨2, ![E, K]⟩) (hG : dG = RowGather.rowDims N E K wfG)
    (wfS : ScatterDims.WF ⟨2, ![N, K]⟩ ⟨2, ![E, 1]⟩ ⟨2, ![E, K]⟩ [1] [0] [0] 1)
    (dS : ScatterDims ⟨2, ![N, K]⟩ ⟨2, ![E, 1]⟩ ⟨2, ![E, K]⟩) (hS : dS = RowScatter.rowDims N E K wfS)
    (bz : (⟨0, ![]⟩ : Shape).BroadcastsInDim ⟨2, ![N, K]⟩ ![])
    (gi di : IVec ⟨2, ![E, 1]⟩ 32) (h : FVec Ideal ⟨2, ![N, K]⟩ .f32) :
    Host.scatterAdd (F := Ideal) dS
        (broadcastInDim ⟨2, ![N, K]⟩ ![] bz (constant (F := Ideal) ⟨0, ![]⟩ .f32 0x00000000#32)) di (Host.gather dG h gi)
      = aggr hN gi di h := by
  subst hG hS
  funext i
  obtain ⟨r, k, rfl⟩ : ∃ (r : Fin N) (k : Fin K), i = ix2 r k := ⟨i 0, i 1, eq_ix2 i⟩
  rw [RowScatter.host_scatterAdd_row_apply]
  unfold aggr landsOn readRow
  refine congrArg₂ (· + ·) rfl (Finset.sum_congr rfl fun e _ => ?_)
  rw [RowGather.gather_row_apply hN wfG h gi e k]
  rfl

/-! ## The reference's layer -/

/-- The plain dimension numbers contract one axis, rows against columns. -/
theorem plain_rowsCols {M : Nat} : RowsCols (R := M) (K := K) (N := C) (DotDims.plain M K C) where
  rank := rfl
  size := rfl
  l0 := plain_lhs_row
  l1 := plain_lhs_col
  r0 := plain_rhs_row
  r1 := plain_rhs_col

theorem refLayer_eq (dD : DotDims ⟨2, ![N, K]⟩ ⟨2, ![K, C]⟩ ⟨2, ![N, C]⟩) (hD : dD = DotDims.plain N K C)
    (A h : FVec Ideal ⟨2, ![N, K]⟩ .f32) (dv : FVec Ideal ⟨1, ![N]⟩ .f32)
    (Wl Wr : FVec Ideal ⟨2, ![K, C]⟩ .f32) (b : FVec Ideal ⟨1, ![C]⟩ .f32)
    (hk1 : (⟨1, ![N]⟩ : Shape).BroadcastsInDim ⟨2, ![N, 1]⟩ ![0])
    (hk2 : (⟨2, ![N, 1]⟩ : Shape).BroadcastsInDim ⟨2, ![N, K]⟩ ![0, 1])
    (hr1 : (⟨1, ![C]⟩ : Shape).BroadcastsInDim ⟨2, ![1, C]⟩ ![1])
    (hr2 : (⟨2, ![1, C]⟩ : Shape).BroadcastsInDim ⟨2, ![N, C]⟩ ![0, 1]) :
    addf
        (addf
          (Host.dotGeneral dD none
            (mulf A (broadcastInDim ⟨2, ![N, K]⟩ ![0, 1] hk2 (broadcastInDim ⟨2, ![N, 1]⟩ ![0] hk1 dv))) Wl)
          (broadcastInDim ⟨2, ![N, C]⟩ ![0, 1] hr2 (broadcastInDim ⟨2, ![1, C]⟩ ![1] hr1 b)))
        (Host.dotGeneral dD none h Wr)
      = pre A dv Wl Wr b h := by
  subst hD
  rw [dotGeneral_eq plain_rowsCols, dotGeneral_eq plain_rowsCols]
  funext i
  obtain ⟨p, j, rfl⟩ : ∃ (p : Fin N) (j : Fin C), i = ix2 p j := ⟨i 0, i 1, eq_ix2 i⟩
  show (rowsTimes _ _ (ix2 p j)
      + broadcastInDim ⟨2, ![N, C]⟩ ![0, 1] hr2 (broadcastInDim ⟨2, ![1, C]⟩ ![1] hr1 b) (ix2 p j))
      + rowsTimes _ _ (ix2 p j) = _
  rw [HostColumn.row_apply b hr1 hr2 p j, add_right_comm]
  unfold pre
  refine congrArg (fun t => (t + _) + _) ?_
  unfold rowsTimes scaleRows
  refine Finset.sum_congr rfl fun k _ => ?_
  show (A (ix2 p k) * broadcastInDim ⟨2, ![N, K]⟩ ![0, 1] hk2 (broadcastInDim ⟨2, ![N, 1]⟩ ![0] hk1 dv) (ix2 p k))
      * Wl (ix2 k j) = _
  rw [HostColumn.column_apply dv hk1 hk2 p k]
  rfl

/-! ## The rectifier and the row normalisation, as the host spells them -/

theorem relu_eq {S : Shape} (bz : (⟨0, ![]⟩ : Shape).BroadcastsInDim S ![]) (x : FVec Ideal S .f32) :
    maximumf x (broadcastInDim S ![] bz (constant (F := Ideal) ⟨0, ![]⟩ .f32 0x00000000#32)) = relu x := rfl

theorem logSoftmax_eq (h' : (⟨2, ![N, C]⟩ : Shape).ReducesTo [1] (⟨1, ![N]⟩ : Shape))
    (h : (⟨2, ![N, C]⟩ : Shape).Reduces [1] (⟨1, ![N]⟩ : Shape)) (hu : 0 < (⟨0, ![]⟩ : Shape).numel)
    (b0 : (⟨0, ![]⟩ : Shape).BroadcastsInDim (⟨1, ![N]⟩ : Shape) ![])
    (b1 : (⟨1, ![N]⟩ : Shape).BroadcastsInDim (⟨2, ![N, 1]⟩ : Shape) ![0])
    (b2 : (⟨2, ![N, 1]⟩ : Shape).BroadcastsInDim (⟨2, ![N, C]⟩ : Shape) ![0, 1])
    (z : FVec Ideal (⟨2, ![N, C]⟩ : Shape) .f32) :
    Cert.HostRows.logSoftmax h' hu b0 b1 b2 0xFF800000#32 0x00000000#32 z = logSoftmaxRows z := by
  funext i
  obtain ⟨p, q, rfl⟩ : ∃ (p : Fin N) (q : Fin C), i = ix2 p q := ⟨i 0, i 1, eq_ix2 i⟩
  rw [Cert.HostRows.logSoftmax_apply h' h hu b0 b1 b2 0xFF800000#32 0x00000000#32 Ideal.ofBits_zero_f32 z p q]
  rfl

/-! ## One over the larger of anything and one -/

theorem recipMax_isReal (a : EReal) : IsReal (Ideal.div (Ideal.ofBits .f32 0x3F800000#32) (max a (Ideal.ofBits .f32 0x3F800000#32))) := by
  have h1 : Ideal.ofBits .f32 0x3F800000#32 = (1 : EReal) := by
    simp [Ideal.ofBits, Ideal.ieee, -EReal.coe_mul]; norm_num
  rw [h1]
  have hge : (1 : EReal) ≤ max a 1 := le_max_right a 1
  have hne : max a 1 ≠ 0 := fun h0 => by rw [h0] at hge; exact absurd hge (by norm_num)
  unfold Ideal.div
  rw [if_neg hne, one_mul]
  generalize max a 1 = y at hge
  induction y using EReal.rec with
  | bot =>
    have hlt : (⊥ : EReal) < 1 := by rw [← EReal.coe_one]; exact EReal.bot_lt_coe 1
    exact absurd hge (not_le.mpr hlt)
  | top => exact ⟨0, by simp⟩
  | coe r => exact ⟨r⁻¹, (EReal.coe_inv r).symm⟩

end Cert.Sage

end
-- ==== Proof.LibRealSums.lean ====
/-
  Sums of products of real numbers inside the extended reals.

  The extended reals are not a semiring: a product does not distribute over a sum when an infinity is present. For
  real numbers it does. This file has

    * the coercion of a finite real sum is the sum of the coercions;
    * the exchange law behind "aggregate, then multiply by a matrix = multiply by the matrix, then aggregate": for
      real x (e, k), w (k), v (e) and any selection p of the e's,
          ∑ e ∈ p, (∑ k, x (e, k) · w (k)) · v (e)  =  ∑ k, (∑ e ∈ p, x (e, k) · v (e)) · w (k),
      stated on the extended reals with the selection written as an `if`;
    * the larger of two real numbers is a real number.

  Nothing here depends on a particular program.
-/
import Mathlib.Data.EReal.Basic
import Mathlib.Algebra.BigOperators.Ring.Finset
import Mathlib.Algebra.BigOperators.Group.Finset.Sigma
import Mathlib.Tactic.Ring

noncomputable section

namespace Cert.RealSums

open scoped BigOperators

/-- The coercion of a finite sum of real numbers is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The exchange law over the real numbers. -/
theorem exchange_real {ι κ : Type} [Fintype ι] [Fintype κ] (p : ι → Prop) [DecidablePred p]
    (x : ι → κ → ℝ) (w : κ → ℝ) (v : ι → ℝ) :
    ∑ e, (if p e then (∑ k, x e k * w k) * v e else 0) = ∑ k, (∑ e, if p e then x e k * v e else 0) * w k := by
  simp only [Finset.sum_mul]
  rw [Finset.sum_comm]
  refine Finset.sum_congr rfl fun e _ => ?_
  by_cases h : p e
  · simp only [if_pos h]
    refine Finset.sum_congr rfl fun k _ => by ring
  · simp only [if_neg h, zero_mul, Finset.sum_const_zero]

/-- The exchange law on the extended reals, for entries that are real numbers. -/
theorem exchange {ι κ : Type} [Fintype ι] [Fintype κ] (p : ι → Prop) [DecidablePred p]
    (x : ι → κ → ℝ) (w : κ → ℝ) (v : ι → ℝ) :
    ∑ e, (if p e then (∑ k, (x e k : EReal) * (w k : EReal)) * (v e : EReal) else 0)
      = ∑ k, (∑ e, if p e then (x e k : EReal) * (v e : EReal) else 0) * (w k : EReal) := by
  have hL : ∀ e, (if p e then (∑ k, (x e k : EReal) * (w k : EReal)) * (v e : EReal) else 0)
      = ((if p e then (∑ k, x e k * w k) * v e else 0 : ℝ) : EReal) := by
    intro e
    by_cases h : p e
    · rw [if_pos h, if_pos h, EReal.coe_mul, coe_sum]
      simp only [EReal.coe_mul]
    · rw [if_neg h, if_neg h, EReal.coe_zero]
  have hR : ∀ k, (∑ e, if p e then (x e k : EReal) * (v e : EReal) else 0) * (w k : EReal)
      = (((∑ e, if p e then x e k * v e else 0) * w k : ℝ) : EReal) := by
    intro k
    rw [EReal.coe_mul, coe_sum]
    congr 1
    refine Finset.sum_congr rfl fun e _ => ?_
    by_cases h : p e
    · rw [if_pos h, if_pos h, EReal.coe_mul]
    · rw [if_neg h, if_neg h, EReal.coe_zero]
  rw [Finset.sum_congr rfl fun e _ => hL e, Finset.sum_congr rfl fun k _ => hR k, ← coe_sum, ← coe_sum,
    exchange_real]

/-- The larger of two real numbers is one of them, so a real number. -/
theorem max_real {a b : EReal} (ha : ∃ r : ℝ, a = (r : EReal)) (hb : ∃ r : ℝ, b = (r : EReal)) :
    ∃ r : ℝ, max a b = (r : EReal) := by
  rcases max_choice a b with h | h
  · rw [h]; exact ha
  · rw [h]; exact hb

end Cert.RealSums

end
-- ==== Proof.Algebra.lean ====
/-
  Two facts about the layers of Spec.lean on the extended reals.

  1. Real numbers in, real numbers out: an aggregate of real entries is real (a finite sum of reals, some of them
     replaced by zero), a product of two arrays of reals is real, so `pre`, and with it `hidden` (the larger of a
     real and zero), has real entries when the rows, the weights, the bias and the row scales are real.

  2. The left product moves across the aggregation. For real entries
         ∑ k, ((∑ e landing on r, h (row e, k)) · d r) · Wl (k, j)  =  (∑ e landing on r, ∑ k, h (row e, k) · Wl (k, j)) · d r,
     both being the same finite sum of real products h · d · Wl. On the extended reals this needs the entries to be
     real: a product does not distribute over a sum that holds an infinity. Hence `logitsProjected = logits`.
-/
import proofs.«139287_j36197984370866_2_alg».proof.Proof.Spec
import proofs.«139287_j36197984370866_2_alg».proof.Proof.LibRealValued
import proofs.«139287_j36197984370866_2_alg».proof.Proof.LibRealSums

noncomputable section

namespace Cert.Sage

open Idealize.ShloMosaic Idealize.ShloMosaic.ValueIdx Cert.Dense
open Cert.RealValued (IsReal isReal_zero isReal_sum)
open Cert.RealSums (coe_sum max_real)

variable {N E K C : Nat}

/-- Every entry of an array is a real number. -/
def AllReal {S : Shape} (x : S.Idx → EReal) : Prop := ∀ i, IsReal (x i)

/-- The zero word is worth zero. -/
theorem zeroWord : Ideal.ofBits .f32 0x00000000#32 = (0 : EReal) := Ideal.ofBits_zero_f32

/-! ## Real numbers in, real numbers out -/

theorem aggr_allReal (hN : 0 < N) (gi di : IVec ⟨2, ![E, 1]⟩ 32) (h : (⟨2, ![N, K]⟩ : Shape).Idx → EReal)
    (hh : AllReal h) : AllReal (aggr hN gi di h) := by
  intro i
  unfold aggr
  rw [zeroWord]
  refine isReal_zero.add (isReal_sum _ _ fun e _ => ?_)
  split
  · exact hh _
  · exact isReal_zero

theorem rowsTimes_allReal {M : Nat} (a : (⟨2, ![M, K]⟩ : Shape).Idx → EReal) (w : (⟨2, ![K, C]⟩ : Shape).Idx → EReal)
    (ha : AllReal a) (hw : AllReal w) : AllReal (rowsTimes a w) := by
  intro i
  unfold rowsTimes
  exact isReal_sum _ _ fun k _ => (ha _).mul (hw _)

theorem scaleRows_allReal (A : (⟨2, ![N, K]⟩ : Shape).Idx → EReal) (d : (⟨1, ![N]⟩ : Shape).Idx → EReal)
    (hA : AllReal A) (hd : AllReal d) : AllReal (scaleRows A d) := fun i => (hA i).mul (hd _)

theorem pre_allReal (A : (⟨2, ![N, K]⟩ : Shape).Idx → EReal) (d : (⟨1, ![N]⟩ : Shape).Idx → EReal)
    (Wl Wr : (⟨2, ![K, C]⟩ : Shape).Idx → EReal) (b : (⟨1, ![C]⟩ : Shape).Idx → EReal)
    (h : (⟨2, ![N, K]⟩ : Shape).Idx → EReal)
    (hA : AllReal A) (hd : AllReal d) (hWl : AllReal Wl) (hWr : AllReal Wr) (hb : AllReal b) (hh : AllReal h) :
    AllReal (pre A d Wl Wr b h) := fun i =>
  ((rowsTimes_allReal _ _ (scaleRows_allReal A d hA hd) hWl i).add (rowsTimes_allReal _ _ hh hWr i)).add (hb _)

theorem hidden_allReal (hN : 0 < N) (gi di : IVec ⟨2, ![E, 1]⟩ 32) (d : (⟨1, ![N]⟩ : Shape).Idx → EReal)
    (Wl Wr : (⟨2, ![K, C]⟩ : Shape).Idx → EReal) (b : (⟨1, ![C]⟩ : Shape).Idx → EReal)
    (h : (⟨2, ![N, K]⟩ : Shape).Idx → EReal)
    (hd : AllReal d) (hWl : AllReal Wl) (hWr : AllReal Wr) (hb : AllReal b) (hh : AllReal h) :
    AllReal (hidden hN gi di d Wl Wr b h) := by
  intro i
  unfold hidden relu
  refine max_real (pre_allReal _ d Wl Wr b h (aggr_allReal hN gi di h hh) hd hWl hWr hb hh i) ?_
  rw [zeroWord]; exact isReal_zero

/-! ## The left product moves across the aggregation -/

/-- Over any finite index types, for real entries: scaling the selected sum of row products equals the row product
    of the scaled selected sums. -/
theorem sum_project {ι κ : Type} [Fintype ι] [Fintype κ] (p : ι → Prop) [DecidablePred p]
    (x : ι → κ → ℝ) (w : κ → ℝ) (v : ℝ) :
    (∑ e, if p e then ∑ k, (x e k : EReal) * (w k : EReal) else 0) * (v : EReal)
      = ∑ k, ((∑ e, if p e then (x e k : EReal) else 0) * (v : EReal)) * (w k : EReal) := by
  have hL : (∑ e, if p e then ∑ k, (x e k : EReal) * (w k : EReal) else 0) * (v : EReal)
      = (((∑ e, if p e then ∑ k, x e k * w k else 0) * v : ℝ) : EReal) := by
    rw [EReal.coe_mul, coe_sum]
    congr 1
    refine Finset.sum_congr rfl fun e _ => ?_
    by_cases h : p e
    · rw [if_pos h, if_pos h, coe_sum]
      simp only [EReal.coe_mul]
    · rw [if_neg h, if_neg h, EReal.coe_zero]
  have hR : ∀ k, ((∑ e, if p e then (x e k : EReal) else 0) * (v : EReal)) * (w k : EReal)
      = ((((∑ e, if p e then x e k else 0) * v) * w k : ℝ) : EReal) := by
    intro k
    rw [EReal.coe_mul, EReal.coe_mul, coe_sum]
    congr 2
    refine Finset.sum_congr rfl fun e _ => ?_
    by_cases h : p e
    · rw [if_pos h, if_pos h]
    · rw [if_neg h, if_neg h, EReal.coe_zero]
  rw [hL, Finset.sum_congr rfl fun k _ => hR k, ← coe_sum]
  congr 1
  simp only [Finset.sum_mul]
  rw [Finset.sum_comm]
  refine Finset.sum_congr rfl fun e _ => ?_
  by_cases h : p e
  · simp only [if_pos h, Finset.sum_mul]
    refine Finset.sum_congr rfl fun k _ => by ring
  · simp only [if_neg h, zero_mul, Finset.sum_const_zero]

/-- For real rows, weights and row scales the last layer may multiply by `Wl` before it aggregates. -/
theorem logitsProjected_eq_logits (hN : 0 < N) (gi di : IVec ⟨2, ![E, 1]⟩ 32) (d : (⟨1, ![N]⟩ : Shape).Idx → EReal)
    (Wl Wr : (⟨2, ![K, C]⟩ : Shape).Idx → EReal) (b : (⟨1, ![C]⟩ : Shape).Idx → EReal)
    (h : (⟨2, ![N, K]⟩ : Shape).Idx → EReal)
    (hd : AllReal d) (hWl : AllReal Wl) (hh : AllReal h) :
    logitsProjected hN gi di d Wl Wr b h = logits hN gi di d Wl Wr b h := by
  funext i
  unfold logitsProjected combine logits pre
  congr 2
  choose h' hh' using hh
  choose w' hw' using hWl
  obtain ⟨v, hv⟩ := hd (ix1 (i 0 : Fin N))
  unfold rowsTimes scaleRows aggr
  simp only [zeroWord, zero_add]
  show (∑ e : Fin E, if landsOn di e (i 0 : Fin N) then
        ∑ k : Fin K, h (ix2 (readRow hN gi e) k) * Wl (ix2 k (i 1 : Fin C)) else 0) * d (ix1 (i 0 : Fin N))
      = ∑ k : Fin K, ((∑ e : Fin E, if landsOn di e (i 0 : Fin N) then h (ix2 (readRow hN gi e) k) else 0)
          * d (ix1 (i 0 : Fin N))) * Wl (ix2 k (i 1 : Fin C))
  rw [hv]
  have key := sum_project (fun e : Fin E => landsOn di e (i 0 : Fin N))
    (fun e (k : Fin K) => h' (ix2 (readRow hN gi e) k)) (fun k : Fin K => w' (ix2 k (i 1 : Fin C))) v
  simp only [← hh', ← hw'] at key
  exact key

end Cert.Sage

end
-- ==== Proof.GraphInputs.lean ====
/-
  What both programs compute from the 2 × E array of edges before the first layer, as they print it. All extents are
  variables; the shape facts the printed operations carry are arguments, so that each program passes its own.

  * `edgeRow r ei`  — row r of the edge array as a vector of E row numbers.
  * `readCol n src` — the rows the edges read, as an E × 1 column: a negative row number counted from the end (n added).
  * `landCol dst`   — the rows the edges land on, as an E × 1 column.
  * `rowScales di`  — per row r, one over the larger of (the number of edges landing on r) and one, as the programs
                      compute it: ones added onto zeros at the landing rows, the maximum with one, one divided by it.
    Every entry is a real number whatever the count is (`rowScales_allReal`), and the vector kept as an N × 1 column reads
    back as the vector (`colVec_shapeCast`).
-/
import proofs.«139287_j36197984370866_2_alg».proof.Proof.HostLayers
import proofs.«139287_j36197984370866_2_alg».proof.Proof.BlockLayers
import proofs.«139287_j36197984370866_2_alg».proof.Proof.Algebra

noncomputable section

namespace Cert.Sage

open Idealize.ShloMosaic Idealize.ShloMosaic.ValueIdx Idealize.ShloMosaic.ColumnLayout
open Cert.RealValued (IsReal)

variable {N E : Nat}

/-- Row `r` of the edge array, as a vector. -/
def edgeRow (r : Nat) (ei : IVec ⟨2, ![2, E]⟩ 32) (hs : (⟨2, ![2, E]⟩ : Shape).Slices ![r, 0] ⟨2, ![1, E]⟩)
    (hc : (⟨2, ![1, E]⟩ : Shape).ShapeCasts ⟨1, ![E]⟩) : IVec ⟨1, ![E]⟩ 32 :=
  shapeCast ⟨1, ![E]⟩ (extractStridedSlice ⟨2, ![1, E]⟩ ![r, 0] ei hs) hc

/-- The rows the edges read, as a column: a negative row number has `n` added. -/
def readCol (n : BitVec 32) (bs : (⟨0, ![]⟩ : Shape).BroadcastsInDim ⟨1, ![E]⟩ ![])
    (bc : (⟨1, ![E]⟩ : Shape).BroadcastsInDim ⟨2, ![E, 1]⟩ ![0]) (src : IVec ⟨1, ![E]⟩ 32) : IVec ⟨2, ![E, 1]⟩ 32 :=
  broadcastInDim ⟨2, ![E, 1]⟩ ![0] bc
    (select (cmpi .slt src (broadcastInDim ⟨1, ![E]⟩ ![] bs (constantI ⟨0, ![]⟩ 32 0#32)))
      (addi src (broadcastInDim ⟨1, ![E]⟩ ![] bs (constantI ⟨0, ![]⟩ 32 n))) src)

/-- The rows the edges land on, as a column. -/
def landCol (bc : (⟨1, ![E]⟩ : Shape).BroadcastsInDim ⟨2, ![E, 1]⟩ ![0]) (dst : IVec ⟨1, ![E]⟩ 32) :
    IVec ⟨2, ![E, 1]⟩ 32 :=
  broadcastInDim ⟨2, ![E, 1]⟩ ![0] bc dst

/-- One over the larger of a row's number of landing edges and one. -/
def rowScales (dS : ScatterDims ⟨1, ![N]⟩ ⟨2, ![E, 1]⟩ ⟨1, ![E]⟩)
    (bE : (⟨0, ![]⟩ : Shape).BroadcastsInDim ⟨1, ![E]⟩ ![]) (bN : (⟨0, ![]⟩ : Shape).BroadcastsInDim ⟨1, ![N]⟩ ![])
    (di : IVec ⟨2, ![E, 1]⟩ 32) : FVec Ideal ⟨1, ![N]⟩ .f32 :=
  Host.divf (broadcastInDim ⟨1, ![N]⟩ ![] bN (constant (F := Ideal) ⟨0, ![]⟩ .f32 0x3F800000#32))
    (maximumf
      (Host.scatterAdd (F := Ideal) dS (broadcastInDim ⟨1, ![N]⟩ ![] bN (constant (F := Ideal) ⟨0, ![]⟩ .f32 0x00000000#32)) di
        (broadcastInDim ⟨1, ![E]⟩ ![] bE (constant (F := Ideal) ⟨0, ![]⟩ .f32 0x3F800000#32)))
      (broadcastInDim ⟨1, ![N]⟩ ![] bN (constant (F := Ideal) ⟨0, ![]⟩ .f32 0x3F800000#32)))

theorem rowScales_allReal (dS : ScatterDims ⟨1, ![N]⟩ ⟨2, ![E, 1]⟩ ⟨1, ![E]⟩)
    (bE : (⟨0, ![]⟩ : Shape).BroadcastsInDim ⟨1, ![E]⟩ ![]) (bN : (⟨0, ![]⟩ : Shape).BroadcastsInDim ⟨1, ![N]⟩ ![])
    (di : IVec ⟨2, ![E, 1]⟩ 32) : AllReal (rowScales dS bE bN di) := fun i =>
  recipMax_isReal _

/-- A vector kept as a one-column array reads back, column 0, as the vector. -/
theorem colVec_shapeCast (dv : (⟨1, ![N]⟩ : Shape).Idx → EReal) (hc : (⟨1, ![N]⟩ : Shape).ShapeCasts ⟨2, ![N, 1]⟩) :
    colVec (shapeCast ⟨2, ![N, 1]⟩ dv hc) = dv := by
  funext i
  unfold colVec
  rw [shapeCast_a_a1_apply dv hc (i 0) 0]
  exact congrArg dv (eq_ix1 i).symm

/-- The kernels' graph step: the rows narrowed to bf16 before the gather and widened after it — both the identity on the
    extended reals — is the same aggregate. -/
theorem graphStepNarrow_eq {K : Nat} (hN : 0 < N)
    (wfG : GatherDims.WF ⟨2, ![N, K]⟩ ⟨2, ![E, 1]⟩ ⟨2, ![E, K]⟩ [1] [0] [] [0] [] 1 ![1, K])
    (dG : GatherDims ⟨2, ![N, K]⟩ ⟨2, ![E, 1]⟩ ⟨2, ![E, K]⟩) (hG : dG = RowGather.rowDims N E K wfG)
    (wfS : ScatterDims.WF ⟨2, ![N, K]⟩ ⟨2, ![E, 1]⟩ ⟨2, ![E, K]⟩ [1] [0] [0] 1)
    (dS : ScatterDims ⟨2, ![N, K]⟩ ⟨2, ![E, 1]⟩ ⟨2, ![E, K]⟩) (hS : dS = RowScatter.rowDims N E K wfS)
    (bz : (⟨0, ![]⟩ : Shape).BroadcastsInDim ⟨2, ![N, K]⟩ ![])
    (gi di : IVec ⟨2, ![E, 1]⟩ 32) (h : FVec Ideal ⟨2, ![N, K]⟩ .f32) (hlt : (FTy.bf16).bits < (FTy.f32).bits) :
    Host.scatterAdd (F := Ideal) dS
        (broadcastInDim ⟨2, ![N, K]⟩ ![] bz (constant (F := Ideal) ⟨0, ![]⟩ .f32 0x00000000#32)) di
        (extf .f32 (Host.gather dG (truncf .bf16 h hlt) gi) hlt)
      = aggr hN gi di h :=
  graphStep_eq hN wfG dG hG wfS dS hS bz gi di h

end Cert.Sage

end
-- ==== Proof.KernelFold.lean ====
/-
  The buffer contents at the boundaries of the idealized kernel's @main, read back to the argument arrays.

  The contents are a fold: a stretch of host operations applied in order, then a kernel's arrays at what its blocks'
  write-backs leave (every other buffer as it was), and so on. Read at the buffers the later segments consume:

    after the first stretch   the two edge rows; the column of row scales; the aggregate of the node rows x
    after the first kernel    h1 = the hidden layer of (aggregate of x, row scales, first weights, x)
    after the second stretch  the aggregate of h1
    after the second kernel   h2 = the hidden layer of (aggregate of h1, row scales, second weights, h1)
    after the projection      p = h2 · Wl2
    after the third stretch   the aggregate of p
    after the last kernel     the last layer of (aggregate of p, row scales, h2, Wr2, b2)

  A stretch is read over an ARBITRARY starting valuation (one simp pass over its operations); a buffer a stretch does not
  write, or that a kernel only reads or does not touch, keeps its contents. The rows narrowed to bf16 for the gather
  and widened after it are the rows themselves on the extended reals.
-/
import proofs.«139287_j36197984370866_2_alg».proof.Proof.KernelRun
import proofs.«139287_j36197984370866_2_alg».proof.Proof.Region0
import proofs.«139287_j36197984370866_2_alg».proof.Proof.Region1
import proofs.«139287_j36197984370866_2_alg».proof.Proof.Region2
import proofs.«139287_j36197984370866_2_alg».proof.Proof.Region3
import proofs.«139287_j36197984370866_2_alg».proof.Proof.GraphInputs
import Idealize.ShloMosaic.Lib.StableHlo.Run

set_option maxRecDepth 16384

noncomputable section

namespace Cert.KernelIdeal.Fold

open Cert.KernelIdeal Cert.KernelIdeal.Gen Cert.KernelIdeal.GenP Cert.Sage Cert.Dense
open Idealize.ShloMosaic Idealize.ShloMosaic.TcCoe Idealize.ShloMosaic.ValueIdx Idealize.SL.Sem
open Idealize.ShloMosaic.StableHlo

theorem hN : 0 < 100000 := by norm_num

/-! ## The graph's inputs, from the edge array, with this program's shape facts -/

/-- The rows the edges read, as a column. -/
def gi (ei : IVec S2x1600000 32) : IVec S1600000x1 32 :=
  readCol 100000#32 bcast_S_S1600000 bcast_S1600000_S1600000x1_0
    (edgeRow 0 ei slices_S2x1600000_S1x1600000_0_0 shapeCasts_S1x1600000_S1600000)
/-- The rows the edges land on, as a column. -/
def di (ei : IVec S2x1600000 32) : IVec S1600000x1 32 :=
  landCol bcast_S1600000_S1600000x1_0 (edgeRow 1 ei slices_S2x1600000_S1x1600000_1_0 shapeCasts_S1x1600000_S1600000)
/-- The row scales, as a vector. -/
def dv (ei : IVec S2x1600000 32) : FVec Ideal S100000 .f32 :=
  rowScales scatter_S100000_S1600000x1_S1600000_n_0_0_1 bcast_S_S1600000 bcast_S_S100000 (di ei)
/-- The row scales, as the one-column array the kernels receive. -/
def dcol (ei : IVec S2x1600000 32) : FVec Ideal S100000x1 .f32 :=
  shapeCast S100000x1 (dv ei) shapeCasts_S100000_S100000x1

/-! ## The stretches: what they write, what they keep -/

/-- The references stretch 0's operations write. -/
abbrev written0 : List (Ref sig .tc) := [main_v0, main_v1, main_v2, main_v3, main_cst, main_v4, main_cst_0, main_v5, main_v6, main_v7, main_cst_1, main_v8, main_v9, main_cst_2, main_v10, main_v11, main_v12, main_v13, main_c, main_v14, main_v15, main_c_3, main_v16, main_v17, main_v18, main_v19, main_v20, main_v21, main_cst_4, main_v22, main_v23, main_v24]
theorem writes0 : (hostOps0 : List (HloOp τ sig (Elt Ideal))).Forall fun op =>
    op.writes ⊆ (written0.map (Proc.devRef (τ := τ) .tc)).toFinset := by
  simp only [hostOps0, List.Forall, StableHlo.nullary_writes, StableHlo.unary_writes, StableHlo.binary_writes,
    StableHlo.ternary_writes, StableHlo.reshape_writes, Finset.singleton_subset_iff, List.mem_toFinset]
  repeat' constructor
  all_goals exact List.mem_map_of_mem (by decide)
/-- A buffer stretch 0 does not write keeps its contents. -/
theorem keep0 (W : Valuation τ sig (Elt Ideal)) (r : Ref sig .tc) (h : r ∉ written0) :
    after (hostOps0 (F := Ideal)) W (Proc.devRef .tc r) = W (Proc.devRef .tc r) :=
  after_of_writes_sub hostOps0 W writes0 h

/-- The references stretch 1's operations write. -/
abbrev written1 : List (Ref sig .tc) := [main_v26, main_c_5, main_v27, main_v28, main_c_6, main_v29, main_v30, main_v31, main_v32, main_v33, main_v34, main_cst_7, main_v35, main_v36, main_v37]
theorem writes1 : (hostOps1 : List (HloOp τ sig (Elt Ideal))).Forall fun op =>
    op.writes ⊆ (written1.map (Proc.devRef (τ := τ) .tc)).toFinset := by
  simp only [hostOps1, List.Forall, StableHlo.nullary_writes, StableHlo.unary_writes, StableHlo.binary_writes,
    StableHlo.ternary_writes, StableHlo.reshape_writes, Finset.singleton_subset_iff, List.mem_toFinset]
  repeat' constructor
  all_goals exact List.mem_map_of_mem (by decide)
/-- A buffer stretch 1 does not write keeps its contents. -/
theorem keep1 (W : Valuation τ sig (Elt Ideal)) (r : Ref sig .tc) (h : r ∉ written1) :
    after (hostOps1 (F := Ideal)) W (Proc.devRef .tc r) = W (Proc.devRef .tc r) :=
  after_of_writes_sub hostOps1 W writes1 h

/-- The references stretch 3's operations write. -/
abbrev written3 : List (Ref sig .tc) := [main_v40, main_c_8, main_v41, main_v42, main_c_9, main_v43, main_v44, main_v45, main_v46, main_v47, main_v48, main_cst_10, main_v49, main_v50, main_v51]
theorem writes3 : (hostOps3 : List (HloOp τ sig (Elt Ideal))).Forall fun op =>
    op.writes ⊆ (written3.map (Proc.devRef (τ := τ) .tc)).toFinset := by
  simp only [hostOps3, List.Forall, StableHlo.nullary_writes, StableHlo.unary_writes, StableHlo.binary_writes,
    StableHlo.ternary_writes, StableHlo.reshape_writes, Finset.singleton_subset_iff, List.mem_toFinset]
  repeat' constructor
  all_goals exact List.mem_map_of_mem (by decide)
/-- A buffer stretch 3 does not write keeps its contents. -/
theorem keep3 (W : Valuation τ sig (Elt Ideal)) (r : Ref sig .tc) (h : r ∉ written3) :
    after (hostOps3 (F := Ideal)) W (Proc.devRef .tc r) = W (Proc.devRef .tc r) :=
  after_of_writes_sub hostOps3 W writes3 h

/-! ## The stretches read over an arbitrary starting valuation -/

set_option maxHeartbeats 4000000 in
theorem s0_v1 (W : Valuation τ sig (Elt Ideal)) :
    after (hostOps0 (F := Ideal)) W (Proc.devRef .tc main_v1)
      = edgeRow 0 (W (Proc.devRef .tc main_arg1)) slices_S2x1600000_S1x1600000_0_0 shapeCasts_S1x1600000_S1600000 := by
  after_results_simp
  rfl

set_option maxHeartbeats 4000000 in
theorem s0_v3 (W : Valuation τ sig (Elt Ideal)) :
    after (hostOps0 (F := Ideal)) W (Proc.devRef .tc main_v3)
      = edgeRow 1 (W (Proc.devRef .tc main_arg1)) slices_S2x1600000_S1x1600000_1_0 shapeCasts_S1x1600000_S1600000 := by
  after_results_simp
  rfl

set_option maxHeartbeats 4000000 in
theorem s0_v12 (W : Valuation τ sig (Elt Ideal)) :
    after (hostOps0 (F := Ideal)) W (Proc.devRef .tc main_v12) = dcol (W (Proc.devRef .tc main_arg1)) := by
  after_results_simp
  rfl

set_option maxHeartbeats 4000000 in
theorem s0_v24 (W : Valuation τ sig (Elt Ideal)) :
    after (hostOps0 (F := Ideal)) W (Proc.devRef .tc main_v24)
      = aggr hN (gi (W (Proc.devRef .tc main_arg1))) (di (W (Proc.devRef .tc main_arg1))) (W (Proc.devRef .tc main_arg0)) := by
  after_results_simp
  exact graphStepNarrow_eq hN gather_S100000x128_S1600000x1_S1600000x128_1_0_n_n_0_1_1128_wf _ rfl
    scatter_S100000x128_S1600000x1_S1600000x128_1_0_0_1_wf _ rfl bcast_S_S100000x128 _ _ _ bitsLt_bf16_f32

set_option maxHeartbeats 4000000 in
theorem s1_v37 (W : Valuation τ sig (Elt Ideal)) :
    after (hostOps1 (F := Ideal)) W (Proc.devRef .tc main_v37)
      = aggr hN (readCol 100000#32 bcast_S_S1600000 bcast_S1600000_S1600000x1_0 (W (Proc.devRef .tc main_v1)))
          (landCol bcast_S1600000_S1600000x1_0 (W (Proc.devRef .tc main_v3))) (W (Proc.devRef .tc main_v25)) := by
  after_results_simp
  exact graphStepNarrow_eq hN gather_S100000x128_S1600000x1_S1600000x128_1_0_n_n_0_1_1128_wf _ rfl
    scatter_S100000x128_S1600000x1_S1600000x128_1_0_0_1_wf _ rfl bcast_S_S100000x128 _ _ _ bitsLt_bf16_f32

set_option maxHeartbeats 4000000 in
theorem s3_v51 (W : Valuation τ sig (Elt Ideal)) :
    after (hostOps3 (F := Ideal)) W (Proc.devRef .tc main_v51)
      = aggr hN (readCol 100000#32 bcast_S_S1600000 bcast_S1600000_S1600000x1_0 (W (Proc.devRef .tc main_v1)))
          (landCol bcast_S1600000_S1600000x1_0 (W (Proc.devRef .tc main_v3))) (W (Proc.devRef .tc main_v39)) := by
  after_results_simp
  exact graphStepNarrow_eq hN gather_S100000x40_S1600000x1_S1600000x40_1_0_n_n_0_1_140_wf _ rfl
    scatter_S100000x40_S1600000x1_S1600000x40_1_0_0_1_wf _ rfl bcast_S_S100000x40 _ _ _ bitsLt_bf16_f32

/-! ## The boundaries, read back to the arguments -/

variable (m : (ℓ : Loc nD τ sig) → Buf (Elt Ideal) ℓ) (ρ : Dev nD → PrngReg) (c : Dev nD)

/-- The first hidden layer's rows. -/
def h1 : FVec Ideal S100000x128 .f32 :=
  hiddenOf (aggr hN (gi (m ((c : Thread nD τ).loc main_arg1))) (di (m ((c : Thread nD τ).loc main_arg1))) (m ((c : Thread nD τ).loc main_arg0))) (dcol (m ((c : Thread nD τ).loc main_arg1)))
    (m ((c : Thread nD τ).loc main_arg2)) (m ((c : Thread nD τ).loc main_arg3)) (m ((c : Thread nD τ).loc main_arg4)) (m ((c : Thread nD τ).loc main_arg0))
/-- The second hidden layer's rows. -/
def h2 : FVec Ideal S100000x128 .f32 :=
  hiddenOf (aggr hN (gi (m ((c : Thread nD τ).loc main_arg1))) (di (m ((c : Thread nD τ).loc main_arg1))) (h1 m c)) (dcol (m ((c : Thread nD τ).loc main_arg1)))
    (m ((c : Thread nD τ).loc main_arg5)) (m ((c : Thread nD τ).loc main_arg6)) (m ((c : Thread nD τ).loc main_arg7)) (h1 m c)
/-- The second hidden layer's rows times the last layer's left weights. -/
def proj : FVec Ideal S100000x40 .f32 := rowsTimes (h2 m c) (m ((c : Thread nD τ).loc main_arg8))

-- after the first stretch
theorem W1_arg0 : W1 m ρ c (Proc.devRef .tc main_arg0) = m ((c : Thread nD τ).loc main_arg0) := keep0 _ main_arg0 (by decide)
theorem W1_arg2 : W1 m ρ c (Proc.devRef .tc main_arg2) = m ((c : Thread nD τ).loc main_arg2) := keep0 _ main_arg2 (by decide)
theorem W1_arg3 : W1 m ρ c (Proc.devRef .tc main_arg3) = m ((c : Thread nD τ).loc main_arg3) := keep0 _ main_arg3 (by decide)
theorem W1_arg4 : W1 m ρ c (Proc.devRef .tc main_arg4) = m ((c : Thread nD τ).loc main_arg4) := keep0 _ main_arg4 (by decide)
theorem W1_arg5 : W1 m ρ c (Proc.devRef .tc main_arg5) = m ((c : Thread nD τ).loc main_arg5) := keep0 _ main_arg5 (by decide)
theorem W1_arg6 : W1 m ρ c (Proc.devRef .tc main_arg6) = m ((c : Thread nD τ).loc main_arg6) := keep0 _ main_arg6 (by decide)
theorem W1_arg7 : W1 m ρ c (Proc.devRef .tc main_arg7) = m ((c : Thread nD τ).loc main_arg7) := keep0 _ main_arg7 (by decide)
theorem W1_arg8 : W1 m ρ c (Proc.devRef .tc main_arg8) = m ((c : Thread nD τ).loc main_arg8) := keep0 _ main_arg8 (by decide)
theorem W1_arg9 : W1 m ρ c (Proc.devRef .tc main_arg9) = m ((c : Thread nD τ).loc main_arg9) := keep0 _ main_arg9 (by decide)
theorem W1_arg10 : W1 m ρ c (Proc.devRef .tc main_arg10) = m ((c : Thread nD τ).loc main_arg10) := keep0 _ main_arg10 (by decide)
theorem W1_arg1 : W1 m ρ c (Proc.devRef .tc main_arg1) = m ((c : Thread nD τ).loc main_arg1) := keep0 _ main_arg1 (by decide)
theorem W1_v1 : W1 m ρ c (Proc.devRef .tc main_v1)
    = edgeRow 0 (m ((c : Thread nD τ).loc main_arg1)) slices_S2x1600000_S1x1600000_0_0 shapeCasts_S1x1600000_S1600000 := s0_v1 _
theorem W1_v3 : W1 m ρ c (Proc.devRef .tc main_v3)
    = edgeRow 1 (m ((c : Thread nD τ).loc main_arg1)) slices_S2x1600000_S1x1600000_1_0 shapeCasts_S1x1600000_S1600000 := s0_v3 _
theorem W1_v12 : W1 m ρ c (Proc.devRef .tc main_v12) = dcol (m ((c : Thread nD τ).loc main_arg1)) := s0_v12 _
theorem W1_v24 : W1 m ρ c (Proc.devRef .tc main_v24) = aggr hN (gi (m ((c : Thread nD τ).loc main_arg1))) (di (m ((c : Thread nD τ).loc main_arg1))) (m ((c : Thread nD τ).loc main_arg0)) := s0_v24 _

-- after the first kernel: its output holds h1; what it only reads or does not touch is kept
theorem W2_v25 : W2 m ρ c (Proc.devRef .tc main_v25) = h1 m c := by
  refine (W2_arr m ρ c 6).trans ((Region0.final (V1 m ρ) c).trans ?_)
  show hiddenOf (W1 m ρ c (Proc.devRef .tc main_v24)) (W1 m ρ c (Proc.devRef .tc main_v12))
      (W1 m ρ c (Proc.devRef .tc main_arg2)) (W1 m ρ c (Proc.devRef .tc main_arg3))
      (W1 m ρ c (Proc.devRef .tc main_arg4)) (W1 m ρ c (Proc.devRef .tc main_arg0)) = _
  rw [W1_v24, W1_v12, W1_arg2, W1_arg3, W1_arg4, W1_arg0]
  rfl
theorem W2_v12 : W2 m ρ c (Proc.devRef .tc main_v12) = dcol (m ((c : Thread nD τ).loc main_arg1)) :=
  ((W2_arr m ρ c 2).trans (((dat0 (V1 m ρ) c).arrAt_in 2 rfl _).trans (A_eq0 (V1 m ρ) c 2))).trans (W1_v12 m ρ c)
theorem W2_v1 : W2 m ρ c (Proc.devRef .tc main_v1)
    = edgeRow 0 (m ((c : Thread nD τ).loc main_arg1)) slices_S2x1600000_S1x1600000_0_0 shapeCasts_S1x1600000_S1600000 :=
  (W2_of_ne m ρ c main_v1 (by decide)).trans (W1_v1 m ρ c)
theorem W2_v3 : W2 m ρ c (Proc.devRef .tc main_v3)
    = edgeRow 1 (m ((c : Thread nD τ).loc main_arg1)) slices_S2x1600000_S1x1600000_1_0 shapeCasts_S1x1600000_S1600000 :=
  (W2_of_ne m ρ c main_v3 (by decide)).trans (W1_v3 m ρ c)
theorem W2_arg5 : W2 m ρ c (Proc.devRef .tc main_arg5) = m ((c : Thread nD τ).loc main_arg5) :=
  (W2_of_ne m ρ c main_arg5 (by decide)).trans (W1_arg5 m ρ c)
theorem W2_arg6 : W2 m ρ c (Proc.devRef .tc main_arg6) = m ((c : Thread nD τ).loc main_arg6) :=
  (W2_of_ne m ρ c main_arg6 (by decide)).trans (W1_arg6 m ρ c)
theorem W2_arg7 : W2 m ρ c (Proc.devRef .tc main_arg7) = m ((c : Thread nD τ).loc main_arg7) :=
  (W2_of_ne m ρ c main_arg7 (by decide)).trans (W1_arg7 m ρ c)
theorem W2_arg8 : W2 m ρ c (Proc.devRef .tc main_arg8) = m ((c : Thread nD τ).loc main_arg8) :=
  (W2_of_ne m ρ c main_arg8 (by decide)).trans (W1_arg8 m ρ c)
theorem W2_arg9 : W2 m ρ c (Proc.devRef .tc main_arg9) = m ((c : Thread nD τ).loc main_arg9) :=
  (W2_of_ne m ρ c main_arg9 (by decide)).trans (W1_arg9 m ρ c)
theorem W2_arg10 : W2 m ρ c (Proc.devRef .tc main_arg10) = m ((c : Thread nD τ).loc main_arg10) :=
  (W2_of_ne m ρ c main_arg10 (by decide)).trans (W1_arg10 m ρ c)

-- after the second stretch
theorem W3_v37 : W3 m ρ c (Proc.devRef .tc main_v37) = aggr hN (gi (m ((c : Thread nD τ).loc main_arg1))) (di (m ((c : Thread nD τ).loc main_arg1))) (h1 m c) := by
  refine (s1_v37 (W2 m ρ c)).trans ?_
  rw [W2_v1, W2_v3, W2_v25]
  rfl
theorem W3_v25 : W3 m ρ c (Proc.devRef .tc main_v25) = h1 m c := (keep1 _ main_v25 (by decide)).trans (W2_v25 m ρ c)
theorem W3_v12 : W3 m ρ c (Proc.devRef .tc main_v12) = dcol (m ((c : Thread nD τ).loc main_arg1)) := (keep1 _ main_v12 (by decide)).trans (W2_v12 m ρ c)
theorem W3_v1 : W3 m ρ c (Proc.devRef .tc main_v1)
    = edgeRow 0 (m ((c : Thread nD τ).loc main_arg1)) slices_S2x1600000_S1x1600000_0_0 shapeCasts_S1x1600000_S1600000 :=
  (keep1 _ main_v1 (by decide)).trans (W2_v1 m ρ c)
theorem W3_v3 : W3 m ρ c (Proc.devRef .tc main_v3)
    = edgeRow 1 (m ((c : Thread nD τ).loc main_arg1)) slices_S2x1600000_S1x1600000_1_0 shapeCasts_S1x1600000_S1600000 :=
  (keep1 _ main_v3 (by decide)).trans (W2_v3 m ρ c)
theorem W3_arg5 : W3 m ρ c (Proc.devRef .tc main_arg5) = m ((c : Thread nD τ).loc main_arg5) :=
  (keep1 _ main_arg5 (by decide)).trans (W2_arg5 m ρ c)
theorem W3_arg6 : W3 m ρ c (Proc.devRef .tc main_arg6) = m ((c : Thread nD τ).loc main_arg6) :=
  (keep1 _ main_arg6 (by decide)).trans (W2_arg6 m ρ c)
theorem W3_arg7 : W3 m ρ c (Proc.devRef .tc main_arg7) = m ((c : Thread nD τ).loc main_arg7) :=
  (keep1 _ main_arg7 (by decide)).trans (W2_arg7 m ρ c)
theorem W3_arg8 : W3 m ρ c (Proc.devRef .tc main_arg8) = m ((c : Thread nD τ).loc main_arg8) :=
  (keep1 _ main_arg8 (by decide)).trans (W2_arg8 m ρ c)
theorem W3_arg9 : W3 m ρ c (Proc.devRef .tc main_arg9) = m ((c : Thread nD τ).loc main_arg9) :=
  (keep1 _ main_arg9 (by decide)).trans (W2_arg9 m ρ c)
theorem W3_arg10 : W3 m ρ c (Proc.devRef .tc main_arg10) = m ((c : Thread nD τ).loc main_arg10) :=
  (keep1 _ main_arg10 (by decide)).trans (W2_arg10 m ρ c)

-- after the second kernel: its output holds h2
theorem W4_v38 : W4 m ρ c (Proc.devRef .tc main_v38) = h2 m c := by
  refine (W4_arr m ρ c 6).trans ((Region1.final (V3 m ρ) c).trans ?_)
  show hiddenOf (W3 m ρ c (Proc.devRef .tc main_v37)) (W3 m ρ c (Proc.devRef .tc main_v12))
      (W3 m ρ c (Proc.devRef .tc main_arg5)) (W3 m ρ c (Proc.devRef .tc main_arg6))
      (W3 m ρ c (Proc.devRef .tc main_arg7)) (W3 m ρ c (Proc.devRef .tc main_v25)) = _
  rw [W3_v37, W3_v12, W3_arg5, W3_arg6, W3_arg7, W3_v25]
  rfl
theorem W4_v12 : W4 m ρ c (Proc.devRef .tc main_v12) = dcol (m ((c : Thread nD τ).loc main_arg1)) :=
  ((W4_arr m ρ c 2).trans (((dat1 (V3 m ρ) c).arrAt_in 2 rfl _).trans (A_eq1 (V3 m ρ) c 2))).trans (W3_v12 m ρ c)
theorem W4_v1 : W4 m ρ c (Proc.devRef .tc main_v1)
    = edgeRow 0 (m ((c : Thread nD τ).loc main_arg1)) slices_S2x1600000_S1x1600000_0_0 shapeCasts_S1x1600000_S1600000 :=
  (W4_of_ne m ρ c main_v1 (by decide)).trans (W3_v1 m ρ c)
theorem W4_v3 : W4 m ρ c (Proc.devRef .tc main_v3)
    = edgeRow 1 (m ((c : Thread nD τ).loc main_arg1)) slices_S2x1600000_S1x1600000_1_0 shapeCasts_S1x1600000_S1600000 :=
  (W4_of_ne m ρ c main_v3 (by decide)).trans (W3_v3 m ρ c)
theorem W4_arg8 : W4 m ρ c (Proc.devRef .tc main_arg8) = m ((c : Thread nD τ).loc main_arg8) :=
  (W4_of_ne m ρ c main_arg8 (by decide)).trans (W3_arg8 m ρ c)
theorem W4_arg9 : W4 m ρ c (Proc.devRef .tc main_arg9) = m ((c : Thread nD τ).loc main_arg9) :=
  (W4_of_ne m ρ c main_arg9 (by decide)).trans (W3_arg9 m ρ c)
theorem W4_arg10 : W4 m ρ c (Proc.devRef .tc main_arg10) = m ((c : Thread nD τ).loc main_arg10) :=
  (W4_of_ne m ρ c main_arg10 (by decide)).trans (W3_arg10 m ρ c)

-- after the projection kernel: its output holds h2 · Wl2
theorem W5_v39 : W5 m ρ c (Proc.devRef .tc main_v39) = proj m c := by
  refine (W5_arr m ρ c 2).trans ((Region2.final (V4 m ρ) c).trans ?_)
  show rowsTimes (W4 m ρ c (Proc.devRef .tc main_v38)) (W4 m ρ c (Proc.devRef .tc main_arg8)) = _
  rw [W4_v38, W4_arg8]
  rfl
theorem W5_v38 : W5 m ρ c (Proc.devRef .tc main_v38) = h2 m c :=
  ((W5_arr m ρ c 0).trans (((dat2 (V4 m ρ) c).arrAt_in 0 rfl _).trans (A_eq2 (V4 m ρ) c 0))).trans (W4_v38 m ρ c)
theorem W5_v12 : W5 m ρ c (Proc.devRef .tc main_v12) = dcol (m ((c : Thread nD τ).loc main_arg1)) :=
  (W5_of_ne m ρ c main_v12 (by decide)).trans (W4_v12 m ρ c)
theorem W5_v1 : W5 m ρ c (Proc.devRef .tc main_v1)
    = edgeRow 0 (m ((c : Thread nD τ).loc main_arg1)) slices_S2x1600000_S1x1600000_0_0 shapeCasts_S1x1600000_S1600000 :=
  (W5_of_ne m ρ c main_v1 (by decide)).trans (W4_v1 m ρ c)
theorem W5_v3 : W5 m ρ c (Proc.devRef .tc main_v3)
    = edgeRow 1 (m ((c : Thread nD τ).loc main_arg1)) slices_S2x1600000_S1x1600000_1_0 shapeCasts_S1x1600000_S1600000 :=
  (W5_of_ne m ρ c main_v3 (by decide)).trans (W4_v3 m ρ c)
theorem W5_arg9 : W5 m ρ c (Proc.devRef .tc main_arg9) = m ((c : Thread nD τ).loc main_arg9) :=
  (W5_of_ne m ρ c main_arg9 (by decide)).trans (W4_arg9 m ρ c)
theorem W5_arg10 : W5 m ρ c (Proc.devRef .tc main_arg10) = m ((c : Thread nD τ).loc main_arg10) :=
  (W5_of_ne m ρ c main_arg10 (by decide)).trans (W4_arg10 m ρ c)

-- after the third stretch
theorem W6_v51 : W6 m ρ c (Proc.devRef .tc main_v51) = aggr hN (gi (m ((c : Thread nD τ).loc main_arg1))) (di (m ((c : Thread nD τ).loc main_arg1))) (proj m c) := by
  refine (s3_v51 (W5 m ρ c)).trans ?_
  rw [W5_v1, W5_v3, W5_v39]
  rfl
theorem W6_v38 : W6 m ρ c (Proc.devRef .tc main_v38) = h2 m c := (keep3 _ main_v38 (by decide)).trans (W5_v38 m ρ c)
theorem W6_v12 : W6 m ρ c (Proc.devRef .tc main_v12) = dcol (m ((c : Thread nD τ).loc main_arg1)) := (keep3 _ main_v12 (by decide)).trans (W5_v12 m ρ c)
theorem W6_arg9 : W6 m ρ c (Proc.devRef .tc main_arg9) = m ((c : Thread nD τ).loc main_arg9) :=
  (keep3 _ main_arg9 (by decide)).trans (W5_arg9 m ρ c)
theorem W6_arg10 : W6 m ρ c (Proc.devRef .tc main_arg10) = m ((c : Thread nD τ).loc main_arg10) :=
  (keep3 _ main_arg10 (by decide)).trans (W5_arg10 m ρ c)

/-- THE RESULT BUFFER at the last boundary: the last layer of the aggregate of the projected rows, the row scales, the
    second hidden layer's rows, the right weights and the bias. -/
theorem W7_v52 : W7 m ρ c (Proc.devRef .tc main_v52)
    = lastOf (aggr hN (gi (m ((c : Thread nD τ).loc main_arg1))) (di (m ((c : Thread nD τ).loc main_arg1))) (proj m c)) (dcol (m ((c : Thread nD τ).loc main_arg1))) (h2 m c) (m ((c : Thread nD τ).loc main_arg9)) (m ((c : Thread nD τ).loc main_arg10)) := by
  refine (RunValue.result_eq m ρ c).trans ((Region3.final (V6 m ρ) c).trans ?_)
  show lastOf (W6 m ρ c (Proc.devRef .tc main_v51)) (W6 m ρ c (Proc.devRef .tc main_v12))
      (W6 m ρ c (Proc.devRef .tc main_v38)) (W6 m ρ c (Proc.devRef .tc main_arg9))
      (W6 m ρ c (Proc.devRef .tc main_arg10)) = _
  rw [W6_v51, W6_v12, W6_v38, W6_arg9, W6_arg10]

end Cert.KernelIdeal.Fold

end
-- ==== Proof.Finite.lean ====
/-
  The precondition "every float input is finite", read back.

  The printed predicate is a conjunction, over the ten float arguments, of "every entry has absolute value below +inf",
  nested to the left in the arguments' order (the array of edges is an integer array and takes no part). Taken apart from
  the outside in, each conjunct says that every entry of its argument is a real number. The eight arguments whose
  entries meet a product that has to distribute over a sum are kept: the node rows, the first and second layers'
  weights and biases, and the last layer's left weights.
-/
import proofs.«139287_j36197984370866_2_alg».proof.Pre_finite_inputs
import proofs.«139287_j36197984370866_2_alg».proof.Proof.Algebra
import proofs.«139287_j36197984370866_2_alg».proof.Proof.LibRealValued

noncomputable section

namespace Cert.Sage

open Idealize.ShloMosaic Idealize.ShloMosaic.ValueIdx Cert.Pre_finite_inputs
open Cert.RealValued (IsReal all_isReal)

theorem reals_of_finite_inputs [Cert.Pre_finite_inputs.Facts]
    (a0 : FVec Ideal S100000x128 .f32) (a1 : IVec S2x1600000 32)
    (a2 a3 : FVec Ideal S128x128 .f32) (a4 : FVec Ideal S128 .f32)
    (a5 a6 : FVec Ideal S128x128 .f32) (a7 : FVec Ideal S128 .f32)
    (a8 a9 : FVec Ideal S128x40 .f32) (a10 : FVec Ideal S40 .f32)
    (h : Cert.Pre_finite_inputs.fn (F := Ideal) a0 a1 a2 a3 a4 a5 a6 a7 a8 a9 a10 = fun _ => 1#1) :
    AllReal a0 ∧ AllReal a2 ∧ AllReal a3 ∧ AllReal a4 ∧ AllReal a5 ∧ AllReal a6 ∧ AllReal a7 ∧ AllReal a8 := by
  have h48 := congrFun h ix0
  dsimp only [Cert.Pre_finite_inputs.fn, Cert.Pre_finite_inputs.fn_part1, Cert.Pre_finite_inputs.fn_part2] at h48
  obtain ⟨h43, -⟩ := IntOp.andi_eq_one.1 h48
  obtain ⟨h38, -⟩ := IntOp.andi_eq_one.1 h43
  obtain ⟨h33, e8⟩ := IntOp.andi_eq_one.1 h38
  obtain ⟨h28, e7⟩ := IntOp.andi_eq_one.1 h33
  obtain ⟨h23, e6⟩ := IntOp.andi_eq_one.1 h28
  obtain ⟨h18, e5⟩ := IntOp.andi_eq_one.1 h23
  obtain ⟨h13, e4⟩ := IntOp.andi_eq_one.1 h18
  obtain ⟨h8, e3⟩ := IntOp.andi_eq_one.1 h13
  obtain ⟨e0, e2⟩ := IntOp.andi_eq_one.1 h8
  exact ⟨all_isReal a0 _ _ _ _ e0, all_isReal a2 _ _ _ _ e2, all_isReal a3 _ _ _ _ e3, all_isReal a4 _ _ _ _ e4,
    all_isReal a5 _ _ _ _ e5, all_isReal a6 _ _ _ _ e6, all_isReal a7 _ _ _ _ e7, all_isReal a8 _ _ _ _ e8⟩

end Cert.Sage

end
-- ==== Proof.Bridge.lean ====
/-
  The idealized kernel and the idealized reference compute one function of the argument arrays.

  The kernel's result buffer ends as the last layer of (the aggregate of h2 · Wl2, the row scales, h2, Wr2, b2), h2 the
  second hidden layer's rows (KernelFold.lean): the network of Spec.lean with the last layer's left product taken BEFORE the
  aggregation. The reference's ends as the network itself (RefFold.lean). The two agree when the product may be moved
  across the aggregation — when the entries involved are real numbers (Algebra.lean): the row scales always are; the node
  rows, the first two layers' weights and biases and the last layer's left weights are by the precondition, and then so
  are both hidden layers' rows.
-/
import proofs.«139287_j36197984370866_2_alg».proof.Defs
import proofs.«139287_j36197984370866_2_alg».proof.Proof.KernelFold
import proofs.«139287_j36197984370866_2_alg».proof.Proof.Finite

set_option maxRecDepth 16384

noncomputable section

namespace Cert.Proof.Bridge

open Cert.Sage Cert.Dense
open Idealize.ShloMosaic Idealize.ShloMosaic.TcCoe Idealize.ShloMosaic.ValueIdx Idealize.SL.Sem
open Cert.KernelIdeal.Fold (hN gi di dv dcol h1 h2 proj)

variable [hPre : Cert.Pre_finite_inputs.Facts]

/-- The function both programs compute, of the idealized kernel's launch memory. -/
def G (m : (ℓ : Loc Cert.KernelIdeal.nD Cert.KernelIdeal.τ Cert.KernelIdeal.sig) → Buf (Elt Ideal) ℓ)
    (c : Dev Cert.KernelIdeal.nD) : FVec Ideal Cert.KernelIdeal.S100000x40 .f32 :=
  network hN (gi (m ((c.tc : Thread Cert.KernelIdeal.nD Cert.KernelIdeal.τ).loc Cert.KernelIdeal.main_arg1))) (di (m ((c.tc : Thread Cert.KernelIdeal.nD Cert.KernelIdeal.τ).loc Cert.KernelIdeal.main_arg1))) (dv (m ((c.tc : Thread Cert.KernelIdeal.nD Cert.KernelIdeal.τ).loc Cert.KernelIdeal.main_arg1)))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))

/-- The kernel's result at the last boundary is `G`, for a launch memory whose float inputs are finite. -/
theorem kernel_value (m : (ℓ : Loc Cert.KernelIdeal.nD Cert.KernelIdeal.τ Cert.KernelIdeal.sig) → Buf (Elt Ideal) ℓ)
    (ρ : Dev Cert.KernelIdeal.nD → PrngReg) (c : Dev Cert.KernelIdeal.nD)
    (hfin : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) = fun _ => 1#1) :
    Cert.KernelIdeal.GenP.W7 m ρ c (Proc.devRef .tc Cert.KernelIdeal.main_v52) = G m c := by
  obtain ⟨r0, r2, r3, r4, r5, r6, r7, r8⟩ := reals_of_finite_inputs _ _ _ _ _ _ _ _ _ _ _ hfin
  rw [Cert.KernelIdeal.Fold.W7_v52 m ρ c]
  -- the kernel's value is the network with the last left product taken first, at the row scales read off their column
  have hcol : colVec (dcol (m ((c.tc : Thread Cert.KernelIdeal.nD Cert.KernelIdeal.τ).loc Cert.KernelIdeal.main_arg1))) = dv (m ((c.tc : Thread Cert.KernelIdeal.nD Cert.KernelIdeal.τ).loc Cert.KernelIdeal.main_arg1)) := colVec_shapeCast _ _
  have hd : AllReal (dv (m ((c.tc : Thread Cert.KernelIdeal.nD Cert.KernelIdeal.τ).loc Cert.KernelIdeal.main_arg1))) := rowScales_allReal _ _ _ _
  have hk : lastOf (aggr hN (gi (m ((c.tc : Thread Cert.KernelIdeal.nD Cert.KernelIdeal.τ).loc Cert.KernelIdeal.main_arg1))) (di (m ((c.tc : Thread Cert.KernelIdeal.nD Cert.KernelIdeal.τ).loc Cert.KernelIdeal.main_arg1))) (proj m c)) (dcol (m ((c.tc : Thread Cert.KernelIdeal.nD Cert.KernelIdeal.τ).loc Cert.KernelIdeal.main_arg1))) (h2 m c)
        (m ((c.tc : Thread Cert.KernelIdeal.nD Cert.KernelIdeal.τ).loc Cert.KernelIdeal.main_arg9)) (m ((c.tc : Thread Cert.KernelIdeal.nD Cert.KernelIdeal.τ).loc Cert.KernelIdeal.main_arg10))
      = networkProjected hN (gi (m ((c.tc : Thread Cert.KernelIdeal.nD Cert.KernelIdeal.τ).loc Cert.KernelIdeal.main_arg1))) (di (m ((c.tc : Thread Cert.KernelIdeal.nD Cert.KernelIdeal.τ).loc Cert.KernelIdeal.main_arg1))) (colVec (dcol (m ((c.tc : Thread Cert.KernelIdeal.nD Cert.KernelIdeal.τ).loc Cert.KernelIdeal.main_arg1))))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) := rfl
  rw [hk, hcol]
  unfold G network networkProjected
  refine congrArg logSoftmaxRows ?_
  refine logitsProjected_eq_logits hN _ _ _ _ _ _ _ hd r8 ?_
  exact hidden_allReal hN _ _ _ _ _ _ _ hd r5 r6 r7 (hidden_allReal hN _ _ _ _ _ _ _ hd r2 r3 r4 r0)

end Cert.Proof.Bridge

end
-- ==== Proof.LibHostStretches.lean ====
/-
  A straight line of host operations read in stretches, and a value carried through an outlined call.

  * `after_append`, `after_split`: what a line of host operations leaves (the fold `StableHlo.after` of the operations
    over the contents it starts from) is what its last part leaves from what its first part leaves. So a long line is
    read a stretch at a time, each stretch over an ARBITRARY starting valuation: the terms stay small, and values
    several later operations consume are named once (at the stretch's start) instead of being copied into every use.
  * `ofBuf_toBuf`: the operations of an outlined function (`func.call`) read and write their operands through typed
    references, a transport along the buffer's type equation each way. A value written that way and read back at
    its own type is the value. Rewriting with it first leaves a line with outlined calls comparable, by reading,
    with the same operations written without the calls.

  General in the topology, the reference signature and the element values.
-/
import Idealize.ShloMosaic.Lib.StableHlo.Run

namespace Cert.HostLine

open Idealize.ShloMosaic Idealize.ShloMosaic.StableHlo

variable {τ : Topo} {sig : RefSig} {Val : EltTy → Type}

/-- Two stretches run one after the other are their concatenation run as one. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A line of operations run as its first `n` and then the rest. -/
theorem after_split (n : Nat) (l : List (HloOp τ sig Val)) (V : Valuation τ sig Val) :
    after l V = after (l.drop n) (after (l.take n) V) := by
  rw [← after_append, List.take_append_drop]

/-- A value written to a typed reference's buffer and read back at the value's type is the value. -/
theorem ofBuf_toBuf {T : BufTy} (x : TRef sig T) (v : T.Contents Val) : x.ofBuf (x.toBuf v) = v := by
  obtain ⟨r, te, od, us⟩ := x
  subst te
  rfl

end Cert.HostLine
-- ==== Proof.LibRefTransport.lean ====
/-
  Reading or writing a buffer through a typed reference whose value type is the buffer's own type is the identity.

  The operations of an outlined function (`func.call`) reach their operands through typed references, a transport along the
  equation "the buffer's type is the value's type". Where a value passes between such an operation and a plain one, one
  transport is left over after the written-then-read pairs cancel. For a literal buffer the two types are the same type, so
  that transport is the identity: `ofBuf_self`, `toBuf_self`. General in the reference signature and the element values.
-/
import Idealize.ShloMosaic.Lib.StableHlo.Run

namespace Cert.HostLine

open Idealize.ShloMosaic Idealize.ShloMosaic.StableHlo

variable {sig : RefSig} {Val : EltTy → Type}

/-- Reading a buffer's contents through a typed reference of the buffer's own type is the identity. -/
theorem ofBuf_self (r : Ref sig .tc) (h1 : r.ty = r.ty) (h2 : r.space ≠ .host) (h3 : r.isScoped = false)
    (v : r.ty.Contents Val) : (TRef.of (T := r.ty) r h1 h2 h3).ofBuf v = v := rfl

/-- Writing a value into a buffer through a typed reference of the buffer's own type is the identity. -/
theorem toBuf_self (r : Ref sig .tc) (h1 : r.ty = r.ty) (h2 : r.space ≠ .host) (h3 : r.isScoped = false)
    (v : r.ty.Contents Val) : (TRef.of (T := r.ty) r h1 h2 h3).toBuf v = v := rfl

end Cert.HostLine
-- ==== Proof.RefFold.lean ====
/-
  The reference's result, read back to the argument arrays.

  The reference's @main is a straight line of 101 host operations (those of the functions it calls standing in the calls'
  places); every weakly fair execution ends with each buffer at the fold of the operations over the launch contents. The
  line is read in five stretches, each over an ARBITRARY starting valuation, so that a value several later operations
  consume is named once where it is made:

    1  the two edge rows; the row scales (one over the larger of a row's number of landing edges and one), as a column
    2  the first hidden layer:  aggregate the node rows, scale, multiply, add the bias and the rows' own product, rectify
    3  the second hidden layer: the same of the first layer's rows
    4  the last layer: the same of the second layer's rows, not rectified
    5  the row normalisation: every row shifted by its maximum, minus the logarithm of its sum of shifted exponentials

  A value written through a called function's typed reference and read back is the value; a buffer a stretch does not
  write keeps its contents. Stretch by stretch the reference is `network` of Spec.lean.
-/
import proofs.«139287_j36197984370866_2_alg».proof.Proof.GenP.ReferenceIdeal.Run
import proofs.«139287_j36197984370866_2_alg».proof.Proof.LibHostStretches
import proofs.«139287_j36197984370866_2_alg».proof.Proof.LibRefTransport
import proofs.«139287_j36197984370866_2_alg».proof.Proof.GraphInputs
import Idealize.ShloMosaic.Lib.StableHlo.Run

set_option maxRecDepth 16384

noncomputable section

namespace Cert.ReferenceIdeal.Fold

open Cert.ReferenceIdeal Cert.ReferenceIdeal.Gen Cert.ReferenceIdeal.ValueP Cert.Sage Cert.Dense Cert.HostLine
open Idealize.ShloMosaic Idealize.ShloMosaic.TcCoe Idealize.ShloMosaic.ValueIdx Idealize.SL.Sem
open Idealize.ShloMosaic.StableHlo

theorem hN : 0 < 100000 := by norm_num

/-! ## The graph's inputs, from the edge array, with this program's shape facts -/

/-- The rows the edges read, as a column. -/
def gi (ei : IVec S2x1600000 32) : IVec S1600000x1 32 :=
  readCol 100000#32 bcast_S_S1600000 bcast_S1600000_S1600000x1_0
    (edgeRow 0 ei slices_S2x1600000_S1x1600000_0_0 shapeCasts_S1x1600000_S1600000)
/-- The rows the edges land on, as a column. -/
def di (ei : IVec S2x1600000 32) : IVec S1600000x1 32 :=
  landCol bcast_S1600000_S1600000x1_0 (edgeRow 1 ei slices_S2x1600000_S1x1600000_1_0 shapeCasts_S1x1600000_S1600000)
/-- The row scales, as a vector. -/
def dv (ei : IVec S2x1600000 32) : FVec Ideal S100000 .f32 :=
  rowScales scatter_S100000_S1600000x1_S1600000_n_0_0_1 bcast_S_S1600000 bcast_S_S100000 (di ei)

/-! ## The five stretches -/

abbrev opsA : List (HloOp τ sig (Elt Ideal)) := (ops (F := Ideal)).take 17
abbrev opsB : List (HloOp τ sig (Elt Ideal)) := ((ops (F := Ideal)).drop 17).take 24
abbrev opsC : List (HloOp τ sig (Elt Ideal)) := ((ops (F := Ideal)).drop 41).take 24
abbrev opsD : List (HloOp τ sig (Elt Ideal)) := ((ops (F := Ideal)).drop 65).take 21
abbrev opsE : List (HloOp τ sig (Elt Ideal)) := (ops (F := Ideal)).drop 86

/-- The line is its five stretches in order. -/
theorem after_stretches (W : Valuation τ sig (Elt Ideal)) :
    after (ops (F := Ideal)) W = after opsE (after opsD (after opsC (after opsB (after opsA W)))) := by
  rw [← StableHlo.after_append, ← StableHlo.after_append, ← StableHlo.after_append, ← StableHlo.after_append]
  rfl

/-- The references stretch A's operations write. -/
abbrev writtenA : List (Ref sig .tc) := [main_v0, main_v1, main_v2, main_v3, main_cst, main_v4, main_cst_0, main_v5, main_v6, main_v7, main_cst_1, main_v8, main_v9, main_cst_2, main_v10, main_v11, main_v12]
theorem writesA : (opsA : List (HloOp τ sig (Elt Ideal))).Forall fun op =>
    op.writes ⊆ (writtenA.map (Proc.devRef (τ := τ) .tc)).toFinset := by
  unfold opsA
  simp only [ops, List.drop_succ_cons, List.drop_zero, List.take_succ_cons, List.take_zero]
  simp only [List.Forall, StableHlo.nullary_writes, StableHlo.unary_writes, StableHlo.binary_writes,
    StableHlo.ternary_writes, StableHlo.reshape_writes, Finset.singleton_subset_iff, List.mem_toFinset]
  repeat' constructor
  all_goals exact List.mem_map_of_mem (by decide)
/-- A buffer stretch A does not write keeps its contents. -/
theorem keepA (W : Valuation τ sig (Elt Ideal)) (r : Ref sig .tc) (h : r ∉ writtenA) :
    after opsA W (Proc.devRef .tc r) = W (Proc.devRef .tc r) :=
  after_of_writes_sub opsA W writesA h

/-- The references stretch B's operations write. -/
abbrev writtenB : List (Ref sig .tc) := [main_c, main_v13, main_v14, main_c_3, main_v15, main_v16, main_v17, main_v18, main_v19, main_cst_4, main_v20, main_v21, main_v22, main_v23, main_v24, main_v25, main_v26, main_v27, main_v28, main_v29, main_v30, main_call0_cst, main_call0_v0, main_v31]
theorem writesB : (opsB : List (HloOp τ sig (Elt Ideal))).Forall fun op =>
    op.writes ⊆ (writtenB.map (Proc.devRef (τ := τ) .tc)).toFinset := by
  unfold opsB
  simp only [ops, List.drop_succ_cons, List.drop_zero, List.take_succ_cons, List.take_zero]
  simp only [List.Forall, StableHlo.nullary_writes, StableHlo.unary_writes, StableHlo.binary_writes,
    StableHlo.ternary_writes, StableHlo.reshape_writes, Finset.singleton_subset_iff, List.mem_toFinset]
  repeat' constructor
  all_goals exact List.mem_map_of_mem (by decide)
/-- A buffer stretch B does not write keeps its contents. -/
theorem keepB (W : Valuation τ sig (Elt Ideal)) (r : Ref sig .tc) (h : r ∉ writtenB) :
    after opsB W (Proc.devRef .tc r) = W (Proc.devRef .tc r) :=
  after_of_writes_sub opsB W writesB h

/-- The references stretch C's operations write. -/
abbrev writtenC : List (Ref sig .tc) := [main_c_5, main_v32, main_v33, main_c_6, main_v34, main_v35, main_v36, main_v37, main_v38, main_cst_7, main_v39, main_v40, main_v41, main_v42, main_v43, main_v44, main_v45, main_v46, main_v47, main_v48, main_v49, main_call1_cst, main_call1_v0, main_v50]
theorem writesC : (opsC : List (HloOp τ sig (Elt Ideal))).Forall fun op =>
    op.writes ⊆ (writtenC.map (Proc.devRef (τ := τ) .tc)).toFinset := by
  unfold opsC
  simp only [ops, List.drop_succ_cons, List.drop_zero, List.take_succ_cons, List.take_zero]
  simp only [List.Forall, StableHlo.nullary_writes, StableHlo.unary_writes, StableHlo.binary_writes,
    StableHlo.ternary_writes, StableHlo.reshape_writes, Finset.singleton_subset_iff, List.mem_toFinset]
  repeat' constructor
  all_goals exact List.mem_map_of_mem (by decide)
/-- A buffer stretch C does not write keeps its contents. -/
theorem keepC (W : Valuation τ sig (Elt Ideal)) (r : Ref sig .tc) (h : r ∉ writtenC) :
    after opsC W (Proc.devRef .tc r) = W (Proc.devRef .tc r) :=
  after_of_writes_sub opsC W writesC h

/-- The references stretch D's operations write. -/
abbrev writtenD : List (Ref sig .tc) := [main_c_8, main_v51, main_v52, main_c_9, main_v53, main_v54, main_v55, main_v56, main_v57, main_cst_10, main_v58, main_v59, main_v60, main_v61, main_v62, main_v63, main_v64, main_v65, main_v66, main_v67, main_v68]
theorem writesD : (opsD : List (HloOp τ sig (Elt Ideal))).Forall fun op =>
    op.writes ⊆ (writtenD.map (Proc.devRef (τ := τ) .tc)).toFinset := by
  unfold opsD
  simp only [ops, List.drop_succ_cons, List.drop_zero, List.take_succ_cons, List.take_zero]
  simp only [List.Forall, StableHlo.nullary_writes, StableHlo.unary_writes, StableHlo.binary_writes,
    StableHlo.ternary_writes, StableHlo.reshape_writes, Finset.singleton_subset_iff, List.mem_toFinset]
  repeat' constructor
  all_goals exact List.mem_map_of_mem (by decide)
/-- A buffer stretch D does not write keeps its contents. -/
theorem keepD (W : Valuation τ sig (Elt Ideal)) (r : Ref sig .tc) (h : r ∉ writtenD) :
    after opsD W (Proc.devRef .tc r) = W (Proc.devRef .tc r) :=
  after_of_writes_sub opsD W writesD h

/-! ## Each stretch read over an arbitrary starting valuation -/

set_option maxHeartbeats 4000000 in
theorem sA_v1 (W : Valuation τ sig (Elt Ideal)) :
    after opsA W (Proc.devRef .tc main_v1)
      = edgeRow 0 (W (Proc.devRef .tc main_arg1)) slices_S2x1600000_S1x1600000_0_0 shapeCasts_S1x1600000_S1600000 := by
  unfold opsA
  simp only [ops, List.drop_succ_cons, List.drop_zero, List.take_succ_cons, List.take_zero]
  after_results_simp
  rfl

set_option maxHeartbeats 4000000 in
theorem sA_v3 (W : Valuation τ sig (Elt Ideal)) :
    after opsA W (Proc.devRef .tc main_v3)
      = edgeRow 1 (W (Proc.devRef .tc main_arg1)) slices_S2x1600000_S1x1600000_1_0 shapeCasts_S1x1600000_S1600000 := by
  unfold opsA
  simp only [ops, List.drop_succ_cons, List.drop_zero, List.take_succ_cons, List.take_zero]
  after_results_simp
  rfl

set_option maxHeartbeats 4000000 in
theorem sA_v12 (W : Valuation τ sig (Elt Ideal)) :
    after opsA W (Proc.devRef .tc main_v12)
      = broadcastInDim S100000x1 ![0] bcast_S100000_S100000x1_0 (dv (W (Proc.devRef .tc main_arg1))) := by
  unfold opsA
  simp only [ops, List.drop_succ_cons, List.drop_zero, List.take_succ_cons, List.take_zero]
  after_results_simp
  rfl

set_option maxHeartbeats 4000000 in
/-- A hidden layer's stretch: from the edge rows, the column of row scales (given as the column of a vector `d`), the
    rows and the layer's parameters. -/
theorem sB_v31 (W : Valuation τ sig (Elt Ideal)) (d : FVec Ideal S100000 .f32)
    (h12 : W (Proc.devRef .tc main_v12) = broadcastInDim S100000x1 ![0] bcast_S100000_S100000x1_0 d) :
    after opsB W (Proc.devRef .tc main_v31)
      = hidden hN (readCol 100000#32 bcast_S_S1600000 bcast_S1600000_S1600000x1_0 (W (Proc.devRef .tc main_v1)))
          (landCol bcast_S1600000_S1600000x1_0 (W (Proc.devRef .tc main_v3))) d
          (W (Proc.devRef .tc main_arg2)) (W (Proc.devRef .tc main_arg3)) (W (Proc.devRef .tc main_arg4))
          (W (Proc.devRef .tc main_arg0)) := by
  unfold opsB
  simp only [ops, List.drop_succ_cons, List.drop_zero, List.take_succ_cons, List.take_zero]
  after_results_simp
  simp only [ofBuf_toBuf]
  rw [toBuf_self main_v31, ofBuf_self main_v30]
  rw [h12, graphStep_eq hN gather_S100000x128_S1600000x1_S1600000x128_1_0_n_n_0_1_1128_wf
      gather_S100000x128_S1600000x1_S1600000x128_1_0_n_n_0_1_1128 rfl
      scatter_S100000x128_S1600000x1_S1600000x128_1_0_0_1_wf scatter_S100000x128_S1600000x1_S1600000x128_1_0_0_1 rfl
      bcast_S_S100000x128,
    refLayer_eq dot_S100000x128_S128x128_S100000x128_1_0_0_1_n_n rfl]
  rfl

set_option maxHeartbeats 4000000 in
theorem sC_v50 (W : Valuation τ sig (Elt Ideal)) (d : FVec Ideal S100000 .f32)
    (h12 : W (Proc.devRef .tc main_v12) = broadcastInDim S100000x1 ![0] bcast_S100000_S100000x1_0 d) :
    after opsC W (Proc.devRef .tc main_v50)
      = hidden hN (readCol 100000#32 bcast_S_S1600000 bcast_S1600000_S1600000x1_0 (W (Proc.devRef .tc main_v1)))
          (landCol bcast_S1600000_S1600000x1_0 (W (Proc.devRef .tc main_v3))) d
          (W (Proc.devRef .tc main_arg5)) (W (Proc.devRef .tc main_arg6)) (W (Proc.devRef .tc main_arg7))
          (W (Proc.devRef .tc main_v31)) := by
  unfold opsC
  simp only [ops, List.drop_succ_cons, List.drop_zero, List.take_succ_cons, List.take_zero]
  after_results_simp
  simp only [ofBuf_toBuf]
  rw [toBuf_self main_v50, ofBuf_self main_v49]
  rw [h12, graphStep_eq hN gather_S100000x128_S1600000x1_S1600000x128_1_0_n_n_0_1_1128_wf
      gather_S100000x128_S1600000x1_S1600000x128_1_0_n_n_0_1_1128 rfl
      scatter_S100000x128_S1600000x1_S1600000x128_1_0_0_1_wf scatter_S100000x128_S1600000x1_S1600000x128_1_0_0_1 rfl
      bcast_S_S100000x128,
    refLayer_eq dot_S100000x128_S128x128_S100000x128_1_0_0_1_n_n rfl]
  rfl

set_option maxHeartbeats 4000000 in
theorem sD_v68 (W : Valuation τ sig (Elt Ideal)) (d : FVec Ideal S100000 .f32)
    (h12 : W (Proc.devRef .tc main_v12) = broadcastInDim S100000x1 ![0] bcast_S100000_S100000x1_0 d) :
    after opsD W (Proc.devRef .tc main_v68)
      = logits hN (readCol 100000#32 bcast_S_S1600000 bcast_S1600000_S1600000x1_0 (W (Proc.devRef .tc main_v1)))
          (landCol bcast_S1600000_S1600000x1_0 (W (Proc.devRef .tc main_v3))) d
          (W (Proc.devRef .tc main_arg8)) (W (Proc.devRef .tc main_arg9)) (W (Proc.devRef .tc main_arg10))
          (W (Proc.devRef .tc main_v50)) := by
  unfold opsD
  simp only [ops, List.drop_succ_cons, List.drop_zero, List.take_succ_cons, List.take_zero]
  after_results_simp
  rw [h12, graphStep_eq hN gather_S100000x128_S1600000x1_S1600000x128_1_0_n_n_0_1_1128_wf
      gather_S100000x128_S1600000x1_S1600000x128_1_0_n_n_0_1_1128 rfl
      scatter_S100000x128_S1600000x1_S1600000x128_1_0_0_1_wf scatter_S100000x128_S1600000x1_S1600000x128_1_0_0_1 rfl
      bcast_S_S100000x128,
    refLayer_eq dot_S100000x128_S128x40_S100000x40_1_0_0_1_n_n rfl]
  rfl

set_option maxHeartbeats 4000000 in
theorem sE_v69 (W : Valuation τ sig (Elt Ideal)) :
    after opsE W (Proc.devRef .tc main_v69) = logSoftmaxRows (W (Proc.devRef .tc main_v68)) := by
  unfold opsE
  simp only [ops, List.drop_succ_cons, List.drop_zero, List.take_succ_cons, List.take_zero]
  after_results_simp
  simp only [ofBuf_toBuf]
  rw [toBuf_self main_v69, ofBuf_self main_v68]
  exact logSoftmax_eq reducesTo_S100000x40_S100000_d1 (by decide) h_S_ bcast_S_S100000 bcast_S100000_S100000x1_0
    bcast_S100000x1_S100000x40_0_1 (W (Proc.devRef .tc main_v68))

/-! ## The boundaries, read back to the arguments -/

variable (m : (ℓ : Loc nD τ sig) → Buf (Elt Ideal) ℓ) (c : Dev nD)

/-- The launch contents of core `c`. -/
abbrev Z0 : Valuation τ sig (Elt Ideal) := launchContents m c
abbrev ZA : Valuation τ sig (Elt Ideal) := after opsA (Z0 m c)
abbrev ZB : Valuation τ sig (Elt Ideal) := after opsB (ZA m c)
abbrev ZC : Valuation τ sig (Elt Ideal) := after opsC (ZB m c)
abbrev ZD : Valuation τ sig (Elt Ideal) := after opsD (ZC m c)

theorem ZA_arg0 : ZA m c (Proc.devRef .tc main_arg0) = m ((c.tc : Thread nD τ).loc main_arg0) := keepA _ main_arg0 (by decide)
theorem ZA_arg1 : ZA m c (Proc.devRef .tc main_arg1) = m ((c.tc : Thread nD τ).loc main_arg1) := keepA _ main_arg1 (by decide)
theorem ZA_arg2 : ZA m c (Proc.devRef .tc main_arg2) = m ((c.tc : Thread nD τ).loc main_arg2) := keepA _ main_arg2 (by decide)
theorem ZA_arg3 : ZA m c (Proc.devRef .tc main_arg3) = m ((c.tc : Thread nD τ).loc main_arg3) := keepA _ main_arg3 (by decide)
theorem ZA_arg4 : ZA m c (Proc.devRef .tc main_arg4) = m ((c.tc : Thread nD τ).loc main_arg4) := keepA _ main_arg4 (by decide)
theorem ZA_arg5 : ZA m c (Proc.devRef .tc main_arg5) = m ((c.tc : Thread nD τ).loc main_arg5) := keepA _ main_arg5 (by decide)
theorem ZA_arg6 : ZA m c (Proc.devRef .tc main_arg6) = m ((c.tc : Thread nD τ).loc main_arg6) := keepA _ main_arg6 (by decide)
theorem ZA_arg7 : ZA m c (Proc.devRef .tc main_arg7) = m ((c.tc : Thread nD τ).loc main_arg7) := keepA _ main_arg7 (by decide)
theorem ZA_arg8 : ZA m c (Proc.devRef .tc main_arg8) = m ((c.tc : Thread nD τ).loc main_arg8) := keepA _ main_arg8 (by decide)
theorem ZA_arg9 : ZA m c (Proc.devRef .tc main_arg9) = m ((c.tc : Thread nD τ).loc main_arg9) := keepA _ main_arg9 (by decide)
theorem ZA_arg10 : ZA m c (Proc.devRef .tc main_arg10) = m ((c.tc : Thread nD τ).loc main_arg10) := keepA _ main_arg10 (by decide)
theorem ZA_v1 : ZA m c (Proc.devRef .tc main_v1)
    = edgeRow 0 (m ((c.tc : Thread nD τ).loc main_arg1)) slices_S2x1600000_S1x1600000_0_0 shapeCasts_S1x1600000_S1600000 := sA_v1 _
theorem ZA_v3 : ZA m c (Proc.devRef .tc main_v3)
    = edgeRow 1 (m ((c.tc : Thread nD τ).loc main_arg1)) slices_S2x1600000_S1x1600000_1_0 shapeCasts_S1x1600000_S1600000 := sA_v3 _
theorem ZA_v12 : ZA m c (Proc.devRef .tc main_v12)
    = broadcastInDim S100000x1 ![0] bcast_S100000_S100000x1_0 (dv (m ((c.tc : Thread nD τ).loc main_arg1))) := sA_v12 _

/-- The first hidden layer's rows. -/
def h1 : FVec Ideal S100000x128 .f32 :=
  hidden hN (gi (m ((c.tc : Thread nD τ).loc main_arg1))) (di (m ((c.tc : Thread nD τ).loc main_arg1))) (dv (m ((c.tc : Thread nD τ).loc main_arg1))) (m ((c.tc : Thread nD τ).loc main_arg2)) (m ((c.tc : Thread nD τ).loc main_arg3)) (m ((c.tc : Thread nD τ).loc main_arg4)) (m ((c.tc : Thread nD τ).loc main_arg0))
/-- The second hidden layer's rows. -/
def h2 : FVec Ideal S100000x128 .f32 :=
  hidden hN (gi (m ((c.tc : Thread nD τ).loc main_arg1))) (di (m ((c.tc : Thread nD τ).loc main_arg1))) (dv (m ((c.tc : Thread nD τ).loc main_arg1))) (m ((c.tc : Thread nD τ).loc main_arg5)) (m ((c.tc : Thread nD τ).loc main_arg6)) (m ((c.tc : Thread nD τ).loc main_arg7)) (h1 m c)

theorem ZB_v31 : ZB m c (Proc.devRef .tc main_v31) = h1 m c := by
  refine (sB_v31 (ZA m c) (dv (m ((c.tc : Thread nD τ).loc main_arg1))) (ZA_v12 m c)).trans ?_
  rw [ZA_v1, ZA_v3, ZA_arg2, ZA_arg3, ZA_arg4, ZA_arg0]
  rfl
theorem ZB_v1 : ZB m c (Proc.devRef .tc main_v1)
    = edgeRow 0 (m ((c.tc : Thread nD τ).loc main_arg1)) slices_S2x1600000_S1x1600000_0_0 shapeCasts_S1x1600000_S1600000 :=
  (keepB _ main_v1 (by decide)).trans (ZA_v1 m c)
theorem ZB_v3 : ZB m c (Proc.devRef .tc main_v3)
    = edgeRow 1 (m ((c.tc : Thread nD τ).loc main_arg1)) slices_S2x1600000_S1x1600000_1_0 shapeCasts_S1x1600000_S1600000 :=
  (keepB _ main_v3 (by decide)).trans (ZA_v3 m c)
theorem ZB_v12 : ZB m c (Proc.devRef .tc main_v12)
    = broadcastInDim S100000x1 ![0] bcast_S100000_S100000x1_0 (dv (m ((c.tc : Thread nD τ).loc main_arg1))) :=
  (keepB _ main_v12 (by decide)).trans (ZA_v12 m c)
theorem ZB_arg5 : ZB m c (Proc.devRef .tc main_arg5) = m ((c.tc : Thread nD τ).loc main_arg5) :=
  (keepB _ main_arg5 (by decide)).trans (ZA_arg5 m c)
theorem ZB_arg6 : ZB m c (Proc.devRef .tc main_arg6) = m ((c.tc : Thread nD τ).loc main_arg6) :=
  (keepB _ main_arg6 (by decide)).trans (ZA_arg6 m c)
theorem ZB_arg7 : ZB m c (Proc.devRef .tc main_arg7) = m ((c.tc : Thread nD τ).loc main_arg7) :=
  (keepB _ main_arg7 (by decide)).trans (ZA_arg7 m c)
theorem ZB_arg8 : ZB m c (Proc.devRef .tc main_arg8) = m ((c.tc : Thread nD τ).loc main_arg8) :=
  (keepB _ main_arg8 (by decide)).trans (ZA_arg8 m c)
theorem ZB_arg9 : ZB m c (Proc.devRef .tc main_arg9) = m ((c.tc : Thread nD τ).loc main_arg9) :=
  (keepB _ main_arg9 (by decide)).trans (ZA_arg9 m c)
theorem ZB_arg10 : ZB m c (Proc.devRef .tc main_arg10) = m ((c.tc : Thread nD τ).loc main_arg10) :=
  (keepB _ main_arg10 (by decide)).trans (ZA_arg10 m c)

theorem ZC_v50 : ZC m c (Proc.devRef .tc main_v50) = h2 m c := by
  refine (sC_v50 (ZB m c) (dv (m ((c.tc : Thread nD τ).loc main_arg1))) (ZB_v12 m c)).trans ?_
  rw [ZB_v1, ZB_v3, ZB_arg5, ZB_arg6, ZB_arg7, ZB_v31]
  rfl
theorem ZC_v1 : ZC m c (Proc.devRef .tc main_v1)
    = edgeRow 0 (m ((c.tc : Thread nD τ).loc main_arg1)) slices_S2x1600000_S1x1600000_0_0 shapeCasts_S1x1600000_S1600000 :=
  (keepC _ main_v1 (by decide)).trans (ZB_v1 m c)
theorem ZC_v3 : ZC m c (Proc.devRef .tc main_v3)
    = edgeRow 1 (m ((c.tc : Thread nD τ).loc main_arg1)) slices_S2x1600000_S1x1600000_1_0 shapeCasts_S1x1600000_S1600000 :=
  (keepC _ main_v3 (by decide)).trans (ZB_v3 m c)
theorem ZC_v12 : ZC m c (Proc.devRef .tc main_v12)
    = broadcastInDim S100000x1 ![0] bcast_S100000_S100000x1_0 (dv (m ((c.tc : Thread nD τ).loc main_arg1))) :=
  (keepC _ main_v12 (by decide)).trans (ZB_v12 m c)
theorem ZC_arg8 : ZC m c (Proc.devRef .tc main_arg8) = m ((c.tc : Thread nD τ).loc main_arg8) :=
  (keepC _ main_arg8 (by decide)).trans (ZB_arg8 m c)
theorem ZC_arg9 : ZC m c (Proc.devRef .tc main_arg9) = m ((c.tc : Thread nD τ).loc main_arg9) :=
  (keepC _ main_arg9 (by decide)).trans (ZB_arg9 m c)
theorem ZC_arg10 : ZC m c (Proc.devRef .tc main_arg10) = m ((c.tc : Thread nD τ).loc main_arg10) :=
  (keepC _ main_arg10 (by decide)).trans (ZB_arg10 m c)

theorem ZD_v68 : ZD m c (Proc.devRef .tc main_v68)
    = logits hN (gi (m ((c.tc : Thread nD τ).loc main_arg1))) (di (m ((c.tc : Thread nD τ).loc main_arg1))) (dv (m ((c.tc : Thread nD τ).loc main_arg1))) (m ((c.tc : Thread nD τ).loc main_arg8)) (m ((c.tc : Thread nD τ).loc main_arg9)) (m ((c.tc : Thread nD τ).loc main_arg10)) (h2 m c) := by
  refine (sD_v68 (ZC m c) (dv (m ((c.tc : Thread nD τ).loc main_arg1))) (ZC_v12 m c)).trans ?_
  rw [ZC_v1, ZC_v3, ZC_arg8, ZC_arg9, ZC_arg10, ZC_v50]
  rfl

/-- THE REFERENCE'S RESULT: the network of Spec.lean of the argument arrays. -/
theorem result_eq :
    after (ops (F := Ideal)) (launchContents m c) (Proc.devRef .tc main_v69)
      = network hN (gi (m ((c.tc : Thread nD τ).loc main_arg1))) (di (m ((c.tc : Thread nD τ).loc main_arg1))) (dv (m ((c.tc : Thread nD τ).loc main_arg1))) (m ((c.tc : Thread nD τ).loc main_arg0))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10)) := by
  rw [after_stretches]
  refine (sE_v69 (ZD m c)).trans ?_
  rw [ZD_v68]
  rfl

end Cert.ReferenceIdeal.Fold

end
-- ==== Proof.lean ====
/-
  The certificate of a three-layer mean-aggregation network over a graph of 100000 nodes and 1600000 edges: a kernel
  program of four pallas_calls against a plain jnp reference.

  Both programs compute, from the node rows x, the edges and three layers' parameters,
      deg r   = the number of edges landing on row r,            d r = 1 / max (deg r) 1
      aggr h  = per row r, the sum of the rows h reads over the edges landing on r
      h1 = max (((aggr x · d) · Wl0 + b0) + x · Wr0) 0,    h2 = max (((aggr h1 · d) · Wl1 + b1) + h1 · Wr1) 0
      z  = ((aggr h2 · d) · Wl2 + b2) + h2 · Wr2,          result = z − rowmax z − log Σ exp (z − rowmax z).
  The kernel program differs in three ways. It adds the bias last — addition on the extended reals is commutative and
  associative. It narrows rows and weights to bf16 before the gathers and the matrix products — a change of format is
  the identity on the extended reals. And in the last layer it multiplies by Wl2 BEFORE aggregating,
      aggr (h2 · Wl2) · d   in place of   (aggr h2 · d) · Wl2,
  which is the same sum of products h2 · d · Wl2 only where multiplication distributes over the sums: for real entries.
  That is where the precondition (every float input finite) is used; the row scales d are real whatever the edges are.

  Modules: Spec (the functions), Algebra (real-valuedness and the exchange), BlockLayers / RowCongr (a kernel body on a
  block of rows is the layer of those rows), Region0–3 (each kernel's output array), KernelRun / KernelFold (the kernel
  program's run and its buffers read back to the arguments), HostLayers / RefFold (the reference's operations read back),
  Finite (the precondition read back), Bridge (the two values are one function). The frames are the generated ones.
-/
import proofs.«139287_j36197984370866_2_alg».proof.Defs
import proofs.«139287_j36197984370866_2_alg».proof.Proof.Gen.Kernel
import proofs.«139287_j36197984370866_2_alg».proof.Proof.Gen.Kernel.Skeleton
import proofs.«139287_j36197984370866_2_alg».proof.Proof.GenP.Kernel.Launch
import proofs.«139287_j36197984370866_2_alg».proof.Proof.Gen.Kernel.Points
import proofs.«139287_j36197984370866_2_alg».proof.Proof.GenP.Kernel.Frame
import proofs.«139287_j36197984370866_2_alg».proof.Proof.Gen.KernelIdeal
import proofs.«139287_j36197984370866_2_alg».proof.Proof.Gen.KernelIdeal.Skeleton
import proofs.«139287_j36197984370866_2_alg».proof.Proof.GenP.KernelIdeal.Launch
import proofs.«139287_j36197984370866_2_alg».proof.Proof.Gen.KernelIdeal.Points
import proofs.«139287_j36197984370866_2_alg».proof.Proof.GenP.KernelIdeal.Frame
import proofs.«139287_j36197984370866_2_alg».proof.Proof.Gen.ReferenceIdeal
import proofs.«139287_j36197984370866_2_alg».proof.Proof.Gen.Pre_finite_inputs
import proofs.«139287_j36197984370866_2_alg».proof.Proof.GenP.ReferenceIdeal.Run
import proofs.«139287_j36197984370866_2_alg».proof.Proof.Bridge
import proofs.«139287_j36197984370866_2_alg».proof.Proof.RefFold
import Idealize.ShloMosaic.Adequacy
import Idealize.ShloMosaic.Init

noncomputable section

namespace Cert.Proof

open Idealize.ShloMosaic Idealize.ShloMosaic.TcCoe Idealize.SL.Sem

/-- The kernel program as printed runs, and leaves its arguments unchanged. -/
theorem frame_kernel : Cert.frame_Kernel := fun m ρ _ => Cert.Kernel.GenP.frame m ρ

/-- So does its idealization. -/
theorem frame_kernelIdeal : Cert.frame_KernelIdeal := fun m ρ _ => Cert.KernelIdeal.GenP.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote no operation: there is nothing to preserve. -/
theorem preserves : Cert.preserves_Kernel_KernelIdeal := trivial

/-- From memories agreeing on the arguments, the idealized kernel and the idealized reference both run and end with the
    same result: the network of the argument arrays (`Bridge.G`). -/
theorem algebraic : Cert.algebraic_KernelIdeal_ReferenceIdeal := by
  intro m ρ m' ρ' hpre hagree
  refine ⟨fun c => Bridge.G m c, ?_, ?_⟩
  · exact (θ_run Cert.KernelIdeal.defs _ _).mono
      (fun r h c => ⟨(h c).1.trans (Bridge.kernel_value m ρ c (hpre c)), (h c).2⟩)
      (Cert.KernelIdeal.RunValue.run_result (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.Fold.result_eq m' c]
    obtain ⟨e0, e1, e2, e3, e4, e5, e6, e7, e8, e9, e10⟩ := hagree c
    rw [e0, e1, e2, e3, e4, e5, e6, e7, e8, e9, e10]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
